-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x4096 .f32
  ∧ IdealRules.sign_bit.Statement Cert.KernelIdeal.S512x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S512x4096 : Shape := ⟨2, ![512, 4096]⟩
abbrev S1x4096 : Shape := ⟨2, ![1, 4096]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩
abbrev S2048 : Shape := ⟨1, ![2048]⟩
abbrev S_ : Shape := ⟨0, ![]⟩

abbrev nBuf : Space → Nat
  | .hbm => 18
  | .vmem => 27
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .hbm, ⟨7, _⟩ => ⟨S1x4096, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S_, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1024x2048, .f32⟩
  | .local _ .vmem, ⟨21, _⟩ => ⟨S512x4096, .f32⟩
  | .local _ .vmem, ⟨22, _⟩ => ⟨S512x4096, .f32⟩
  | .local _ .vmem, ⟨23, _⟩ => ⟨S1x4096, .f32⟩
  | .local _ .vmem, ⟨24, _⟩ => ⟨S1x4096, .f32⟩
  | .local _ .vmem, ⟨25, _⟩ => ⟨S512x4096, .f32⟩
  | .local _ .vmem, ⟨26, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![2, 8, 4], ![false, false, false]⟩

def k2_cond3 (i : grid2.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1024x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

abbrev stage2_5 : Fin 2 → Memref sig .tc .vmem S1x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S1x2048_S1x2048_0_0 : ∀ a, (![0, 0] : Fin 2 → Nat) a + S1x2048.size a ≤ S1x2048.size a
  h_S1x2048 : 0 < S1x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1x2048_S1x2048 : S1x2048.ShapeCasts S1x2048
  broadcasts_S1x2048_S1024x2048 : S1x2048.Broadcasts S1024x2048
  reduces_S1024x2048_S2048 : S1024x2048.Reduces [0] S2048
  shapeCasts_S2048_S1x2048 : S2048.ShapeCasts S1x2048
  bcast_S_S1x4096 : S_.BroadcastsInDim S1x4096 (![] : Fin 0 → Fin S1x4096.rank)
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S512x4096_S512x4096 : S512x4096.ShapeCasts S512x4096
  broadcasts_S1x4096_S512x4096 : S1x4096.Broadcasts S512x4096
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .bf16 = 32 ∨ (Rect.block (s := S8192x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S4096x4096.size a
  hwx2_1 : ∀ i : grid2.Coords, EltTy.bits .bf16 = 32 ∨ (Rect.block (s := S4096x4096) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x4096.size a
  hwx2_2 : ∀ i : grid2.Coords, EltTy.bits .f32 = 32 ∨ (Rect.block (s := S1x4096) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x2048.size a ≤ S8192x4096.size a
  hwx2_3 : ∀ i : grid2.Coords, EltTy.bits .f32 = 32 ∨ (Rect.block (s := S8192x4096) S1024x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x4096.size a
  hwx2_4 : ∀ i : grid2.Coords, EltTy.bits .f32 = 32 ∨ (Rect.block (s := S1x4096) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2048.size a ≤ S1x4096.size a
  hwx2_5 : ∀ i : grid2.Coords, EltTy.bits .f32 = 32 ∨ (Rect.block (s := S1x4096) S1x2048.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S8192x4096.size a
  hwx3_0 : ∀ i : grid3.Coords, EltTy.bits .f32 = 32 ∨ (Rect.block (s := S8192x4096) S512x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4096.size a ≤ S1x4096.size a
  hwx3_1 : ∀ i : grid3.Coords, EltTy.bits .f32 = 32 ∨ (Rect.block (s := S1x4096) S1x4096.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4096.size a ≤ S1x4096.size a
  hwx3_2 : ∀ i : grid3.Coords, EltTy.bits .f32 = 32 ∨ (Rect.block (s := S1x4096) S1x4096.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x4096.size a ≤ S8192x4096.size a
  hwx3_3 : ∀ i : grid3.Coords, EltTy.bits .f32 = 32 ∨ (Rect.block (s := S8192x4096) S512x4096.size (cc3_transform_3 i) (hinb3_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3_0) S1024x2048.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3_1) S1x2048.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v3_2) S1x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun i => !(k2_cond3 i == 1#1) | 4 => fun i => !(k2_cond1 i == 1#1) && !(k2_cond3 i == 1#1) | 5 => fun i => !(k2_cond1 i == 1#1) && !(k2_cond3 i == 1#1) | ⟨_ + 6, h⟩ => absurd h (Nat.not_lt.2 (Nat.le_add_left _ _))

abbrev win3_0 : Pipeline.Window sig grid3 :=
  Pipeline.Window.ofSpec (Memref.whole main_v3_0) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1x4096.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S512x4096.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S1x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S4096_d0 : S8192x4096.ReducesTo [0] S4096
  h_S_ : 0 < S_.numel
  bcast_S_S4096 : S_.BroadcastsInDim S4096 (![] : Fin 0 → Fin S4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.K.Reg0.lean ====
import proofs.«113576_j90099823935564_2_alg».proof.Proof.Gen.Kernel.Launch
import proofs.«113576_j90099823935564_2_alg».proof.Proof.Gen.Kernel.Skeleton
import proofs.«113576_j90099823935564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main: the binarize kernel of pipeline 0, at the entry contents `V`

The body reads its one input block whole, maps it pointwise to ±1 (or leaves a zero in place), and stores the result
over the whole output block. The output buffer is also read once before the store; the value read is unused, so the
buffer's prior contents never matter. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): the window is uncut and
    never idle, and an unfetched point has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body touches: the whole 512×4096 block. -/
abbrev r0_0 : Rect S512x4096 := Rect.unit (s := S512x4096) ![0, 0] S512x4096.size inb_S512x4096_S512x4096_0_0

/-! ## What the body leaves in the output window's buffer -/

/-- Window 1's staging buffer after the body, from the input block: its one store as a piece, the payload the
    skeleton's. -/
def out0_1 (x0 : Vec F S512x4096 .f32) : Vec F S512x4096 .bf16 :=
  View.canon [⟨r0_0, k0_pay1 (View.ld x0 r0_0)⟩]

/-- The one store is the whole block, so it covers the buffer. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-! ## The body's triple -/

set_option maxHeartbeats 1000000 in
/-- The kernel body on whole staging memrefs, the input's at read contents `x0` and the output's at anything, runs
    to the continuation holding the input's as it was and the output's at `out0_1 x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__binarize_kernel i arg1 harg1 arg2 harg2) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at point
    `t` the input's buffer at its block and the output's at `out0_1` of the input block; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block (`before0_0`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«113576_j90099823935564_2_alg».proof.Proof.Gen.Kernel.Launch
import proofs.«113576_j90099823935564_2_alg».proof.Proof.Gen.Kernel.Skeleton
import proofs.«113576_j90099823935564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: the binarize kernel of pipeline 1, at the entry contents `V`

The body reads its one input block whole, maps it pointwise to ±1 (or leaves a zero in place), and stores the result
over the whole output block. The output buffer is also read once before the store; the value read is unused, so the
buffer's prior contents never matter. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): the window is uncut and
    never idle, and an unfetched point has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one rectangle the body touches: the whole 512×4096 block. -/
abbrev r1_0 : Rect S512x4096 := Rect.unit (s := S512x4096) ![0, 0] S512x4096.size inb_S512x4096_S512x4096_0_0

/-! ## What the body leaves in the output window's buffer -/

/-- Window 1's staging buffer after the body, from the input block: its one store as a piece, the payload the
    skeleton's. -/
def out1_1 (x0 : Vec F S512x4096 .f32) : Vec F S512x4096 .bf16 :=
  View.canon [⟨r1_0, k1_pay1 (View.ld x0 r1_0)⟩]

/-- The one store is the whole block, so it covers the buffer. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

/-! ## The body's triple -/

set_option maxHeartbeats 1000000 in
/-- The kernel body on whole staging memrefs, the input's at read contents `x0` and the output's at anything, runs
    to the continuation holding the input's as it was and the output's at `out1_1 x0`. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__binarize_kernel i arg1 harg1 arg2 harg2) K := by
  simp only [cc1__binarize_kernel_eq_skeleton]; unfold cc1__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body at point
    `t` the input's buffer at its block and the output's at `out1_1` of the input block; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block (`before1_0`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Base.lean ====
/-
  The matmul region (the third pallas_call): the grid is (j, i, k) = (2, 8, 4), a point's position is
  t = 32 j + 4 i + k.  The body zeroes the two column-sum blocks where i = 0 and k = 0, zeroes the accumulator
  where k = 0, adds one 1024-deep partial product to the accumulator at every point, and where k = 3 writes the
  output block (accumulator + bias) and adds its column sums and column sums of squares to the two sum blocks.
  Here: the three conditions in closed form over the position, where each output window is idle or written
  back, and the names of the buffers a point's body is run on.
-/
import proofs.«113576_j90099823935564_2_alg».proof.Proof.Gen.Kernel.Launch
import proofs.«113576_j90099823935564_2_alg».proof.Proof.Gen.Kernel.Skeleton
import proofs.«113576_j90099823935564_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's three conditions, over the grid point -/

/-- i = 0 and k = 0: the column-sum blocks are zeroed. -/
abbrev cond2_1 (i : grid2.Coords) : Prop := k2_cond1 i = 1#1
/-- k = 0: the accumulator is zeroed. -/
abbrev cond2_2 (i : grid2.Coords) : Prop := (Scalar.cmpi .ne (Scalar.extui (Scalar.cmpi .eq (BitVec.ofNat 32 (i 2).val) 0#32)) 0#32) = 1#1
/-- k = 3: the output block and the column sums are written. -/
abbrev cond2_3 (i : grid2.Coords) : Prop := k2_cond3 i = 1#1

theorem hcond2_1 : ∀ t : Fin cfg2.N, cond2_1 (grid2.coords t) ↔ t.val % 32 = 0 :=
  (by decide +kernel : ∀ t : Fin grid2.N, cond2_1 (grid2.coords t) ↔ t.val % 32 = 0)
theorem hcond2_2 : ∀ t : Fin cfg2.N, cond2_2 (grid2.coords t) ↔ t.val % 4 = 0 :=
  (by decide +kernel : ∀ t : Fin grid2.N, cond2_2 (grid2.coords t) ↔ t.val % 4 = 0)
theorem hcond2_3 : ∀ t : Fin cfg2.N, cond2_3 (grid2.coords t) ↔ t.val % 4 = 3 :=
  (by decide +kernel : ∀ t : Fin grid2.N, cond2_3 (grid2.coords t) ↔ t.val % 4 = 3)

/-! ## Where the windows are idle, and where an idle window is not written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output block is stored only where k = 3. -/
theorem idleAt2_3 : ∀ t : Fin cfg2.N, ¬ t.val % 4 = 3 → cfg2.idle 3 (grid2.coords t) = true := by decide +kernel
theorem noFlush2_3 : ∀ t : Fin cfg2.N, ¬ t.val % 4 = 3 → (cfg2.win 3).flush t = false := by decide +kernel
theorem liveAt2_3 : ∀ t : Fin cfg2.N, t.val % 4 = 3 → cfg2.idle 3 (grid2.coords t) = false := by decide +kernel
/-- The column-sum blocks are stored where i = 0 ∧ k = 0 and where k = 3. -/
theorem idleAt2_4 : ∀ t : Fin cfg2.N, ¬ t.val % 32 = 0 → ¬ t.val % 4 = 3 → cfg2.idle 4 (grid2.coords t) = true := by decide +kernel
theorem noFlush2_4 : ∀ t : Fin cfg2.N, ¬ t.val % 4 = 3 → (cfg2.win 4).flush t = false := by decide +kernel
theorem liveAt2_4_zero : ∀ t : Fin cfg2.N, t.val % 32 = 0 → cfg2.idle 4 (grid2.coords t) = false := by decide +kernel
theorem liveAt2_4_last : ∀ t : Fin cfg2.N, t.val % 4 = 3 → cfg2.idle 4 (grid2.coords t) = false := by decide +kernel
theorem idleAt2_5 : ∀ t : Fin cfg2.N, ¬ t.val % 32 = 0 → ¬ t.val % 4 = 3 → cfg2.idle 5 (grid2.coords t) = true := by decide +kernel
theorem noFlush2_5 : ∀ t : Fin cfg2.N, ¬ t.val % 4 = 3 → (cfg2.win 5).flush t = false := by decide +kernel
theorem liveAt2_5_zero : ∀ t : Fin cfg2.N, t.val % 32 = 0 → cfg2.idle 5 (grid2.coords t) = false := by decide +kernel
theorem liveAt2_5_last : ∀ t : Fin cfg2.N, t.val % 4 = 3 → cfg2.idle 5 (grid2.coords t) = false := by decide +kernel

/-! ## The buffers a point's body runs on -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x2048 .f32 := win2_5.stage (cfg2.slots t 5)
abbrev hs2_5 (t : Fin cfg2.N) : (ms2_5 t).IsWhole := hstage2_5 ((cfg2.slots t 5).cast nbuf2_5)
/-- The accumulator: a whole buffer of the kernel's own, carried from point to point. -/
abbrev accM : Memref sig .tc .vmem S1024x2048 .f32 := Memref.whole cc2_scratch0

/-- The whole-buffer rectangles the body loads and stores through. -/
abbrev rAcc : Rect S1024x2048 := Rect.unit (s := S1024x2048) ![0, 0] S1024x2048.size inb_S1024x2048_S1024x2048_0_0
abbrev rRow : Rect S1x2048 := Rect.unit (s := S1x2048) ![0, 0] S1x2048.size inb_S1x2048_S1x2048_0_0
abbrev rLhs : Rect S1024x1024 := Rect.unit (s := S1024x1024) ![0, 0] S1024x1024.size inb_S1024x1024_S1024x1024_0_0
abbrev rRhs : Rect S2048x1024 := Rect.unit (s := S2048x1024) ![0, 0] S2048x1024.size inb_S2048x1024_S2048x1024_0_0

/-- The other regions' staging buffers (whole, each at some contents): this region never touches them. -/
def othersS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f))

/-- The class invariant of this region taken apart: the other regions' staging buffers, the accumulator at some
    contents, the generator register at some state. -/
theorem PhiA2_split (c : Dev nD) :
    (Pipeline.ΦA spec2 c : sProp 𝕄) ⊢ iprop(othersS (F := F) c ∗ (∃ d, owns (c : Thread nD τ) accM fullShare d) ∗ (∃ r, prngReg c r)) := by
  unfold Pipeline.ΦA othersS; rw [scopedRest2_eq]; simp only [accM, owns_whole]
  iintro ⟨⟨H_cc0_stg0_0, H_cc0_stg0_1, H_cc0_stg1_0, H_cc0_stg1_1, H_cc1_stg0_0, H_cc1_stg0_1, H_cc1_stg1_0, H_cc1_stg1_1, H_cc2_scratch0, H_cc3_stg0_0, H_cc3_stg0_1, H_cc3_stg1_0, H_cc3_stg2_0, H_cc3_stg3_0, H_cc3_stg3_1⟩, Hg⟩
  isplitl [H_cc0_stg0_0 H_cc0_stg0_1 H_cc0_stg1_0 H_cc0_stg1_1 H_cc1_stg0_0 H_cc1_stg0_1 H_cc1_stg1_0 H_cc1_stg1_1 H_cc3_stg0_0 H_cc3_stg0_1 H_cc3_stg1_0 H_cc3_stg2_0 H_cc3_stg3_0 H_cc3_stg3_1]
  ·
    isplitl [H_cc0_stg0_0]; · iexact H_cc0_stg0_0
    isplitl [H_cc0_stg0_1]; · iexact H_cc0_stg0_1
    isplitl [H_cc0_stg1_0]; · iexact H_cc0_stg1_0
    isplitl [H_cc0_stg1_1]; · iexact H_cc0_stg1_1
    isplitl [H_cc1_stg0_0]; · iexact H_cc1_stg0_0
    isplitl [H_cc1_stg0_1]; · iexact H_cc1_stg0_1
    isplitl [H_cc1_stg1_0]; · iexact H_cc1_stg1_0
    isplitl [H_cc1_stg1_1]; · iexact H_cc1_stg1_1
    isplitl [H_cc3_stg0_0]; · iexact H_cc3_stg0_0
    isplitl [H_cc3_stg0_1]; · iexact H_cc3_stg0_1
    isplitl [H_cc3_stg1_0]; · iexact H_cc3_stg1_0
    isplitl [H_cc3_stg2_0]; · iexact H_cc3_stg2_0
    isplitl [H_cc3_stg3_0]; · iexact H_cc3_stg3_0
    iexact H_cc3_stg3_1
  isplitl [H_cc2_scratch0]; · iexact H_cc2_scratch0
  iexact Hg

/-- … and put back together. -/
theorem PhiA2_join (c : Dev nD) :
    iprop(othersS (F := F) c ∗ (∃ d, owns (c : Thread nD τ) accM fullShare d) ∗ (∃ r, prngReg c r)) ⊢ (Pipeline.ΦA spec2 c : sProp 𝕄) := by
  unfold Pipeline.ΦA othersS; rw [scopedRest2_eq]; simp only [accM, owns_whole]
  iintro ⟨⟨H_cc0_stg0_0, H_cc0_stg0_1, H_cc0_stg1_0, H_cc0_stg1_1, H_cc1_stg0_0, H_cc1_stg0_1, H_cc1_stg1_0, H_cc1_stg1_1, H_cc3_stg0_0, H_cc3_stg0_1, H_cc3_stg1_0, H_cc3_stg2_0, H_cc3_stg3_0, H_cc3_stg3_1⟩, H_cc2_scratch0, Hg⟩
  isplitr [Hg]
  ·
    isplitl [H_cc0_stg0_0]; · iexact H_cc0_stg0_0
    isplitl [H_cc0_stg0_1]; · iexact H_cc0_stg0_1
    isplitl [H_cc0_stg1_0]; · iexact H_cc0_stg1_0
    isplitl [H_cc0_stg1_1]; · iexact H_cc0_stg1_1
    isplitl [H_cc1_stg0_0]; · iexact H_cc1_stg0_0
    isplitl [H_cc1_stg0_1]; · iexact H_cc1_stg0_1
    isplitl [H_cc1_stg1_0]; · iexact H_cc1_stg1_0
    isplitl [H_cc1_stg1_1]; · iexact H_cc1_stg1_1
    isplitl [H_cc2_scratch0]; · iexact H_cc2_scratch0
    isplitl [H_cc3_stg0_0]; · iexact H_cc3_stg0_0
    isplitl [H_cc3_stg0_1]; · iexact H_cc3_stg0_1
    isplitl [H_cc3_stg1_0]; · iexact H_cc3_stg1_0
    isplitl [H_cc3_stg2_0]; · iexact H_cc3_stg2_0
    isplitl [H_cc3_stg3_0]; · iexact H_cc3_stg3_0
    iexact H_cc3_stg3_1
  iexact Hg

end Cert.Kernel.Hand

end
-- ==== Proof.K.Reg2RunA.lean ====
/-
  The matmul body where i = 0 and k = 0 (the first point of each j): both column-sum blocks and the accumulator
  are zeroed, then the first partial product is added to the accumulator.  The pieces the stores leave in each
  buffer are found by running the body.
-/
import proofs.«113576_j90099823935564_2_alg».proof.Proof.K.Reg2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun2_A (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (hc1 : cond2_1 i) (hc2 : cond2_2 i) (hc3 : ¬cond2_3 i)
    (x0 : Vec F S1024x1024 .bf16) (x1 : Vec F S2048x1024 .bf16) :
    Σ' (L4 : List (View.Piece (Elt F) S1x2048 .f32)), Σ' (L5 : List (View.Piece (Elt F) S1x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8 arg9 harg9) K } := by
  refine ⟨?_, ?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d4, %f4, -, H4⟩, ⟨%d5, %f5, -, H5⟩, ⟨%ds, %fs, -, HS⟩, Hk⟩
    obtain rfl := harg3.eq_unread hf0; obtain rfl := harg4.eq_unread hf1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H4]; · iexists _; iexact H4
    isplitl [H5]; · iexists _; iexact H5
    iexists _; iexact HS

end Cert.Kernel.Hand

end
-- ==== Proof.K.Reg2RunB.lean ====
/-
  The matmul body where k = 0 and i ≠ 0: the accumulator is zeroed, then the first partial product of the block
  is added to it.  The column-sum blocks and the output block are not touched.
-/
import proofs.«113576_j90099823935564_2_alg».proof.Proof.K.Reg2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun2_B (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (hc1 : ¬cond2_1 i) (hc2 : cond2_2 i) (hc3 : ¬cond2_3 i)
    (x0 : Vec F S1024x1024 .bf16) (x1 : Vec F S2048x1024 .bf16) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8 arg9 harg9) K } := by
  refine ⟨?_, fun E K => ?run⟩
  case run =>
    simp only [cc2__matmul_kernel_eq_skeleton]; unfold cc2__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.Kernel.Hand

end
-- ==== Proof.K.Reg2RunC.lean ====
/-
  The matmul body where k = 1 or k = 2: one partial product is added to the accumulator the point before left.
-/
import proofs.«113576_j90099823935564_2_alg».proof.Proof.K.Reg2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun2_C (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (hc1 : ¬cond2_1 i) (hc2 : ¬cond2_2 i) (hc3 : ¬cond2_3 i)
    (x0 : Vec F S1024x1024 .bf16) (x1 : Vec F S2048x1024 .bf16) (xs : Vec F S1024x2048 .f32) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg9 fullShare xs
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8 arg9 harg9) K } := by
  refine ⟨?_, fun E K => ?run⟩
  case run =>
    simp only [cc2__matmul_kernel_eq_skeleton]; unfold cc2__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg9.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.Kernel.Hand

end
-- ==== Proof.K.Reg2RunD.lean ====
/-
  The matmul body where k = 3: the last partial product is added to the accumulator; the output block is stored
  as accumulator + bias row, and its column sums and column sums of squares are added to the two sum blocks as the
  last live point left them.
-/
import proofs.«113576_j90099823935564_2_alg».proof.Proof.K.Reg2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 8000000 in
noncomputable def kernelRun2_D (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (hc1 : ¬cond2_1 i) (hc2 : ¬cond2_2 i) (hc3 : cond2_3 i)
    (x0 : Vec F S1024x1024 .bf16) (x1 : Vec F S2048x1024 .bf16) (x2 : Vec F S1x2048 .f32) (y4 y5 : Vec F S1x2048 .f32) (xs : Vec F S1024x2048 .f32) :
    Σ' (L3 : List (View.Piece (Elt F) S1024x2048 .f32)), Σ' (L4 : List (View.Piece (Elt F) S1x2048 .f32)), Σ' (L5 : List (View.Piece (Elt F) S1x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare y4 ∗ owns (c : Thread nD τ) arg8 fullShare y5 ∗ owns (c : Thread nD τ) arg9 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8 arg9 harg9) K } := by
  refine ⟨?_, ?_, ?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2
    obtain rfl := harg7.eq_unread hf4; obtain rfl := harg8.eq_unread hf5; obtain rfl := harg9.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    iexists _; iexact HS

end Cert.Kernel.Hand

end
-- ==== Proof.K.Reg2Dat.lean ====
/-
  The matmul region: what its buffers hold after each grid point, the invariant that carries the accumulator from
  point to point, and the body obligation at every point.

  After point t = 32 j + 4 i + k the accumulator holds the sum of the first k + 1 partial products of block (i, j);
  the two column-sum blocks hold zero from the first point of j and gain block (i, j)'s column sums (of the entries,
  of their squares) at each k = 3, and are carried unchanged through the points between; the output block holds
  accumulator + bias at k = 3.  The pieces each point's stores leave are those its case's run found.
-/
import proofs.«113576_j90099823935564_2_alg».proof.Proof.K.Reg2RunA
import proofs.«113576_j90099823935564_2_alg».proof.Proof.K.Reg2RunB
import proofs.«113576_j90099823935564_2_alg».proof.Proof.K.Reg2RunC
import proofs.«113576_j90099823935564_2_alg».proof.Proof.K.Reg2RunD
import Idealize.ShloMosaic.Lib.Pipeline.TableIdle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The pieces each case's run leaves cover their buffers -/

theorem coverA_4 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : cond2_1 i) (hc2 : cond2_2 i) (hc3 : ¬cond2_3 i) (x0 : Vec F S1024x1024 .bf16) (x1 : Vec F S2048x1024 .bf16) (y : S1x2048.Idx) :
    ∃ pc ∈ (kernelRun2_A (F := F) c i a3 h3 a4 h4 a5 h5 a6 h6 a7 h7 a8 h8 a9 h9 hc1 hc2 hc3 x0 x1).1, y ∈ pc.1.set :=
  View.cover_of_tiledL _ S1x2048.size (by sl_kernel_rfl) y

theorem coverA_5 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : cond2_1 i) (hc2 : cond2_2 i) (hc3 : ¬cond2_3 i) (x0 : Vec F S1024x1024 .bf16) (x1 : Vec F S2048x1024 .bf16) (y : S1x2048.Idx) :
    ∃ pc ∈ (kernelRun2_A (F := F) c i a3 h3 a4 h4 a5 h5 a6 h6 a7 h7 a8 h8 a9 h9 hc1 hc2 hc3 x0 x1).2.1, y ∈ pc.1.set :=
  View.cover_of_tiledL _ S1x2048.size (by sl_kernel_rfl) y

theorem coverA_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : cond2_1 i) (hc2 : cond2_2 i) (hc3 : ¬cond2_3 i) (x0 : Vec F S1024x1024 .bf16) (x1 : Vec F S2048x1024 .bf16) (y : S1024x2048.Idx) :
    ∃ pc ∈ (kernelRun2_A (F := F) c i a3 h3 a4 h4 a5 h5 a6 h6 a7 h7 a8 h8 a9 h9 hc1 hc2 hc3 x0 x1).2.2.1, y ∈ pc.1.set :=
  View.cover_of_tiledL _ S1024x2048.size (by sl_kernel_rfl) y

theorem coverB_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : cond2_2 i) (hc3 : ¬cond2_3 i) (x0 : Vec F S1024x1024 .bf16) (x1 : Vec F S2048x1024 .bf16) (y : S1024x2048.Idx) :
    ∃ pc ∈ (kernelRun2_B (F := F) c i a3 h3 a4 h4 a5 h5 a6 h6 a7 h7 a8 h8 a9 h9 hc1 hc2 hc3 x0 x1).1, y ∈ pc.1.set :=
  View.cover_of_tiledL _ S1024x2048.size (by sl_kernel_rfl) y

theorem coverC_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : ¬cond2_3 i) (x0 : Vec F S1024x1024 .bf16) (x1 : Vec F S2048x1024 .bf16) (xs : Vec F S1024x2048 .f32) (y : S1024x2048.Idx) :
    ∃ pc ∈ (kernelRun2_C (F := F) c i a3 h3 a4 h4 a5 h5 a6 h6 a7 h7 a8 h8 a9 h9 hc1 hc2 hc3 x0 x1 xs).1, y ∈ pc.1.set :=
  View.cover_of_tiledL _ S1024x2048.size (by sl_kernel_rfl) y

theorem coverD_3 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) (y : S1024x2048.Idx) :
    ∃ pc ∈ (kernelRun2_D (F := F) c i a3 h3 a4 h4 a5 h5 a6 h6 a7 h7 a8 h8 a9 h9 hc1 hc2 hc3 x0 x1 x2 y4 y5 xs).1, y ∈ pc.1.set :=
  View.cover_of_tiledL _ S1024x2048.size (by sl_kernel_rfl) y

theorem coverD_4 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) (y : S1x2048.Idx) :
    ∃ pc ∈ (kernelRun2_D (F := F) c i a3 h3 a4 h4 a5 h5 a6 h6 a7 h7 a8 h8 a9 h9 hc1 hc2 hc3 x0 x1 x2 y4 y5 xs).2.1, y ∈ pc.1.set :=
  View.cover_of_tiledL _ S1x2048.size (by sl_kernel_rfl) y

theorem coverD_5 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) (y : S1x2048.Idx) :
    ∃ pc ∈ (kernelRun2_D (F := F) c i a3 h3 a4 h4 a5 h5 a6 h6 a7 h7 a8 h8 a9 h9 hc1 hc2 hc3 x0 x1 x2 y4 y5 xs).2.2.1, y ∈ pc.1.set :=
  View.cover_of_tiledL _ S1x2048.size (by sl_kernel_rfl) y

theorem coverD_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) (y : S1024x2048.Idx) :
    ∃ pc ∈ (kernelRun2_D (F := F) c i a3 h3 a4 h4 a5 h5 a6 h6 a7 h7 a8 h8 a9 h9 hc1 hc2 hc3 x0 x1 x2 y4 y5 xs).2.2.2.1, y ∈ pc.1.set :=
  View.cover_of_tiledL _ S1024x2048.size (by sl_kernel_rfl) y

section Region
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The four cases at a point, from the point's position -/

abbrev RA (c : Dev nD) (t : Fin cfg2.N) (h1 : t.val % 32 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) accM (Memref.isWhole_whole _)
    ((hcond2_1 t).mpr h1) ((hcond2_2 t).mpr (by omega)) (fun hh => by have := (hcond2_3 t).mp hh; omega)
abbrev RB (c : Dev nD) (t : Fin cfg2.N) (h1 : ¬ t.val % 32 = 0) (h2 : t.val % 4 = 0) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) accM (Memref.isWhole_whole _)
    (fun hh => h1 ((hcond2_1 t).mp hh)) ((hcond2_2 t).mpr h2) (fun hh => by have := (hcond2_3 t).mp hh; omega)
abbrev RC (c : Dev nD) (t : Fin cfg2.N) (h2 : ¬ t.val % 4 = 0) (h3 : ¬ t.val % 4 = 3) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) accM (Memref.isWhole_whole _)
    (fun hh => by have := (hcond2_1 t).mp hh; omega) (fun hh => h2 ((hcond2_2 t).mp hh)) (fun hh => h3 ((hcond2_3 t).mp hh))
abbrev RD (c : Dev nD) (t : Fin cfg2.N) (h3 : t.val % 4 = 3) :=
  kernelRun2_D (F := F) c (grid2.coords t) (ms2_0 t) (hs2_0 t) (ms2_1 t) (hs2_1 t) (ms2_2 t) (hs2_2 t) (ms2_3 t) (hs2_3 t) (ms2_4 t) (hs2_4 t) (ms2_5 t) (hs2_5 t) accM (Memref.isWhole_whole _)
    (fun hh => by have := (hcond2_1 t).mp hh; omega) (fun hh => by have := (hcond2_2 t).mp hh; omega) ((hcond2_3 t).mpr h3)

/-! ## What the buffers hold after each point -/

/-- (output block, column sums, column sums of squares, accumulator). -/
abbrev Outs2 (F : FTy → Type) [BitOps F] : Type := Vec F S1024x2048 .f32 × Vec F S1x2048 .f32 × Vec F S1x2048 .f32 × Vec F S1024x2048 .f32

/-- The output block where nothing was stored into it: contents nothing reads. -/
abbrev noOut : Vec F S1024x2048 .f32 := View.canon ([] : List (View.Piece (Elt F) S1024x2048 .f32))

def outsAt2 (c : Dev nD) : (n : ℕ) → n < cfg2.N → Outs2 F
  | 0, hn =>
    (noOut,
     View.canon (RA c ⟨0, hn⟩ (Nat.zero_mod _) (iblk2 V c 0 ⟨0, hn⟩) (iblk2 V c 1 ⟨0, hn⟩)).1,
     View.canon (RA c ⟨0, hn⟩ (Nat.zero_mod _) (iblk2 V c 0 ⟨0, hn⟩) (iblk2 V c 1 ⟨0, hn⟩)).2.1,
     View.canon (RA c ⟨0, hn⟩ (Nat.zero_mod _) (iblk2 V c 0 ⟨0, hn⟩) (iblk2 V c 1 ⟨0, hn⟩)).2.2.1)
  | n + 1, hn =>
    if h1 : (n + 1) % 32 = 0 then
      (noOut,
       View.canon (RA c ⟨n + 1, hn⟩ h1 (iblk2 V c 0 ⟨n + 1, hn⟩) (iblk2 V c 1 ⟨n + 1, hn⟩)).1,
       View.canon (RA c ⟨n + 1, hn⟩ h1 (iblk2 V c 0 ⟨n + 1, hn⟩) (iblk2 V c 1 ⟨n + 1, hn⟩)).2.1,
       View.canon (RA c ⟨n + 1, hn⟩ h1 (iblk2 V c 0 ⟨n + 1, hn⟩) (iblk2 V c 1 ⟨n + 1, hn⟩)).2.2.1)
    else if h2 : (n + 1) % 4 = 0 then
      ((outsAt2 c n (Nat.lt_of_succ_lt hn)).1, (outsAt2 c n (Nat.lt_of_succ_lt hn)).2.1, (outsAt2 c n (Nat.lt_of_succ_lt hn)).2.2.1,
       View.canon (RB c ⟨n + 1, hn⟩ h1 h2 (iblk2 V c 0 ⟨n + 1, hn⟩) (iblk2 V c 1 ⟨n + 1, hn⟩)).1)
    else if h3 : (n + 1) % 4 = 3 then
      (View.canon (RD c ⟨n + 1, hn⟩ h3 (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2).1,
       View.canon (RD c ⟨n + 1, hn⟩ h3 (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2).2.1,
       View.canon (RD c ⟨n + 1, hn⟩ h3 (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2).2.2.1,
       View.canon (RD c ⟨n + 1, hn⟩ h3 (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2).2.2.2.1)
    else
      ((outsAt2 c n (Nat.lt_of_succ_lt hn)).1, (outsAt2 c n (Nat.lt_of_succ_lt hn)).2.1, (outsAt2 c n (Nat.lt_of_succ_lt hn)).2.2.1,
       View.canon (RC c ⟨n + 1, hn⟩ h2 h3 (iblk2 V c 0 ⟨n + 1, hn⟩) (iblk2 V c 1 ⟨n + 1, hn⟩) (outsAt2 c n (Nat.lt_of_succ_lt hn)).2.2.2).1)

/-- The contents after the point before t (t not the first). -/
abbrev prev2 (c : Dev nD) (t : Fin cfg2.N) : Outs2 F := outsAt2 V c (t.val - 1) (Nat.lt_of_le_of_lt (Nat.sub_le _ _) t.isLt)

theorem outsAt2_A (c : Dev nD) (t : Fin cfg2.N) (h1 : t.val % 32 = 0) :
    outsAt2 V c t.val t.isLt = (noOut, View.canon (RA c t h1 (iblk2 V c 0 t) (iblk2 V c 1 t)).1, View.canon (RA c t h1 (iblk2 V c 0 t) (iblk2 V c 1 t)).2.1, View.canon (RA c t h1 (iblk2 V c 0 t) (iblk2 V c 1 t)).2.2.1) := by
  obtain ⟨n, hn⟩ := t
  cases n with
  | zero => exact rfl
  | succ n => exact (dif_pos h1).trans rfl

theorem outsAt2_B (c : Dev nD) (t : Fin cfg2.N) (h1 : ¬ t.val % 32 = 0) (h2 : t.val % 4 = 0) :
    outsAt2 V c t.val t.isLt = ((prev2 V c t).1, (prev2 V c t).2.1, (prev2 V c t).2.2.1, View.canon (RB c t h1 h2 (iblk2 V c 0 t) (iblk2 V c 1 t)).1) := by
  obtain ⟨n, hn⟩ := t
  cases n with
  | zero => exact absurd (Nat.zero_mod _) h1
  | succ n => exact (dif_neg h1).trans ((dif_pos h2).trans rfl)

theorem outsAt2_C (c : Dev nD) (t : Fin cfg2.N) (h2 : ¬ t.val % 4 = 0) (h3 : ¬ t.val % 4 = 3) :
    outsAt2 V c t.val t.isLt = ((prev2 V c t).1, (prev2 V c t).2.1, (prev2 V c t).2.2.1, View.canon (RC c t h2 h3 (iblk2 V c 0 t) (iblk2 V c 1 t) (prev2 V c t).2.2.2).1) := by
  obtain ⟨n, hn⟩ := t
  cases n with
  | zero => exact absurd (Nat.zero_mod _) h2
  | succ n =>
    have h2' : ¬ (n + 1) % 4 = 0 := h2
    have h3' : ¬ (n + 1) % 4 = 3 := h3
    have h1 : ¬ (n + 1) % 32 = 0 := fun h => h2' (by omega)
    exact (dif_neg h1).trans ((dif_neg h2').trans ((dif_neg h3').trans rfl))

theorem outsAt2_D (c : Dev nD) (t : Fin cfg2.N) (h3 : t.val % 4 = 3) :
    outsAt2 V c t.val t.isLt =
      (View.canon (RD c t h3 (iblk2 V c 0 t) (iblk2 V c 1 t) (iblk2 V c 2 t) (prev2 V c t).2.1 (prev2 V c t).2.2.1 (prev2 V c t).2.2.2).1,
       View.canon (RD c t h3 (iblk2 V c 0 t) (iblk2 V c 1 t) (iblk2 V c 2 t) (prev2 V c t).2.1 (prev2 V c t).2.2.1 (prev2 V c t).2.2.2).2.1,
       View.canon (RD c t h3 (iblk2 V c 0 t) (iblk2 V c 1 t) (iblk2 V c 2 t) (prev2 V c t).2.1 (prev2 V c t).2.2.1 (prev2 V c t).2.2.2).2.2.1,
       View.canon (RD c t h3 (iblk2 V c 0 t) (iblk2 V c 1 t) (iblk2 V c 2 t) (prev2 V c t).2.1 (prev2 V c t).2.2.1 (prev2 V c t).2.2.2).2.2.2.1) := by
  obtain ⟨n, hn⟩ := t
  cases n with
  | zero =>
    have h3' : 0 % 4 = 3 := h3
    exact absurd h3' (by decide)
  | succ n =>
    have h3' : (n + 1) % 4 = 3 := h3
    have h1 : ¬ (n + 1) % 32 = 0 := fun h => by omega
    have h2 : ¬ (n + 1) % 4 = 0 := fun h => by omega
    exact (dif_neg h1).trans ((dif_neg h2).trans ((dif_pos h3').trans rfl))

/-! ## The invariant: the accumulator carried from point to point -/

def PhiS (c : Dev nD) : (n : ℕ) → n ≤ cfg2.N → sProp 𝕄
  | 0, _ => Pipeline.ΦA spec2 c
  | n + 1, hn => iprop(othersS (F := F) c ∗ owns (c : Thread nD τ) accM fullShare (outsAt2 V c n hn).2.2.2 ∗ (∃ r, prngReg c r))

theorem PhiS_succ (c : Dev nD) (n : ℕ) (hn : n < cfg2.N) :
    PhiS V c (n + 1) hn = iprop(othersS (F := F) c ∗ owns (c : Thread nD τ) accM fullShare (outsAt2 V c n hn).2.2.2 ∗ (∃ r, prngReg c r)) := rfl

theorem PhiS_pos (c : Dev nD) (n : ℕ) (h : n ≤ cfg2.N) (hz : n ≠ 0) :
    PhiS V c n h = iprop(othersS (F := F) c ∗ owns (c : Thread nD τ) accM fullShare (outsAt2 V c (n - 1) (by omega)).2.2.2 ∗ (∃ r, prngReg c r)) := by
  cases n with
  | zero => exact absurd rfl hz
  | succ n => rfl

/-- At any point the invariant yields the accumulator at SOME contents (enough where the body zeroes it first). -/
theorem PhiS_some (c : Dev nD) (n : ℕ) (h : n ≤ cfg2.N) :
    PhiS V c n h ⊢ iprop(othersS (F := F) c ∗ (∃ d, owns (c : Thread nD τ) accM fullShare d) ∗ (∃ r, prngReg c r)) := by
  cases n with
  | zero => exact PhiA2_split c
  | succ n =>
    rw [PhiS_succ]
    iintro ⟨Ho, HS, Hg⟩
    isplitl [Ho]; · iexact Ho
    isplitl [HS]; · iexists _; iexact HS
    iexact Hg

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The column-sum blocks as a k = 3 point finds them: what the last live point left, through the idle points -/

theorem idle2_4_iff : ∀ t : Fin cfg2.N, cfg2.idle 4 (grid2.coords t) = true → ¬ t.val % 32 = 0 ∧ ¬ t.val % 4 = 3 := by decide +kernel
theorem idle2_5_iff : ∀ t : Fin cfg2.N, cfg2.idle 5 (grid2.coords t) = true → ¬ t.val % 32 = 0 ∧ ¬ t.val % 4 = 3 := by decide +kernel
theorem fresh2_4 : ∀ t : Fin cfg2.N, ¬ t.val % 32 = 0 → cfg2.fresh 4 t.val = false := by decide +kernel
theorem fresh2_5 : ∀ t : Fin cfg2.N, ¬ t.val % 32 = 0 → cfg2.fresh 5 t.val = false := by decide +kernel

/-- At an idle point the stated contents of the sum blocks are the previous point's. -/
theorem carry2 (c : Dev nD) (t : Fin cfg2.N) (h1 : ¬ t.val % 32 = 0) (h3 : ¬ t.val % 4 = 3) :
    (outsAt2 V c t.val t.isLt).2.1 = (prev2 V c t).2.1 ∧ (outsAt2 V c t.val t.isLt).2.2.1 = (prev2 V c t).2.2.1 := by
  by_cases h2 : t.val % 4 = 0
  · rw [outsAt2_B V c t h1 h2]; exact ⟨rfl, rfl⟩
  · rw [outsAt2_C V c t h2 h3]; exact ⟨rfl, rfl⟩

theorem before2_4 (c : Dev nD) (t : Fin cfg2.N) (h1 : ¬ t.val % 32 = 0) (d) :
    (dat2 V c).before 4 t d = (prev2 V c t).2.1 := by
  have hpos : t.val ≠ 0 := fun h => h1 (by rw [h])
  have h := Pipeline.Dat.before_out_traj (dat2 V c) 4 rfl (fun _ _ => rfl)
    (fun s hs hi _ => by
      rw [after2_4, after2_4]
      exact (carry2 V c s (idle2_4_iff s hi).1 (idle2_4_iff s hi).2).1) t.val t rfl d
  rw [h, fresh2_4 t h1, if_neg Bool.false_ne_true, after2_4]

theorem before2_5 (c : Dev nD) (t : Fin cfg2.N) (h1 : ¬ t.val % 32 = 0) (d) :
    (dat2 V c).before 5 t d = (prev2 V c t).2.2.1 := by
  have hpos : t.val ≠ 0 := fun h => h1 (by rw [h])
  have h := Pipeline.Dat.before_out_traj (dat2 V c) 5 rfl (fun _ _ => rfl)
    (fun s hs hi _ => by
      rw [after2_5, after2_5]
      exact (carry2 V c s (idle2_5_iff s hi).1 (idle2_5_iff s hi).2).2) t.val t rfl d
  rw [h, fresh2_5 t h1, if_neg Bool.false_ne_true, after2_5]

end Region

end Cert.Kernel.Hand

end
-- ==== Proof.K.Reg2BodyDefs.lean ====
/-
  The matmul region's body obligation, set up: what the body is called with and what it must return at a point, in
  the form the pipeline states them and in the normal form the four cases are proved in (the inputs at their blocks,
  the invariant at the point's position).
-/
import proofs.«113576_j90099823935564_2_alg».proof.Proof.K.Reg2Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region
variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

/-- What the body is called with, the inputs at their blocks and the invariant at the point's position. -/
def pre2N (c : Dev nD) (t : Fin cfg2.N) : sProp 𝕄 :=
  iprop(PhiS V c t.val (Nat.le_of_lt t.isLt) ∗ (dat2 V c).owesAt () t.castSucc
    ∗ (∃ d : (cfg2.win 0).block.Idx → Elt F (cfg2.win 0).elt, owns (c : Thread nD τ) (ms2_0 t) fullShare (iblk2 V c 0 t))
    ∗ (∃ d : (cfg2.win 1).block.Idx → Elt F (cfg2.win 1).elt, owns (c : Thread nD τ) (ms2_1 t) fullShare (iblk2 V c 1 t))
    ∗ (∃ d : (cfg2.win 2).block.Idx → Elt F (cfg2.win 2).elt, owns (c : Thread nD τ) (ms2_2 t) fullShare (iblk2 V c 2 t))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- What it must return: the accumulator at this point's contents, the inputs in place, each output window at what
    the proof data states (or, idle, as found). -/
def post2N (c : Dev nD) (t : Fin cfg2.N) : sProp 𝕄 :=
  iprop(iprop(othersS (F := F) c ∗ owns (c : Thread nD τ) accM fullShare (outsAt2 V c t.val t.isLt).2.2.2 ∗ (∃ r, prngReg c r))
    ∗ (dat2 V c).owesAt () t.castSucc
    ∗ owns (c : Thread nD τ) (ms2_0 t) fullShare (iblk2 V c 0 t) ∗ owns (c : Thread nD τ) (ms2_1 t) fullShare (iblk2 V c 1 t) ∗ owns (c : Thread nD τ) (ms2_2 t) fullShare (iblk2 V c 2 t)
    ∗ (dat2 V c).leavesExact 3 t ∗ (dat2 V c).leavesExact 4 t ∗ (dat2 V c).leavesExact 5 t)

/-- The pipeline's form of the obligation from the normal form. -/
theorem norm2 (c : Dev nD) (t : Fin cfg2.N)
    (h : pre2N V c t ⊢ wp frame (wpE (defs₀ (F := F)) Variants.none c none) Set.univ (bodyAt2 t) (fun _ => post2N V c t)) :
    bodyPre2 V c t ⊢ wp frame (wpE (defs₀ (F := F)) Variants.none c none) Set.univ (bodyAt2 t) (fun _ => bodyPost2 V c t) := by
  unfold bodyPre2 bodyPost2
  simp only [before2_0, before2_1, before2_2]
  rw [show (dat2 V c).owesAt () t.succ = (dat2 V c).owesAt () t.castSucc from rfl]
  rw [show (dat2 V c).Φ t.succ = PhiS V c (t.val + 1) t.isLt from rfl, PhiS_succ, PhiS_castSucc]
  rw [leaves2_0, leaves2_1, leaves2_2]
  exact h

end Region

end Cert.Kernel.Hand

end
-- ==== Proof.K.Reg2BodyA.lean ====
/-
  The matmul body at the first point of each j (i = 0, k = 0): the sums and the accumulator are zeroed, the first product added.
-/
import proofs.«113576_j90099823935564_2_alg».proof.Proof.K.Reg2BodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region
variable (V : (c : Dev nD) → (b : Ref sig .tc) → Buf (Elt F) ((c : Thread nD τ).loc b))

set_option maxHeartbeats 4000000 in
theorem body2_A (c : Dev nD) (t : Fin cfg2.N) (h1 : t.val % 32 = 0) :
    pre2N V c t ⊢ wp frame (wpE (defs₀ (F := F)) Variants.none c none) Set.univ (bodyAt2 t) (fun _ => post2N V c t) := by
  unfold pre2N post2N bodyAt2
  have hN : t.val < 64 := lt_of_lt_of_eq t.isLt (show cfg2.N = 64 from N_2)

  have h3 : ¬ t.val % 4 = 3 := by omega
  rw [Dat.leavesExact_idle (dat2 V c) 3 t (idleAt2_3 t h3) (noFlush2_3 t h3)]
  rw [show (dat2 V c).leavesExact 4 t = owns (c : Thread nD τ) (ms2_4 t) fullShare ((dat2 V c).after 4 t) from by
    unfold Dat.leavesExact; rw [liveAt2_4_zero t h1], after2_4]
  rw [show (dat2 V c).leavesExact 5 t = owns (c : Thread nD τ) (ms2_5 t) fullShare ((dat2 V c).after 5 t) from by
    unfold Dat.leavesExact; rw [liveAt2_5_zero t h1], after2_5]
  rw [outsAt2_A V c t h1]
  dsimp only
  iintro ⟨HΦ, Ho, ⟨%d0, H0⟩, ⟨%d1, H1⟩, ⟨%d2, H2⟩, ⟨%d3, H3⟩, ⟨%d4, H4⟩, ⟨%d5, H5⟩⟩
  ihave HΦ' := (PhiS_some V c _ _) $$ HΦ
  icases HΦ' with ⟨Hoth, HS, Hg⟩
  iapply ((RA c t h1 (iblk2 V c 0 t) (iblk2 V c 1 t)).2.2.2 Set.univ _)
  isplitl [H0]; · iexact H0
  isplitl [H1]; · iexact H1
  isplitl [H4]; · iexists _; iexact H4
  isplitl [H5]; · iexists _; iexact H5
  isplitl [HS]; · iexact HS
  iintro ⟨H0, H1, ⟨%e4, H4⟩, ⟨%e5, H5⟩, ⟨%es, HS⟩⟩
  isplitl [Hoth HS Hg]
  · isplitl [Hoth]; · iexact Hoth
    isplitl [HS]
    · unfold owns; iexists _; isplitr
      swap; · iexact HS
      ipureintro; exact View.read_writes_eq_canon _ _ _ (coverA_S _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists _; iexact H3
  isplitl [H4]
  · unfold owns; iexists _; isplitr
    swap; · iexact H4
    ipureintro; exact View.read_writes_eq_canon _ _ _ (coverA_4 _ _ _ _ _ _ _ _ _ _ _ _ _ _ _ _ _ _ _ _ _)
  unfold owns; iexists _; isplitr
  swap; · iexact H5
  ipureintro; exact View.read_writes_eq_canon _ _ _ (coverA_5 _ _ _ _ _ _ _ _ _ _ _ _ _ _ _ _ _ _ _ _ _)

end Region

end Cert.Kernel.Hand

end
-- ==== Proof.K.Reg2BodyB.lean ====
/-
  The matmul body where k = 0 and i ≠ 0: the accumulator is zeroed, the first product added; the output windows are handed back as found.
-/
import proofs.«113576_j90099823935564_2_alg».proof.Proof.K.Reg2BodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region
variable (V : (c : Dev nD) → (b : Ref sig .tc) → Buf (Elt F) ((c : Thread nD τ).loc b))

set_option maxHeartbeats 4000000 in
theorem body2_B (c : Dev nD) (t : Fin cfg2.N) (h1 : ¬ t.val % 32 = 0) (h2 : t.val % 4 = 0) :
    pre2N V c t ⊢ wp frame (wpE (defs₀ (F := F)) Variants.none c none) Set.univ (bodyAt2 t) (fun _ => post2N V c t) := by
  unfold pre2N post2N bodyAt2
  have hN : t.val < 64 := lt_of_lt_of_eq t.isLt (show cfg2.N = 64 from N_2)
  have h3 : ¬ t.val % 4 = 3 := by omega
  have hz : t.val ≠ 0 := fun h => h1 (by rw [h])
  rw [Dat.leavesExact_idle (dat2 V c) 3 t (idleAt2_3 t h3) (noFlush2_3 t h3)]
  rw [Dat.leavesExact_idle (dat2 V c) 4 t (idleAt2_4 t h1 h3) (noFlush2_4 t h3)]
  rw [Dat.leavesExact_idle (dat2 V c) 5 t (idleAt2_5 t h1 h3) (noFlush2_5 t h3)]
  rw [outsAt2_B V c t h1 h2]
  dsimp only
  iintro ⟨HΦ, Ho, ⟨%d0, H0⟩, ⟨%d1, H1⟩, ⟨%d2, H2⟩, ⟨%d3, H3⟩, ⟨%d4, H4⟩, ⟨%d5, H5⟩⟩
  ihave HΦ' := (PhiS_some V c _ _) $$ HΦ
  icases HΦ' with ⟨Hoth, HS, Hg⟩
  iapply ((RB c t h1 h2 (iblk2 V c 0 t) (iblk2 V c 1 t)).2 Set.univ _)
  isplitl [H0]; · iexact H0
  isplitl [H1]; · iexact H1
  isplitl [HS]; · iexact HS
  iintro ⟨H0, H1, ⟨%es, HS⟩⟩
  isplitl [Hoth HS Hg]
  · isplitl [Hoth]; · iexact Hoth
    isplitl [HS]
    · unfold owns; iexists _; isplitr
      swap; · iexact HS
      ipureintro; exact View.read_writes_eq_canon _ _ _ (coverB_S _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

end Region

end Cert.Kernel.Hand

end
-- ==== Proof.K.Reg2BodyC.lean ====
/-
  The matmul body where k = 1 or 2: one product added to the accumulator the point before left; the output windows are handed back as found.
-/
import proofs.«113576_j90099823935564_2_alg».proof.Proof.K.Reg2BodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region
variable (V : (c : Dev nD) → (b : Ref sig .tc) → Buf (Elt F) ((c : Thread nD τ).loc b))

set_option maxHeartbeats 4000000 in
theorem body2_C (c : Dev nD) (t : Fin cfg2.N) (h2 : ¬ t.val % 4 = 0) (h3 : ¬ t.val % 4 = 3) :
    pre2N V c t ⊢ wp frame (wpE (defs₀ (F := F)) Variants.none c none) Set.univ (bodyAt2 t) (fun _ => post2N V c t) := by
  unfold pre2N post2N bodyAt2
  have hN : t.val < 64 := lt_of_lt_of_eq t.isLt (show cfg2.N = 64 from N_2)
  have h1 : ¬ t.val % 32 = 0 := fun h => h2 (by omega)
  have hz : t.val ≠ 0 := fun h => h1 (by rw [h])
  rw [Dat.leavesExact_idle (dat2 V c) 3 t (idleAt2_3 t h3) (noFlush2_3 t h3)]
  rw [Dat.leavesExact_idle (dat2 V c) 4 t (idleAt2_4 t h1 h3) (noFlush2_4 t h3)]
  rw [Dat.leavesExact_idle (dat2 V c) 5 t (idleAt2_5 t h1 h3) (noFlush2_5 t h3)]
  rw [outsAt2_C V c t h2 h3, PhiS_pos V c _ _ hz]
  dsimp only
  iintro ⟨⟨Hoth, HS, Hg⟩, Ho, ⟨%d0, H0⟩, ⟨%d1, H1⟩, ⟨%d2, H2⟩, ⟨%d3, H3⟩, ⟨%d4, H4⟩, ⟨%d5, H5⟩⟩
  iapply ((RC c t h2 h3 (iblk2 V c 0 t) (iblk2 V c 1 t) (prev2 V c t).2.2.2).2 Set.univ _)
  isplitl [H0]; · iexact H0
  isplitl [H1]; · iexact H1
  isplitl [HS]; · iexact HS
  iintro ⟨H0, H1, ⟨%es, HS⟩⟩
  isplitl [Hoth HS Hg]
  · isplitl [Hoth]; · iexact Hoth
    isplitl [HS]
    · unfold owns; iexists _; isplitr
      swap; · iexact HS
      ipureintro; exact View.read_writes_eq_canon _ _ _ (coverC_S _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

end Region

end Cert.Kernel.Hand

end
-- ==== Proof.K.Reg2BodyD.lean ====
/-
  The matmul body where k = 3: the last product added; the output block, the column sums and the column sums of squares written over what the look-back finds.
-/
import proofs.«113576_j90099823935564_2_alg».proof.Proof.K.Reg2BodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region
variable (V : (c : Dev nD) → (b : Ref sig .tc) → Buf (Elt F) ((c : Thread nD τ).loc b))

set_option maxHeartbeats 4000000 in
theorem body2_D (c : Dev nD) (t : Fin cfg2.N) (h3 : t.val % 4 = 3) :
    pre2N V c t ⊢ wp frame (wpE (defs₀ (F := F)) Variants.none c none) Set.univ (bodyAt2 t) (fun _ => post2N V c t) := by
  unfold pre2N post2N bodyAt2
  have hN : t.val < 64 := lt_of_lt_of_eq t.isLt (show cfg2.N = 64 from N_2)
  have h1 : ¬ t.val % 32 = 0 := fun h => by omega
  have hz : t.val ≠ 0 := fun h => h1 (by rw [h])
  have h2 : ¬ t.val % 4 = 0 := by omega
  rw [show (dat2 V c).leavesExact 3 t = owns (c : Thread nD τ) (ms2_3 t) fullShare ((dat2 V c).after 3 t) from by
    unfold Dat.leavesExact; rw [liveAt2_3 t h3], after2_3]
  rw [show (dat2 V c).leavesExact 4 t = owns (c : Thread nD τ) (ms2_4 t) fullShare ((dat2 V c).after 4 t) from by
    unfold Dat.leavesExact; rw [liveAt2_4_last t h3], after2_4]
  rw [show (dat2 V c).leavesExact 5 t = owns (c : Thread nD τ) (ms2_5 t) fullShare ((dat2 V c).after 5 t) from by
    unfold Dat.leavesExact; rw [liveAt2_5_last t h3], after2_5]
  simp only [before2_4 V c t h1, before2_5 V c t h1]
  rw [outsAt2_D V c t h3, PhiS_pos V c _ _ hz]
  dsimp only
  iintro ⟨⟨Hoth, HS, Hg⟩, Ho, ⟨%d0, H0⟩, ⟨%d1, H1⟩, ⟨%d2, H2⟩, ⟨%d3, H3⟩, ⟨%d4, H4⟩, ⟨%d5, H5⟩⟩
  iapply ((RD c t h3 (iblk2 V c 0 t) (iblk2 V c 1 t) (iblk2 V c 2 t) (prev2 V c t).2.1 (prev2 V c t).2.2.1 (prev2 V c t).2.2.2).2.2.2.2 Set.univ _)
  isplitl [H0]; · iexact H0
  isplitl [H1]; · iexact H1
  isplitl [H2]; · iexact H2
  isplitl [H3]; · iexists _; iexact H3
  isplitl [H4]; · iexact H4
  isplitl [H5]; · iexact H5
  isplitl [HS]; · iexact HS
  iintro ⟨H0, H1, H2, ⟨%e3, H3⟩, ⟨%e4, H4⟩, ⟨%e5, H5⟩, ⟨%es, HS⟩⟩
  isplitl [Hoth HS Hg]
  · isplitl [Hoth]; · iexact Hoth
    isplitl [HS]
    · unfold owns; iexists _; isplitr
      swap; · iexact HS
      ipureintro; exact View.read_writes_eq_canon _ _ _ (coverD_S _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_eq_canon _ _ _ (coverD_3 _ _ _ _ _ _ _ _ _ _ _ _ _ _ _ _ _ _ _ _ _ _ _ _ _)
  isplitl [H4]
  · unfold owns; iexists _; isplitr
    swap; · iexact H4
    ipureintro; exact View.read_writes_eq_canon _ _ _ (coverD_4 _ _ _ _ _ _ _ _ _ _ _ _ _ _ _ _ _ _ _ _ _ _ _ _ _)
  unfold owns; iexists _; isplitr
  swap; · iexact H5
  ipureintro; exact View.read_writes_eq_canon _ _ _ (coverD_5 _ _ _ _ _ _ _ _ _ _ _ _ _ _ _ _ _ _ _ _ _ _ _ _ _)

end Region

end Cert.Kernel.Hand

end
-- ==== Proof.K.Reg2Body.lean ====
/-
  The matmul region's body obligation at every grid point, by the point's position; and the invariant at the
  region's two ends.
-/
import proofs.«113576_j90099823935564_2_alg».proof.Proof.K.Reg2BodyA
import proofs.«113576_j90099823935564_2_alg».proof.Proof.K.Reg2BodyB
import proofs.«113576_j90099823935564_2_alg».proof.Proof.K.Reg2BodyC
import proofs.«113576_j90099823935564_2_alg».proof.Proof.K.Reg2BodyD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Region
variable (V : (c : Dev nD) → (b : Ref sig .tc) → Buf (Elt F) ((c : Thread nD τ).loc b))

theorem sound_body2 (c : Dev nD) (t : Fin cfg2.N) :
    bodyPre2 V c t ⊢ wp frame (wpE (defs₀ (F := F)) Variants.none c none) Set.univ (bodyAt2 t) (fun _ => bodyPost2 V c t) := by
  refine norm2 V c t ?_
  by_cases h1 : t.val % 32 = 0
  · exact body2_A V c t h1
  · by_cases h3 : t.val % 4 = 3
    · exact body2_D V c t h3
    · by_cases h2 : t.val % 4 = 0
      · exact body2_B V c t h1 h2
      · exact body2_C V c t h2 h3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl]
  exact Idealize.SL.BI.Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl]
  exact (PhiS_some V c _ _).trans (PhiA2_join c)

end Region

end Cert.Kernel.Hand

end
-- ==== Proof.K.Reg3.lean ====
import proofs.«113576_j90099823935564_2_alg».proof.Proof.Gen.Kernel.Launch
import proofs.«113576_j90099823935564_2_alg».proof.Proof.Gen.Kernel.Skeleton
import proofs.«113576_j90099823935564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: the normalize kernel of pipeline 3, at the entry contents `V`

The body reads a 512×4096 block of window 0 and the two 1×4096 rows of windows 1 and 2 (fetched at the grid's first
point only, read at every point), and stores `(x - a) * rsqrt (b + ε)` — `x` the block, `a` window 1's row and `b`
window 2's, both broadcast down the block, `ε` a literal — over the whole output block. The output buffer is also read once before the store; the value read is unused. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): the window is uncut and
    never idle, and an unfetched point has the block index of the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 likewise: its index map is constant, so it is fetched at the first point only, and at every later
    point the buffer still holds the one block, which is that point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The two rectangles the body touches: a whole 1×4096 row and the whole 512×4096 block. -/
abbrev r3_0 : Rect S1x4096 := Rect.unit (s := S1x4096) ![0, 0] S1x4096.size inb_S1x4096_S1x4096_0_0
abbrev r3_1 : Rect S512x4096 := Rect.unit (s := S512x4096) ![0, 0] S512x4096.size inb_S512x4096_S512x4096_0_0

/-! ## What the body leaves in the output window's buffer -/

/-- Window 3's staging buffer after the body, from the input windows' blocks: its one store as a piece, the payload
    the skeleton's (its arguments in the order the body loads them: window 2's row, window 0's block, window 1's row). -/
def out3_3 (x0 : Vec F S512x4096 .f32) (x1 : Vec F S1x4096 .f32) (x2 : Vec F S1x4096 .f32) : Vec F S512x4096 .f32 :=
  View.canon [⟨r3_1, k3_pay1 (View.ld x2 r3_0) (View.ld x0 r3_1) (View.ld x1 r3_0)⟩]

/-- The one store is the whole block, so it covers the buffer. -/
theorem cover3_3 (p0 : Vec F S512x4096 .f32) (y : S512x4096.Idx) :
    ∃ pc ∈ ([⟨r3_1, p0⟩] : List (View.Piece (Elt F) S512x4096 .f32)), y ∈ pc.1.set :=
  View.cover_of_tiled [⟨r3_1, p0⟩] S512x4096.size (by rfl) y

/-! ## The body's triple -/

set_option maxHeartbeats 1000000 in
/-- The kernel body on whole staging memrefs, the inputs' at read contents `x0`, `x1`, `x2` and the output's at
    anything, runs to the continuation holding the inputs' as they were and the output's at `out3_3 x0 x1 x2`. -/
theorem sound_kernel3 (c : Dev nD) (E : Set ℕ) (i : grid3.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .f32) (harg4 : arg4.IsWhole)
    (x0 : Vec F S512x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__normalize_kernel i arg1 harg1 arg2 harg2 arg3 harg3 arg4 harg4) K := by
  simp only [cc3__normalize_kernel_eq_skeleton]; unfold cc3__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  @main's run, boundary by boundary: the TensorCore's buffers between two items of @main as a fold from the launch
  memory (a host stretch applies its operations; a region leaves its windows' arrays at what its write-backs make
  them and every other buffer as it found it), each pallas_call's proof data at its region's entry contents, and the
  run of the six items to a final memory holding every unscoped buffer at the last boundary's contents.
-/
import proofs.«113576_j90099823935564_2_alg».proof.Proof.K.Reg0
import proofs.«113576_j90099823935564_2_alg».proof.Proof.K.Reg1
import proofs.«113576_j90099823935564_2_alg».proof.Proof.K.Reg2Body
import proofs.«113576_j90099823935564_2_alg».proof.Proof.K.Reg3
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (an input as entered, an output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (an input as entered, an output's write-backs
    folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the reshape of the bias (region 2's entry). -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b

/-- At region 2's exit: its arrays at what the pipeline leaves (an input as entered, an output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the eight host operations that make the mean and the variance rows (region 3's entry). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b

/-- At region 3's exit: its arrays at what the pipeline leaves (an input as entered, an output's write-backs
    folded), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state "every unscoped buffer at the boundary's contents, the generator register at some
    state, nothing owed": entered at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": entered at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": entered at `W3`, left at `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 : (Pipeline.ΦA spec2 c : sProp 𝕄)
        ⊢ iprop((∃ r, prngReg c r) ∗ emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (V3 m ρ) c).trans h2
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state "every unscoped buffer at the boundary's contents, the generator register at some
    state, nothing owed": entered at `W5`, left at `W6`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ) ]
theorem main_run (c : Dev nD) : main (F := F) c = Pipeline.Seg.run (segs m ρ) := (main_chain c).trans (by chain_rfl)

set_option backward.isDefEq.respectTransparency.types false in
/-- Every weakly fair execution of @main terminates, nothing faulting, in a memory that holds every unscoped buffer of
    every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.K.Chain.lean ====
/-
  The arguments at the end of @main: no host operation writes an argument and no region changes one (a region reads
  it through an input window, or never touches it), so the last boundary's contents at an argument walk back to the
  launch memory.
-/
import proofs.«113576_j90099823935564_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [BitOps F]

variable (m : (ℓ : Loc nD τ sig) → Buf (Elt F) ℓ) (ρ : Dev nD → PrngReg)

/-! ## What the two host stretches leave alone -/

theorem hostOps2_keeps_main_arg0 (W : Valuation τ sig (Elt F)) :
    StableHlo.after hostOps2 W (Proc.devRef .tc main_arg0) = W (Proc.devRef .tc main_arg0) :=
  StableHlo.after_of_forall_not_mem (b := Proc.devRef .tc main_arg0) _ _ (List.forall_iff_forall_mem.mp (by
    simp only [hostOps2, List.Forall, StableHlo.reshape_writes, Finset.mem_singleton]
    exact StableHlo.devRef_ne_of_ne (by decide)))
theorem hostOps2_keeps_main_arg1 (W : Valuation τ sig (Elt F)) :
    StableHlo.after hostOps2 W (Proc.devRef .tc main_arg1) = W (Proc.devRef .tc main_arg1) :=
  StableHlo.after_of_forall_not_mem (b := Proc.devRef .tc main_arg1) _ _ (List.forall_iff_forall_mem.mp (by
    simp only [hostOps2, List.Forall, StableHlo.reshape_writes, Finset.mem_singleton]
    exact StableHlo.devRef_ne_of_ne (by decide)))
theorem hostOps2_keeps_main_arg2 (W : Valuation τ sig (Elt F)) :
    StableHlo.after hostOps2 W (Proc.devRef .tc main_arg2) = W (Proc.devRef .tc main_arg2) :=
  StableHlo.after_of_forall_not_mem (b := Proc.devRef .tc main_arg2) _ _ (List.forall_iff_forall_mem.mp (by
    simp only [hostOps2, List.Forall, StableHlo.reshape_writes, Finset.mem_singleton]
    exact StableHlo.devRef_ne_of_ne (by decide)))
theorem hostOps2_keeps_main_v0 (W : Valuation τ sig (Elt F)) :
    StableHlo.after hostOps2 W (Proc.devRef .tc main_v0) = W (Proc.devRef .tc main_v0) :=
  StableHlo.after_of_forall_not_mem (b := Proc.devRef .tc main_v0) _ _ (List.forall_iff_forall_mem.mp (by
    simp only [hostOps2, List.Forall, StableHlo.reshape_writes, Finset.mem_singleton]
    exact StableHlo.devRef_ne_of_ne (by decide)))
theorem hostOps2_keeps_main_v1 (W : Valuation τ sig (Elt F)) :
    StableHlo.after hostOps2 W (Proc.devRef .tc main_v1) = W (Proc.devRef .tc main_v1) :=
  StableHlo.after_of_forall_not_mem (b := Proc.devRef .tc main_v1) _ _ (List.forall_iff_forall_mem.mp (by
    simp only [hostOps2, List.Forall, StableHlo.reshape_writes, Finset.mem_singleton]
    exact StableHlo.devRef_ne_of_ne (by decide)))
theorem hostOps3_keeps_main_arg0 (W : Valuation τ sig (Elt F)) :
    StableHlo.after hostOps3 W (Proc.devRef .tc main_arg0) = W (Proc.devRef .tc main_arg0) :=
  StableHlo.after_of_forall_not_mem (b := Proc.devRef .tc main_arg0) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))
theorem hostOps3_keeps_main_arg1 (W : Valuation τ sig (Elt F)) :
    StableHlo.after hostOps3 W (Proc.devRef .tc main_arg1) = W (Proc.devRef .tc main_arg1) :=
  StableHlo.after_of_forall_not_mem (b := Proc.devRef .tc main_arg1) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))
theorem hostOps3_keeps_main_arg2 (W : Valuation τ sig (Elt F)) :
    StableHlo.after hostOps3 W (Proc.devRef .tc main_arg2) = W (Proc.devRef .tc main_arg2) :=
  StableHlo.after_of_forall_not_mem (b := Proc.devRef .tc main_arg2) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))
theorem hostOps3_keeps_main_v3_0 (W : Valuation τ sig (Elt F)) :
    StableHlo.after hostOps3 W (Proc.devRef .tc main_v3_0) = W (Proc.devRef .tc main_v3_0) :=
  StableHlo.after_of_forall_not_mem (b := Proc.devRef .tc main_v3_0) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))
theorem hostOps3_keeps_main_v3_1 (W : Valuation τ sig (Elt F)) :
    StableHlo.after hostOps3 W (Proc.devRef .tc main_v3_1) = W (Proc.devRef .tc main_v3_1) :=
  StableHlo.after_of_forall_not_mem (b := Proc.devRef .tc main_v3_1) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))
theorem hostOps3_keeps_main_v3_2 (W : Valuation τ sig (Elt F)) :
    StableHlo.after hostOps3 W (Proc.devRef .tc main_v3_2) = W (Proc.devRef .tc main_v3_2) :=
  StableHlo.after_of_forall_not_mem (b := Proc.devRef .tc main_v3_2) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))

/-! ## The three arguments -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := hostOps3_keeps_main_arg0 _
    _ = W3 m ρ c (Proc.devRef .tc main_arg0) := W4_of_ne m ρ c main_arg0 (by decide)
    _ = W2 m ρ c (Proc.devRef .tc main_arg0) := hostOps2_keeps_main_arg0 _
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := hostOps3_keeps_main_arg1 _
    _ = W3 m ρ c (Proc.devRef .tc main_arg1) := W4_of_ne m ρ c main_arg1 (by decide)
    _ = W2 m ρ c (Proc.devRef .tc main_arg1) := hostOps2_keeps_main_arg1 _
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := hostOps3_keeps_main_arg2 _
    _ = W3 m ρ c (Proc.devRef .tc main_arg2) := W4_of_ne m ρ c main_arg2 (by decide)
    _ = W2 m ρ c (Proc.devRef .tc main_arg2) := hostOps2_keeps_main_arg2 _
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The frame: every weakly fair execution terminates, nothing faulting, with the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.Kernel.Hand

end
-- ==== Proof.KI.Reg0.lean ====
import proofs.«113576_j90099823935564_2_alg».proof.Proof.Gen.KernelIdeal.Launch
import proofs.«113576_j90099823935564_2_alg».proof.Proof.Gen.KernelIdeal.Skeleton
import proofs.«113576_j90099823935564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main: the binarize kernel of pipeline 0, at the entry contents `V`

The body reads its one input block whole, maps it pointwise to ±1 (or leaves a zero in place), and stores the result
over the whole output block. The output buffer is also read once before the store; the value read is unused, so the
buffer's prior contents never matter. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): the window is uncut and
    never idle, and an unfetched point has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body touches: the whole 512×4096 block. -/
abbrev r0_0 : Rect S512x4096 := Rect.unit (s := S512x4096) ![0, 0] S512x4096.size inb_S512x4096_S512x4096_0_0

/-! ## What the body leaves in the output window's buffer -/

/-- Window 1's staging buffer after the body, from the input block: its one store as a piece, the payload the
    skeleton's. -/
def out0_1 (x0 : Vec F S512x4096 .f32) : Vec F S512x4096 .bf16 :=
  View.canon [⟨r0_0, k0_pay1 (View.ld x0 r0_0)⟩]

/-- The one store is the whole block, so it covers the buffer. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-! ## The body's triple -/

set_option maxHeartbeats 1000000 in
/-- The kernel body on whole staging memrefs, the input's at read contents `x0` and the output's at anything, runs
    to the continuation holding the input's as it was and the output's at `out0_1 x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__binarize_kernel i arg1 harg1 arg2 harg2) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at point
    `t` the input's buffer at its block and the output's at `out0_1` of the input block; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block (`before0_0`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«113576_j90099823935564_2_alg».proof.Proof.Gen.KernelIdeal.Launch
import proofs.«113576_j90099823935564_2_alg».proof.Proof.Gen.KernelIdeal.Skeleton
import proofs.«113576_j90099823935564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: the binarize kernel of pipeline 1, at the entry contents `V`

The body reads its one input block whole, maps it pointwise to ±1 (or leaves a zero in place), and stores the result
over the whole output block. The output buffer is also read once before the store; the value read is unused, so the
buffer's prior contents never matter. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): the window is uncut and
    never idle, and an unfetched point has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one rectangle the body touches: the whole 512×4096 block. -/
abbrev r1_0 : Rect S512x4096 := Rect.unit (s := S512x4096) ![0, 0] S512x4096.size inb_S512x4096_S512x4096_0_0

/-! ## What the body leaves in the output window's buffer -/

/-- Window 1's staging buffer after the body, from the input block: its one store as a piece, the payload the
    skeleton's. -/
def out1_1 (x0 : Vec F S512x4096 .f32) : Vec F S512x4096 .bf16 :=
  View.canon [⟨r1_0, k1_pay1 (View.ld x0 r1_0)⟩]

/-- The one store is the whole block, so it covers the buffer. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

/-! ## The body's triple -/

set_option maxHeartbeats 1000000 in
/-- The kernel body on whole staging memrefs, the input's at read contents `x0` and the output's at anything, runs
    to the continuation holding the input's as it was and the output's at `out1_1 x0`. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__binarize_kernel i arg1 harg1 arg2 harg2) K := by
  simp only [cc1__binarize_kernel_eq_skeleton]; unfold cc1__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body at point
    `t` the input's buffer at its block and the output's at `out1_1` of the input block; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block (`before1_0`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Base.lean ====
/-
  The matmul region (the third pallas_call): the grid is (j, i, k) = (2, 8, 4), a point's position is
  t = 32 j + 4 i + k.  The body zeroes the two column-sum blocks where i = 0 and k = 0, zeroes the accumulator
  where k = 0, adds one 1024-deep partial product to the accumulator at every point, and where k = 3 writes the
  output block (accumulator + bias) and adds its column sums and column sums of squares to the two sum blocks.
  Here: the three conditions in closed form over the position, where each output window is idle or written
  back, and the names of the buffers a point's body is run on.
-/
import proofs.«113576_j90099823935564_2_alg».proof.Proof.Gen.KernelIdeal.Launch
import proofs.«113576_j90099823935564_2_alg».proof.Proof.Gen.KernelIdeal.Skeleton
import proofs.«113576_j90099823935564_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions, over the grid point -/

/-- i = 0 and k = 0: the column-sum blocks are zeroed. -/
abbrev cond2_1 (i : grid2.Coords) : Prop := k2_cond1 i = 1#1
/-- k = 0: the accumulator is zeroed. -/
abbrev cond2_2 (i : grid2.Coords) : Prop := (Scalar.cmpi .ne (Scalar.extui (Scalar.cmpi .eq (BitVec.ofNat 32 (i 2).val) 0#32)) 0#32) = 1#1
/-- k = 3: the output block and the column sums are written. -/
abbrev cond2_3 (i : grid2.Coords) : Prop := k2_cond3 i = 1#1

theorem hcond2_1 : ∀ t : Fin cfg2.N, cond2_1 (grid2.coords t) ↔ t.val % 32 = 0 :=
  (by decide +kernel : ∀ t : Fin grid2.N, cond2_1 (grid2.coords t) ↔ t.val % 32 = 0)
theorem hcond2_2 : ∀ t : Fin cfg2.N, cond2_2 (grid2.coords t) ↔ t.val % 4 = 0 :=
  (by decide +kernel : ∀ t : Fin grid2.N, cond2_2 (grid2.coords t) ↔ t.val % 4 = 0)
theorem hcond2_3 : ∀ t : Fin cfg2.N, cond2_3 (grid2.coords t) ↔ t.val % 4 = 3 :=
  (by decide +kernel : ∀ t : Fin grid2.N, cond2_3 (grid2.coords t) ↔ t.val % 4 = 3)

/-! ## Where the windows are idle, and where an idle window is not written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output block is stored only where k = 3. -/
theorem idleAt2_3 : ∀ t : Fin cfg2.N, ¬ t.val % 4 = 3 → cfg2.idle 3 (grid2.coords t) = true := by decide +kernel
theorem noFlush2_3 : ∀ t : Fin cfg2.N, ¬ t.val % 4 = 3 → (cfg2.win 3).flush t = false := by decide +kernel
theorem liveAt2_3 : ∀ t : Fin cfg2.N, t.val % 4 = 3 → cfg2.idle 3 (grid2.coords t) = false := by decide +kernel
/-- The column-sum blocks are stored where i = 0 ∧ k = 0 and where k = 3. -/
theorem idleAt2_4 : ∀ t : Fin cfg2.N, ¬ t.val % 32 = 0 → ¬ t.val % 4 = 3 → cfg2.idle 4 (grid2.coords t) = true := by decide +kernel
theorem noFlush2_4 : ∀ t : Fin cfg2.N, ¬ t.val % 4 = 3 → (cfg2.win 4).flush t = false := by decide +kernel
theorem liveAt2_4_zero : ∀ t : Fin cfg2.N, t.val % 32 = 0 → cfg2.idle 4 (grid2.coords t) = false := by decide +kernel
theorem liveAt2_4_last : ∀ t : Fin cfg2.N, t.val % 4 = 3 → cfg2.idle 4 (grid2.coords t) = false := by decide +kernel
theorem idleAt2_5 : ∀ t : Fin cfg2.N, ¬ t.val % 32 = 0 → ¬ t.val % 4 = 3 → cfg2.idle 5 (grid2.coords t) = true := by decide +kernel
theorem noFlush2_5 : ∀ t : Fin cfg2.N, ¬ t.val % 4 = 3 → (cfg2.win 5).flush t = false := by decide +kernel
theorem liveAt2_5_zero : ∀ t : Fin cfg2.N, t.val % 32 = 0 → cfg2.idle 5 (grid2.coords t) = false := by decide +kernel
theorem liveAt2_5_last : ∀ t : Fin cfg2.N, t.val % 4 = 3 → cfg2.idle 5 (grid2.coords t) = false := by decide +kernel

/-! ## The buffers a point's body runs on -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x2048 .f32 := win2_5.stage (cfg2.slots t 5)
abbrev hs2_5 (t : Fin cfg2.N) : (ms2_5 t).IsWhole := hstage2_5 ((cfg2.slots t 5).cast nbuf2_5)
/-- The accumulator: a whole buffer of the kernel's own, carried from point to point. -/
abbrev accM : Memref sig .tc .vmem S1024x2048 .f32 := Memref.whole cc2_scratch0

/-- The whole-buffer rectangles the body loads and stores through. -/
abbrev rAcc : Rect S1024x2048 := Rect.unit (s := S1024x2048) ![0, 0] S1024x2048.size inb_S1024x2048_S1024x2048_0_0
abbrev rRow : Rect S1x2048 := Rect.unit (s := S1x2048) ![0, 0] S1x2048.size inb_S1x2048_S1x2048_0_0
abbrev rLhs : Rect S1024x1024 := Rect.unit (s := S1024x1024) ![0, 0] S1024x1024.size inb_S1024x1024_S1024x1024_0_0
abbrev rRhs : Rect S2048x1024 := Rect.unit (s := S2048x1024) ![0, 0] S2048x1024.size inb_S2048x1024_S2048x1024_0_0

/-- The other regions' staging buffers (whole, each at some contents): this region never touches them. -/
def othersS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f))

/-- The class invariant of this region taken apart: the other regions' staging buffers, the accumulator at some
    contents, the generator register at some state. -/
theorem PhiA2_split (c : Dev nD) :
    (Pipeline.ΦA spec2 c : sProp 𝕄) ⊢ iprop(othersS (F := F) c ∗ (∃ d, owns (c : Thread nD τ) accM fullShare d) ∗ (∃ r, prngReg c r)) := by
  unfold Pipeline.ΦA othersS; rw [scopedRest2_eq]; simp only [accM, owns_whole]
  iintro ⟨⟨H_cc0_stg0_0, H_cc0_stg0_1, H_cc0_stg1_0, H_cc0_stg1_1, H_cc1_stg0_0, H_cc1_stg0_1, H_cc1_stg1_0, H_cc1_stg1_1, H_cc2_scratch0, H_cc3_stg0_0, H_cc3_stg0_1, H_cc3_stg1_0, H_cc3_stg2_0, H_cc3_stg3_0, H_cc3_stg3_1⟩, Hg⟩
  isplitl [H_cc0_stg0_0 H_cc0_stg0_1 H_cc0_stg1_0 H_cc0_stg1_1 H_cc1_stg0_0 H_cc1_stg0_1 H_cc1_stg1_0 H_cc1_stg1_1 H_cc3_stg0_0 H_cc3_stg0_1 H_cc3_stg1_0 H_cc3_stg2_0 H_cc3_stg3_0 H_cc3_stg3_1]
  ·
    isplitl [H_cc0_stg0_0]; · iexact H_cc0_stg0_0
    isplitl [H_cc0_stg0_1]; · iexact H_cc0_stg0_1
    isplitl [H_cc0_stg1_0]; · iexact H_cc0_stg1_0
    isplitl [H_cc0_stg1_1]; · iexact H_cc0_stg1_1
    isplitl [H_cc1_stg0_0]; · iexact H_cc1_stg0_0
    isplitl [H_cc1_stg0_1]; · iexact H_cc1_stg0_1
    isplitl [H_cc1_stg1_0]; · iexact H_cc1_stg1_0
    isplitl [H_cc1_stg1_1]; · iexact H_cc1_stg1_1
    isplitl [H_cc3_stg0_0]; · iexact H_cc3_stg0_0
    isplitl [H_cc3_stg0_1]; · iexact H_cc3_stg0_1
    isplitl [H_cc3_stg1_0]; · iexact H_cc3_stg1_0
    isplitl [H_cc3_stg2_0]; · iexact H_cc3_stg2_0
    isplitl [H_cc3_stg3_0]; · iexact H_cc3_stg3_0
    iexact H_cc3_stg3_1
  isplitl [H_cc2_scratch0]; · iexact H_cc2_scratch0
  iexact Hg

/-- … and put back together. -/
theorem PhiA2_join (c : Dev nD) :
    iprop(othersS (F := F) c ∗ (∃ d, owns (c : Thread nD τ) accM fullShare d) ∗ (∃ r, prngReg c r)) ⊢ (Pipeline.ΦA spec2 c : sProp 𝕄) := by
  unfold Pipeline.ΦA othersS; rw [scopedRest2_eq]; simp only [accM, owns_whole]
  iintro ⟨⟨H_cc0_stg0_0, H_cc0_stg0_1, H_cc0_stg1_0, H_cc0_stg1_1, H_cc1_stg0_0, H_cc1_stg0_1, H_cc1_stg1_0, H_cc1_stg1_1, H_cc3_stg0_0, H_cc3_stg0_1, H_cc3_stg1_0, H_cc3_stg2_0, H_cc3_stg3_0, H_cc3_stg3_1⟩, H_cc2_scratch0, Hg⟩
  isplitr [Hg]
  ·
    isplitl [H_cc0_stg0_0]; · iexact H_cc0_stg0_0
    isplitl [H_cc0_stg0_1]; · iexact H_cc0_stg0_1
    isplitl [H_cc0_stg1_0]; · iexact H_cc0_stg1_0
    isplitl [H_cc0_stg1_1]; · iexact H_cc0_stg1_1
    isplitl [H_cc1_stg0_0]; · iexact H_cc1_stg0_0
    isplitl [H_cc1_stg0_1]; · iexact H_cc1_stg0_1
    isplitl [H_cc1_stg1_0]; · iexact H_cc1_stg1_0
    isplitl [H_cc1_stg1_1]; · iexact H_cc1_stg1_1
    isplitl [H_cc2_scratch0]; · iexact H_cc2_scratch0
    isplitl [H_cc3_stg0_0]; · iexact H_cc3_stg0_0
    isplitl [H_cc3_stg0_1]; · iexact H_cc3_stg0_1
    isplitl [H_cc3_stg1_0]; · iexact H_cc3_stg1_0
    isplitl [H_cc3_stg2_0]; · iexact H_cc3_stg2_0
    isplitl [H_cc3_stg3_0]; · iexact H_cc3_stg3_0
    iexact H_cc3_stg3_1
  iexact Hg

end Cert.KernelIdeal.Hand

end
-- ==== Proof.KI.Reg2RunA.lean ====
/-
  The matmul body where i = 0 and k = 0 (the first point of each j): both column-sum blocks and the accumulator
  are zeroed, then the first partial product is added to the accumulator.  The pieces the stores leave in each
  buffer are found by running the body.
-/
import proofs.«113576_j90099823935564_2_alg».proof.Proof.KI.Reg2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (hc1 : cond2_1 i) (hc2 : cond2_2 i) (hc3 : ¬cond2_3 i)
    (x0 : Vec F S1024x1024 .bf16) (x1 : Vec F S2048x1024 .bf16) :
    Σ' (L4 : List (View.Piece (Elt F) S1x2048 .f32)), Σ' (L5 : List (View.Piece (Elt F) S1x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8 arg9 harg9) K } := by
  refine ⟨?_, ?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d4, %f4, -, H4⟩, ⟨%d5, %f5, -, H5⟩, ⟨%ds, %fs, -, HS⟩, Hk⟩
    obtain rfl := harg3.eq_unread hf0; obtain rfl := harg4.eq_unread hf1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H4]; · iexists _; iexact H4
    isplitl [H5]; · iexists _; iexact H5
    iexists _; iexact HS

end Cert.KernelIdeal.Hand

end
-- ==== Proof.KI.Reg2RunB.lean ====
/-
  The matmul body where k = 0 and i ≠ 0: the accumulator is zeroed, then the first partial product of the block
  is added to it.  The column-sum blocks and the output block are not touched.
-/
import proofs.«113576_j90099823935564_2_alg».proof.Proof.KI.Reg2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (hc1 : ¬cond2_1 i) (hc2 : cond2_2 i) (hc3 : ¬cond2_3 i)
    (x0 : Vec F S1024x1024 .bf16) (x1 : Vec F S2048x1024 .bf16) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8 arg9 harg9) K } := by
  refine ⟨?_, fun E K => ?run⟩
  case run =>
    simp only [cc2__matmul_kernel_eq_skeleton]; unfold cc2__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.KernelIdeal.Hand

end
-- ==== Proof.KI.Reg2RunC.lean ====
/-
  The matmul body where k = 1 or k = 2: one partial product is added to the accumulator the point before left.
-/
import proofs.«113576_j90099823935564_2_alg».proof.Proof.KI.Reg2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (hc1 : ¬cond2_1 i) (hc2 : ¬cond2_2 i) (hc3 : ¬cond2_3 i)
    (x0 : Vec F S1024x1024 .bf16) (x1 : Vec F S2048x1024 .bf16) (xs : Vec F S1024x2048 .f32) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg9 fullShare xs
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8 arg9 harg9) K } := by
  refine ⟨?_, fun E K => ?run⟩
  case run =>
    simp only [cc2__matmul_kernel_eq_skeleton]; unfold cc2__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg9.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.KernelIdeal.Hand

end
-- ==== Proof.KI.Reg2RunD.lean ====
/-
  The matmul body where k = 3: the last partial product is added to the accumulator; the output block is stored
  as accumulator + bias row, and its column sums and column sums of squares are added to the two sum blocks as the
  last live point left them.
-/
import proofs.«113576_j90099823935564_2_alg».proof.Proof.KI.Reg2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun2_D (c : Dev nD) (i : grid2.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x2048 .f32) (harg9 : arg9.IsWhole) (hc1 : ¬cond2_1 i) (hc2 : ¬cond2_2 i) (hc3 : cond2_3 i)
    (x0 : Vec F S1024x1024 .bf16) (x1 : Vec F S2048x1024 .bf16) (x2 : Vec F S1x2048 .f32) (y4 y5 : Vec F S1x2048 .f32) (xs : Vec F S1024x2048 .f32) :
    Σ' (L3 : List (View.Piece (Elt F) S1024x2048 .f32)), Σ' (L4 : List (View.Piece (Elt F) S1x2048 .f32)), Σ' (L5 : List (View.Piece (Elt F) S1x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare y4 ∗ owns (c : Thread nD τ) arg8 fullShare y5 ∗ owns (c : Thread nD τ) arg9 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8 arg9 harg9) K } := by
  refine ⟨?_, ?_, ?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2
    obtain rfl := harg7.eq_unread hf4; obtain rfl := harg8.eq_unread hf5; obtain rfl := harg9.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    iexists _; iexact HS

end Cert.KernelIdeal.Hand

end
-- ==== Proof.KI.Reg2Dat.lean ====
/-
  The matmul region: what its buffers hold after each grid point, the invariant that carries the accumulator from
  point to point, and the body obligation at every point.

  After point t = 32 j + 4 i + k the accumulator holds the sum of the first k + 1 partial products of block (i, j);
  the two column-sum blocks hold zero from the first point of j and gain block (i, j)'s column sums (of the entries,
  of their squares) at each k = 3, and are carried unchanged through the points between; the output block holds
  accumulator + bias at k = 3.  The pieces each point's stores leave are those its case's run found.
-/
import proofs.«113576_j90099823935564_2_alg».proof.Proof.KI.Reg2RunA
import proofs.«113576_j90099823935564_2_alg».proof.Proof.KI.Reg2RunB
import proofs.«113576_j90099823935564_2_alg».proof.Proof.KI.Reg2RunC
import proofs.«113576_j90099823935564_2_alg».proof.Proof.KI.Reg2RunD
import Idealize.ShloMosaic.Lib.Pipeline.TableIdle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces each case's run leaves cover their buffers -/

theorem coverA_4 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : cond2_1 i) (hc2 : cond2_2 i) (hc3 : ¬cond2_3 i) (x0 : Vec F S1024x1024 .bf16) (x1 : Vec F S2048x1024 .bf16) (y : S1x2048.Idx) :
    ∃ pc ∈ (kernelRun2_A (F := F) c i a3 h3 a4 h4 a5 h5 a6 h6 a7 h7 a8 h8 a9 h9 hc1 hc2 hc3 x0 x1).1, y ∈ pc.1.set :=
  View.cover_of_tiledL _ S1x2048.size (by sl_kernel_rfl) y

theorem coverA_5 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : cond2_1 i) (hc2 : cond2_2 i) (hc3 : ¬cond2_3 i) (x0 : Vec F S1024x1024 .bf16) (x1 : Vec F S2048x1024 .bf16) (y : S1x2048.Idx) :
    ∃ pc ∈ (kernelRun2_A (F := F) c i a3 h3 a4 h4 a5 h5 a6 h6 a7 h7 a8 h8 a9 h9 hc1 hc2 hc3 x0 x1).2.1, y ∈ pc.1.set :=
  View.cover_of_tiledL _ S1x2048.size (by sl_kernel_rfl) y

theorem coverA_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : cond2_1 i) (hc2 : cond2_2 i) (hc3 : ¬cond2_3 i) (x0 : Vec F S1024x1024 .bf16) (x1 : Vec F S2048x1024 .bf16) (y : S1024x2048.Idx) :
    ∃ pc ∈ (kernelRun2_A (F := F) c i a3 h3 a4 h4 a5 h5 a6 h6 a7 h7 a8 h8 a9 h9 hc1 hc2 hc3 x0 x1).2.2.1, y ∈ pc.1.set :=
  View.cover_of_tiledL _ S1024x2048.size (by sl_kernel_rfl) y

theorem coverB_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : cond2_2 i) (hc3 : ¬cond2_3 i) (x0 : Vec F S1024x1024 .bf16) (x1 : Vec F S2048x1024 .bf16) (y : S1024x2048.Idx) :
    ∃ pc ∈ (kernelRun2_B (F := F) c i a3 h3 a4 h4 a5 h5 a6 h6 a7 h7 a8 h8 a9 h9 hc1 hc2 hc3 x0 x1).1, y ∈ pc.1.set :=
  View.cover_of_tiledL _ S1024x2048.size (by sl_kernel_rfl) y

theorem coverC_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : ¬cond2_3 i) (x0 : Vec F S1024x1024 .bf16) (x1 : Vec F S2048x1024 .bf16) (xs : Vec F S1024x2048 .f32) (y : S1024x2048.Idx) :
    ∃ pc ∈ (kernelRun2_C (F := F) c i a3 h3 a4 h4 a5 h5 a6 h6 a7 h7 a8 h8 a9 h9 hc1 hc2 hc3 x0 x1 xs).1, y ∈ pc.1.set :=
  View.cover_of_tiledL _ S1024x2048.size (by sl_kernel_rfl) y

theorem coverD_3 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) (y : S1024x2048.Idx) :
    ∃ pc ∈ (kernelRun2_D (F := F) c i a3 h3 a4 h4 a5 h5 a6 h6 a7 h7 a8 h8 a9 h9 hc1 hc2 hc3 x0 x1 x2 y4 y5 xs).1, y ∈ pc.1.set :=
  View.cover_of_tiledL _ S1024x2048.size (by sl_kernel_rfl) y

theorem coverD_4 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) (y : S1x2048.Idx) :
    ∃ pc ∈ (kernelRun2_D (F := F) c i a3 h3 a4 h4 a5 h5 a6 h6 a7 h7 a8 h8 a9 h9 hc1 hc2 hc3 x0 x1 x2 y4 y5 xs).2.1, y ∈ pc.1.set :=
  View.cover_of_tiledL _ S1x2048.size (by sl_kernel_rfl) y

theorem coverD_5 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) (y : S1x2048.Idx) :
    ∃ pc ∈ (kernelRun2_D (F := F) c i a3 h3 a4 h4 a5 h5 a6 h6 a7 h7 a8 h8 a9 h9 hc1 hc2 hc3 x0 x1 x2 y4 y5 xs).2.2.1, y ∈ pc.1.set :=
  View.cover_of_tiledL _ S1x2048.size (by sl_kernel_rfl) y

theorem coverD_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) (y : S1024x2048.Idx) :
    ∃ pc ∈ (kernelRun2_D (F := F) c i a3 h3 a4 h4 a5 h5 a6 h6 a7 h7 a8 h8 a9 h9 hc1 hc2 hc3 x0 x1 x2 y4 y5 xs).2.2.2.1, y ∈ pc.1.set :=
  View.cover_of_tiledL _ S1024x2048.size (by sl_kernel_rfl) y

section Region
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The four cases at a point, from the point's position -/

abbrev RA (c : Dev nD) (t : Fin cfg2.N) (h1 : t.val % 32 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) accM (Memref.isWhole_whole _)
    ((hcond2_1 t).mpr h1) ((hcond2_2 t).mpr (by omega)) (fun hh => by have := (hcond2_3 t).mp hh; omega)
abbrev RB (c : Dev nD) (t : Fin cfg2.N) (h1 : ¬ t.val % 32 = 0) (h2 : t.val % 4 = 0) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) accM (Memref.isWhole_whole _)
    (fun hh => h1 ((hcond2_1 t).mp hh)) ((hcond2_2 t).mpr h2) (fun hh => by have := (hcond2_3 t).mp hh; omega)
abbrev RC (c : Dev nD) (t : Fin cfg2.N) (h2 : ¬ t.val % 4 = 0) (h3 : ¬ t.val % 4 = 3) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) accM (Memref.isWhole_whole _)
    (fun hh => by have := (hcond2_1 t).mp hh; omega) (fun hh => h2 ((hcond2_2 t).mp hh)) (fun hh => h3 ((hcond2_3 t).mp hh))
abbrev RD (c : Dev nD) (t : Fin cfg2.N) (h3 : t.val % 4 = 3) :=
  kernelRun2_D (F := F) c (grid2.coords t) (ms2_0 t) (hs2_0 t) (ms2_1 t) (hs2_1 t) (ms2_2 t) (hs2_2 t) (ms2_3 t) (hs2_3 t) (ms2_4 t) (hs2_4 t) (ms2_5 t) (hs2_5 t) accM (Memref.isWhole_whole _)
    (fun hh => by have := (hcond2_1 t).mp hh; omega) (fun hh => by have := (hcond2_2 t).mp hh; omega) ((hcond2_3 t).mpr h3)

/-! ## What the buffers hold after each point -/

/-- (output block, column sums, column sums of squares, accumulator). -/
abbrev Outs2 (F : FTy → Type) [FloatOps F] : Type := Vec F S1024x2048 .f32 × Vec F S1x2048 .f32 × Vec F S1x2048 .f32 × Vec F S1024x2048 .f32

/-- The output block where nothing was stored into it: contents nothing reads. -/
abbrev noOut : Vec F S1024x2048 .f32 := View.canon ([] : List (View.Piece (Elt F) S1024x2048 .f32))

def outsAt2 (c : Dev nD) : (n : ℕ) → n < cfg2.N → Outs2 F
  | 0, hn =>
    (noOut,
     View.canon (RA c ⟨0, hn⟩ (Nat.zero_mod _) (iblk2 V c 0 ⟨0, hn⟩) (iblk2 V c 1 ⟨0, hn⟩)).1,
     View.canon (RA c ⟨0, hn⟩ (Nat.zero_mod _) (iblk2 V c 0 ⟨0, hn⟩) (iblk2 V c 1 ⟨0, hn⟩)).2.1,
     View.canon (RA c ⟨0, hn⟩ (Nat.zero_mod _) (iblk2 V c 0 ⟨0, hn⟩) (iblk2 V c 1 ⟨0, hn⟩)).2.2.1)
  | n + 1, hn =>
    if h1 : (n + 1) % 32 = 0 then
      (noOut,
       View.canon (RA c ⟨n + 1, hn⟩ h1 (iblk2 V c 0 ⟨n + 1, hn⟩) (iblk2 V c 1 ⟨n + 1, hn⟩)).1,
       View.canon (RA c ⟨n + 1, hn⟩ h1 (iblk2 V c 0 ⟨n + 1, hn⟩) (iblk2 V c 1 ⟨n + 1, hn⟩)).2.1,
       View.canon (RA c ⟨n + 1, hn⟩ h1 (iblk2 V c 0 ⟨n + 1, hn⟩) (iblk2 V c 1 ⟨n + 1, hn⟩)).2.2.1)
    else if h2 : (n + 1) % 4 = 0 then
      ((outsAt2 c n (Nat.lt_of_succ_lt hn)).1, (outsAt2 c n (Nat.lt_of_succ_lt hn)).2.1, (outsAt2 c n (Nat.lt_of_succ_lt hn)).2.2.1,
       View.canon (RB c ⟨n + 1, hn⟩ h1 h2 (iblk2 V c 0 ⟨n + 1, hn⟩) (iblk2 V c 1 ⟨n + 1, hn⟩)).1)
    else if h3 : (n + 1) % 4 = 3 then
      (View.canon (RD c ⟨n + 1, hn⟩ h3 (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2).1,
       View.canon (RD c ⟨n + 1, hn⟩ h3 (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2).2.1,
       View.canon (RD c ⟨n + 1, hn⟩ h3 (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2).2.2.1,
       View.canon (RD c ⟨n + 1, hn⟩ h3 (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2.1 (outsAt2 c n (Nat.lt_of_succ_lt hn)).2.2.2).2.2.2.1)
    else
      ((outsAt2 c n (Nat.lt_of_succ_lt hn)).1, (outsAt2 c n (Nat.lt_of_succ_lt hn)).2.1, (outsAt2 c n (Nat.lt_of_succ_lt hn)).2.2.1,
       View.canon (RC c ⟨n + 1, hn⟩ h2 h3 (iblk2 V c 0 ⟨n + 1, hn⟩) (iblk2 V c 1 ⟨n + 1, hn⟩) (outsAt2 c n (Nat.lt_of_succ_lt hn)).2.2.2).1)

/-- The contents after the point before t (t not the first). -/
abbrev prev2 (c : Dev nD) (t : Fin cfg2.N) : Outs2 F := outsAt2 V c (t.val - 1) (Nat.lt_of_le_of_lt (Nat.sub_le _ _) t.isLt)

theorem outsAt2_A (c : Dev nD) (t : Fin cfg2.N) (h1 : t.val % 32 = 0) :
    outsAt2 V c t.val t.isLt = (noOut, View.canon (RA c t h1 (iblk2 V c 0 t) (iblk2 V c 1 t)).1, View.canon (RA c t h1 (iblk2 V c 0 t) (iblk2 V c 1 t)).2.1, View.canon (RA c t h1 (iblk2 V c 0 t) (iblk2 V c 1 t)).2.2.1) := by
  obtain ⟨n, hn⟩ := t
  cases n with
  | zero => exact rfl
  | succ n => exact (dif_pos h1).trans rfl

theorem outsAt2_B (c : Dev nD) (t : Fin cfg2.N) (h1 : ¬ t.val % 32 = 0) (h2 : t.val % 4 = 0) :
    outsAt2 V c t.val t.isLt = ((prev2 V c t).1, (prev2 V c t).2.1, (prev2 V c t).2.2.1, View.canon (RB c t h1 h2 (iblk2 V c 0 t) (iblk2 V c 1 t)).1) := by
  obtain ⟨n, hn⟩ := t
  cases n with
  | zero => exact absurd (Nat.zero_mod _) h1
  | succ n => exact (dif_neg h1).trans ((dif_pos h2).trans rfl)

theorem outsAt2_C (c : Dev nD) (t : Fin cfg2.N) (h2 : ¬ t.val % 4 = 0) (h3 : ¬ t.val % 4 = 3) :
    outsAt2 V c t.val t.isLt = ((prev2 V c t).1, (prev2 V c t).2.1, (prev2 V c t).2.2.1, View.canon (RC c t h2 h3 (iblk2 V c 0 t) (iblk2 V c 1 t) (prev2 V c t).2.2.2).1) := by
  obtain ⟨n, hn⟩ := t
  cases n with
  | zero => exact absurd (Nat.zero_mod _) h2
  | succ n =>
    have h2' : ¬ (n + 1) % 4 = 0 := h2
    have h3' : ¬ (n + 1) % 4 = 3 := h3
    have h1 : ¬ (n + 1) % 32 = 0 := fun h => h2' (by omega)
    exact (dif_neg h1).trans ((dif_neg h2').trans ((dif_neg h3').trans rfl))

theorem outsAt2_D (c : Dev nD) (t : Fin cfg2.N) (h3 : t.val % 4 = 3) :
    outsAt2 V c t.val t.isLt =
      (View.canon (RD c t h3 (iblk2 V c 0 t) (iblk2 V c 1 t) (iblk2 V c 2 t) (prev2 V c t).2.1 (prev2 V c t).2.2.1 (prev2 V c t).2.2.2).1,
       View.canon (RD c t h3 (iblk2 V c 0 t) (iblk2 V c 1 t) (iblk2 V c 2 t) (prev2 V c t).2.1 (prev2 V c t).2.2.1 (prev2 V c t).2.2.2).2.1,
       View.canon (RD c t h3 (iblk2 V c 0 t) (iblk2 V c 1 t) (iblk2 V c 2 t) (prev2 V c t).2.1 (prev2 V c t).2.2.1 (prev2 V c t).2.2.2).2.2.1,
       View.canon (RD c t h3 (iblk2 V c 0 t) (iblk2 V c 1 t) (iblk2 V c 2 t) (prev2 V c t).2.1 (prev2 V c t).2.2.1 (prev2 V c t).2.2.2).2.2.2.1) := by
  obtain ⟨n, hn⟩ := t
  cases n with
  | zero =>
    have h3' : 0 % 4 = 3 := h3
    exact absurd h3' (by decide)
  | succ n =>
    have h3' : (n + 1) % 4 = 3 := h3
    have h1 : ¬ (n + 1) % 32 = 0 := fun h => by omega
    have h2 : ¬ (n + 1) % 4 = 0 := fun h => by omega
    exact (dif_neg h1).trans ((dif_neg h2).trans ((dif_pos h3').trans rfl))

/-! ## The invariant: the accumulator carried from point to point -/

def PhiS (c : Dev nD) : (n : ℕ) → n ≤ cfg2.N → sProp 𝕄
  | 0, _ => Pipeline.ΦA spec2 c
  | n + 1, hn => iprop(othersS (F := F) c ∗ owns (c : Thread nD τ) accM fullShare (outsAt2 V c n hn).2.2.2 ∗ (∃ r, prngReg c r))

theorem PhiS_succ (c : Dev nD) (n : ℕ) (hn : n < cfg2.N) :
    PhiS V c (n + 1) hn = iprop(othersS (F := F) c ∗ owns (c : Thread nD τ) accM fullShare (outsAt2 V c n hn).2.2.2 ∗ (∃ r, prngReg c r)) := rfl

theorem PhiS_pos (c : Dev nD) (n : ℕ) (h : n ≤ cfg2.N) (hz : n ≠ 0) :
    PhiS V c n h = iprop(othersS (F := F) c ∗ owns (c : Thread nD τ) accM fullShare (outsAt2 V c (n - 1) (by omega)).2.2.2 ∗ (∃ r, prngReg c r)) := by
  cases n with
  | zero => exact absurd rfl hz
  | succ n => rfl

/-- At any point the invariant yields the accumulator at SOME contents (enough where the body zeroes it first). -/
theorem PhiS_some (c : Dev nD) (n : ℕ) (h : n ≤ cfg2.N) :
    PhiS V c n h ⊢ iprop(othersS (F := F) c ∗ (∃ d, owns (c : Thread nD τ) accM fullShare d) ∗ (∃ r, prngReg c r)) := by
  cases n with
  | zero => exact PhiA2_split c
  | succ n =>
    rw [PhiS_succ]
    iintro ⟨Ho, HS, Hg⟩
    isplitl [Ho]; · iexact Ho
    isplitl [HS]; · iexists _; iexact HS
    iexact Hg

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The column-sum blocks as a k = 3 point finds them: what the last live point left, through the idle points -/

theorem idle2_4_iff : ∀ t : Fin cfg2.N, cfg2.idle 4 (grid2.coords t) = true → ¬ t.val % 32 = 0 ∧ ¬ t.val % 4 = 3 := by decide +kernel
theorem idle2_5_iff : ∀ t : Fin cfg2.N, cfg2.idle 5 (grid2.coords t) = true → ¬ t.val % 32 = 0 ∧ ¬ t.val % 4 = 3 := by decide +kernel
theorem fresh2_4 : ∀ t : Fin cfg2.N, ¬ t.val % 32 = 0 → cfg2.fresh 4 t.val = false := by decide +kernel
theorem fresh2_5 : ∀ t : Fin cfg2.N, ¬ t.val % 32 = 0 → cfg2.fresh 5 t.val = false := by decide +kernel

/-- At an idle point the stated contents of the sum blocks are the previous point's. -/
theorem carry2 (c : Dev nD) (t : Fin cfg2.N) (h1 : ¬ t.val % 32 = 0) (h3 : ¬ t.val % 4 = 3) :
    (outsAt2 V c t.val t.isLt).2.1 = (prev2 V c t).2.1 ∧ (outsAt2 V c t.val t.isLt).2.2.1 = (prev2 V c t).2.2.1 := by
  by_cases h2 : t.val % 4 = 0
  · rw [outsAt2_B V c t h1 h2]; exact ⟨rfl, rfl⟩
  · rw [outsAt2_C V c t h2 h3]; exact ⟨rfl, rfl⟩

theorem before2_4 (c : Dev nD) (t : Fin cfg2.N) (h1 : ¬ t.val % 32 = 0) (d) :
    (dat2 V c).before 4 t d = (prev2 V c t).2.1 := by
  have hpos : t.val ≠ 0 := fun h => h1 (by rw [h])
  have h := Pipeline.Dat.before_out_traj (dat2 V c) 4 rfl (fun _ _ => rfl)
    (fun s hs hi _ => by
      rw [after2_4, after2_4]
      exact (carry2 V c s (idle2_4_iff s hi).1 (idle2_4_iff s hi).2).1) t.val t rfl d
  rw [h, fresh2_4 t h1, if_neg Bool.false_ne_true, after2_4]

theorem before2_5 (c : Dev nD) (t : Fin cfg2.N) (h1 : ¬ t.val % 32 = 0) (d) :
    (dat2 V c).before 5 t d = (prev2 V c t).2.2.1 := by
  have hpos : t.val ≠ 0 := fun h => h1 (by rw [h])
  have h := Pipeline.Dat.before_out_traj (dat2 V c) 5 rfl (fun _ _ => rfl)
    (fun s hs hi _ => by
      rw [after2_5, after2_5]
      exact (carry2 V c s (idle2_5_iff s hi).1 (idle2_5_iff s hi).2).2) t.val t rfl d
  rw [h, fresh2_5 t h1, if_neg Bool.false_ne_true, after2_5]

end Region

end Cert.KernelIdeal.Hand

end
-- ==== Proof.KI.Reg2BodyDefs.lean ====
/-
  The matmul region's body obligation, set up: what the body is called with and what it must return at a point, in
  the form the pipeline states them and in the normal form the four cases are proved in (the inputs at their blocks,
  the invariant at the point's position).
-/
import proofs.«113576_j90099823935564_2_alg».proof.Proof.KI.Reg2Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

/-- What the body is called with, the inputs at their blocks and the invariant at the point's position. -/
def pre2N (c : Dev nD) (t : Fin cfg2.N) : sProp 𝕄 :=
  iprop(PhiS V c t.val (Nat.le_of_lt t.isLt) ∗ (dat2 V c).owesAt () t.castSucc
    ∗ (∃ d : (cfg2.win 0).block.Idx → Elt F (cfg2.win 0).elt, owns (c : Thread nD τ) (ms2_0 t) fullShare (iblk2 V c 0 t))
    ∗ (∃ d : (cfg2.win 1).block.Idx → Elt F (cfg2.win 1).elt, owns (c : Thread nD τ) (ms2_1 t) fullShare (iblk2 V c 1 t))
    ∗ (∃ d : (cfg2.win 2).block.Idx → Elt F (cfg2.win 2).elt, owns (c : Thread nD τ) (ms2_2 t) fullShare (iblk2 V c 2 t))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- What it must return: the accumulator at this point's contents, the inputs in place, each output window at what
    the proof data states (or, idle, as found). -/
def post2N (c : Dev nD) (t : Fin cfg2.N) : sProp 𝕄 :=
  iprop(iprop(othersS (F := F) c ∗ owns (c : Thread nD τ) accM fullShare (outsAt2 V c t.val t.isLt).2.2.2 ∗ (∃ r, prngReg c r))
    ∗ (dat2 V c).owesAt () t.castSucc
    ∗ owns (c : Thread nD τ) (ms2_0 t) fullShare (iblk2 V c 0 t) ∗ owns (c : Thread nD τ) (ms2_1 t) fullShare (iblk2 V c 1 t) ∗ owns (c : Thread nD τ) (ms2_2 t) fullShare (iblk2 V c 2 t)
    ∗ (dat2 V c).leavesExact 3 t ∗ (dat2 V c).leavesExact 4 t ∗ (dat2 V c).leavesExact 5 t)

/-- The pipeline's form of the obligation from the normal form. -/
theorem norm2 (c : Dev nD) (t : Fin cfg2.N)
    (h : pre2N V c t ⊢ wp frame (wpE (defs₀ (F := F)) Variants.none c none) Set.univ (bodyAt2 t) (fun _ => post2N V c t)) :
    bodyPre2 V c t ⊢ wp frame (wpE (defs₀ (F := F)) Variants.none c none) Set.univ (bodyAt2 t) (fun _ => bodyPost2 V c t) := by
  unfold bodyPre2 bodyPost2
  simp only [before2_0, before2_1, before2_2]
  rw [show (dat2 V c).owesAt () t.succ = (dat2 V c).owesAt () t.castSucc from rfl]
  rw [show (dat2 V c).Φ t.succ = PhiS V c (t.val + 1) t.isLt from rfl, PhiS_succ, PhiS_castSucc]
  rw [leaves2_0, leaves2_1, leaves2_2]
  exact h

end Region

end Cert.KernelIdeal.Hand

end
-- ==== Proof.KI.Reg2BodyA.lean ====
/-
  The matmul body at the first point of each j (i = 0, k = 0): the sums and the accumulator are zeroed, the first product added.
-/
import proofs.«113576_j90099823935564_2_alg».proof.Proof.KI.Reg2BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 4000000 in
theorem body2_A (c : Dev nD) (t : Fin cfg2.N) (h1 : t.val % 32 = 0) :
    pre2N V c t ⊢ wp frame (wpE (defs₀ (F := F)) Variants.none c none) Set.univ (bodyAt2 t) (fun _ => post2N V c t) := by
  unfold pre2N post2N bodyAt2
  have hN : t.val < 64 := lt_of_lt_of_eq t.isLt (show cfg2.N = 64 from N_2)

  have h3 : ¬ t.val % 4 = 3 := by omega
  rw [Dat.leavesExact_idle (dat2 V c) 3 t (idleAt2_3 t h3) (noFlush2_3 t h3)]
  rw [show (dat2 V c).leavesExact 4 t = owns (c : Thread nD τ) (ms2_4 t) fullShare ((dat2 V c).after 4 t) from by
    unfold Dat.leavesExact; rw [liveAt2_4_zero t h1], after2_4]
  rw [show (dat2 V c).leavesExact 5 t = owns (c : Thread nD τ) (ms2_5 t) fullShare ((dat2 V c).after 5 t) from by
    unfold Dat.leavesExact; rw [liveAt2_5_zero t h1], after2_5]
  rw [outsAt2_A V c t h1]
  dsimp only
  iintro ⟨HΦ, Ho, ⟨%d0, H0⟩, ⟨%d1, H1⟩, ⟨%d2, H2⟩, ⟨%d3, H3⟩, ⟨%d4, H4⟩, ⟨%d5, H5⟩⟩
  ihave HΦ' := (PhiS_some V c _ _) $$ HΦ
  icases HΦ' with ⟨Hoth, HS, Hg⟩
  iapply ((RA c t h1 (iblk2 V c 0 t) (iblk2 V c 1 t)).2.2.2 Set.univ _)
  isplitl [H0]; · iexact H0
  isplitl [H1]; · iexact H1
  isplitl [H4]; · iexists _; iexact H4
  isplitl [H5]; · iexists _; iexact H5
  isplitl [HS]; · iexact HS
  iintro ⟨H0, H1, ⟨%e4, H4⟩, ⟨%e5, H5⟩, ⟨%es, HS⟩⟩
  isplitl [Hoth HS Hg]
  · isplitl [Hoth]; · iexact Hoth
    isplitl [HS]
    · unfold owns; iexists _; isplitr
      swap; · iexact HS
      ipureintro; exact View.read_writes_eq_canon _ _ _ (coverA_S _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists _; iexact H3
  isplitl [H4]
  · unfold owns; iexists _; isplitr
    swap; · iexact H4
    ipureintro; exact View.read_writes_eq_canon _ _ _ (coverA_4 _ _ _ _ _ _ _ _ _ _ _ _ _ _ _ _ _ _ _ _ _)
  unfold owns; iexists _; isplitr
  swap; · iexact H5
  ipureintro; exact View.read_writes_eq_canon _ _ _ (coverA_5 _ _ _ _ _ _ _ _ _ _ _ _ _ _ _ _ _ _ _ _ _)

end Region

end Cert.KernelIdeal.Hand

end
-- ==== Proof.KI.Reg2BodyB.lean ====
/-
  The matmul body where k = 0 and i ≠ 0: the accumulator is zeroed, the first product added; the output windows are handed back as found.
-/
import proofs.«113576_j90099823935564_2_alg».proof.Proof.KI.Reg2BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 4000000 in
theorem body2_B (c : Dev nD) (t : Fin cfg2.N) (h1 : ¬ t.val % 32 = 0) (h2 : t.val % 4 = 0) :
    pre2N V c t ⊢ wp frame (wpE (defs₀ (F := F)) Variants.none c none) Set.univ (bodyAt2 t) (fun _ => post2N V c t) := by
  unfold pre2N post2N bodyAt2
  have hN : t.val < 64 := lt_of_lt_of_eq t.isLt (show cfg2.N = 64 from N_2)
  have h3 : ¬ t.val % 4 = 3 := by omega
  have hz : t.val ≠ 0 := fun h => h1 (by rw [h])
  rw [Dat.leavesExact_idle (dat2 V c) 3 t (idleAt2_3 t h3) (noFlush2_3 t h3)]
  rw [Dat.leavesExact_idle (dat2 V c) 4 t (idleAt2_4 t h1 h3) (noFlush2_4 t h3)]
  rw [Dat.leavesExact_idle (dat2 V c) 5 t (idleAt2_5 t h1 h3) (noFlush2_5 t h3)]
  rw [outsAt2_B V c t h1 h2]
  dsimp only
  iintro ⟨HΦ, Ho, ⟨%d0, H0⟩, ⟨%d1, H1⟩, ⟨%d2, H2⟩, ⟨%d3, H3⟩, ⟨%d4, H4⟩, ⟨%d5, H5⟩⟩
  ihave HΦ' := (PhiS_some V c _ _) $$ HΦ
  icases HΦ' with ⟨Hoth, HS, Hg⟩
  iapply ((RB c t h1 h2 (iblk2 V c 0 t) (iblk2 V c 1 t)).2 Set.univ _)
  isplitl [H0]; · iexact H0
  isplitl [H1]; · iexact H1
  isplitl [HS]; · iexact HS
  iintro ⟨H0, H1, ⟨%es, HS⟩⟩
  isplitl [Hoth HS Hg]
  · isplitl [Hoth]; · iexact Hoth
    isplitl [HS]
    · unfold owns; iexists _; isplitr
      swap; · iexact HS
      ipureintro; exact View.read_writes_eq_canon _ _ _ (coverB_S _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

end Region

end Cert.KernelIdeal.Hand

end
-- ==== Proof.KI.Reg2BodyC.lean ====
/-
  The matmul body where k = 1 or 2: one product added to the accumulator the point before left; the output windows are handed back as found.
-/
import proofs.«113576_j90099823935564_2_alg».proof.Proof.KI.Reg2BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 4000000 in
theorem body2_C (c : Dev nD) (t : Fin cfg2.N) (h2 : ¬ t.val % 4 = 0) (h3 : ¬ t.val % 4 = 3) :
    pre2N V c t ⊢ wp frame (wpE (defs₀ (F := F)) Variants.none c none) Set.univ (bodyAt2 t) (fun _ => post2N V c t) := by
  unfold pre2N post2N bodyAt2
  have hN : t.val < 64 := lt_of_lt_of_eq t.isLt (show cfg2.N = 64 from N_2)
  have h1 : ¬ t.val % 32 = 0 := fun h => h2 (by omega)
  have hz : t.val ≠ 0 := fun h => h1 (by rw [h])
  rw [Dat.leavesExact_idle (dat2 V c) 3 t (idleAt2_3 t h3) (noFlush2_3 t h3)]
  rw [Dat.leavesExact_idle (dat2 V c) 4 t (idleAt2_4 t h1 h3) (noFlush2_4 t h3)]
  rw [Dat.leavesExact_idle (dat2 V c) 5 t (idleAt2_5 t h1 h3) (noFlush2_5 t h3)]
  rw [outsAt2_C V c t h2 h3, PhiS_pos V c _ _ hz]
  dsimp only
  iintro ⟨⟨Hoth, HS, Hg⟩, Ho, ⟨%d0, H0⟩, ⟨%d1, H1⟩, ⟨%d2, H2⟩, ⟨%d3, H3⟩, ⟨%d4, H4⟩, ⟨%d5, H5⟩⟩
  iapply ((RC c t h2 h3 (iblk2 V c 0 t) (iblk2 V c 1 t) (prev2 V c t).2.2.2).2 Set.univ _)
  isplitl [H0]; · iexact H0
  isplitl [H1]; · iexact H1
  isplitl [HS]; · iexact HS
  iintro ⟨H0, H1, ⟨%es, HS⟩⟩
  isplitl [Hoth HS Hg]
  · isplitl [Hoth]; · iexact Hoth
    isplitl [HS]
    · unfold owns; iexists _; isplitr
      swap; · iexact HS
      ipureintro; exact View.read_writes_eq_canon _ _ _ (coverC_S _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

end Region

end Cert.KernelIdeal.Hand

end
-- ==== Proof.KI.Reg2BodyD.lean ====
/-
  The matmul body where k = 3: the last product added; the output block, the column sums and the column sums of squares written over what the look-back finds.
-/
import proofs.«113576_j90099823935564_2_alg».proof.Proof.KI.Reg2BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 4000000 in
theorem body2_D (c : Dev nD) (t : Fin cfg2.N) (h3 : t.val % 4 = 3) :
    pre2N V c t ⊢ wp frame (wpE (defs₀ (F := F)) Variants.none c none) Set.univ (bodyAt2 t) (fun _ => post2N V c t) := by
  unfold pre2N post2N bodyAt2
  have hN : t.val < 64 := lt_of_lt_of_eq t.isLt (show cfg2.N = 64 from N_2)
  have h1 : ¬ t.val % 32 = 0 := fun h => by omega
  have hz : t.val ≠ 0 := fun h => h1 (by rw [h])
  have h2 : ¬ t.val % 4 = 0 := by omega
  rw [show (dat2 V c).leavesExact 3 t = owns (c : Thread nD τ) (ms2_3 t) fullShare ((dat2 V c).after 3 t) from by
    unfold Dat.leavesExact; rw [liveAt2_3 t h3], after2_3]
  rw [show (dat2 V c).leavesExact 4 t = owns (c : Thread nD τ) (ms2_4 t) fullShare ((dat2 V c).after 4 t) from by
    unfold Dat.leavesExact; rw [liveAt2_4_last t h3], after2_4]
  rw [show (dat2 V c).leavesExact 5 t = owns (c : Thread nD τ) (ms2_5 t) fullShare ((dat2 V c).after 5 t) from by
    unfold Dat.leavesExact; rw [liveAt2_5_last t h3], after2_5]
  simp only [before2_4 V c t h1, before2_5 V c t h1]
  rw [outsAt2_D V c t h3, PhiS_pos V c _ _ hz]
  dsimp only
  iintro ⟨⟨Hoth, HS, Hg⟩, Ho, ⟨%d0, H0⟩, ⟨%d1, H1⟩, ⟨%d2, H2⟩, ⟨%d3, H3⟩, ⟨%d4, H4⟩, ⟨%d5, H5⟩⟩
  iapply ((RD c t h3 (iblk2 V c 0 t) (iblk2 V c 1 t) (iblk2 V c 2 t) (prev2 V c t).2.1 (prev2 V c t).2.2.1 (prev2 V c t).2.2.2).2.2.2.2 Set.univ _)
  isplitl [H0]; · iexact H0
  isplitl [H1]; · iexact H1
  isplitl [H2]; · iexact H2
  isplitl [H3]; · iexists _; iexact H3
  isplitl [H4]; · iexact H4
  isplitl [H5]; · iexact H5
  isplitl [HS]; · iexact HS
  iintro ⟨H0, H1, H2, ⟨%e3, H3⟩, ⟨%e4, H4⟩, ⟨%e5, H5⟩, ⟨%es, HS⟩⟩
  isplitl [Hoth HS Hg]
  · isplitl [Hoth]; · iexact Hoth
    isplitl [HS]
    · unfold owns; iexists _; isplitr
      swap; · iexact HS
      ipureintro; exact View.read_writes_eq_canon _ _ _ (coverD_S _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_eq_canon _ _ _ (coverD_3 _ _ _ _ _ _ _ _ _ _ _ _ _ _ _ _ _ _ _ _ _ _ _ _ _)
  isplitl [H4]
  · unfold owns; iexists _; isplitr
    swap; · iexact H4
    ipureintro; exact View.read_writes_eq_canon _ _ _ (coverD_4 _ _ _ _ _ _ _ _ _ _ _ _ _ _ _ _ _ _ _ _ _ _ _ _ _)
  unfold owns; iexists _; isplitr
  swap; · iexact H5
  ipureintro; exact View.read_writes_eq_canon _ _ _ (coverD_5 _ _ _ _ _ _ _ _ _ _ _ _ _ _ _ _ _ _ _ _ _ _ _ _ _)

end Region

end Cert.KernelIdeal.Hand

end
-- ==== Proof.KI.Reg2Body.lean ====
/-
  The matmul region's body obligation at every grid point, by the point's position; and the invariant at the
  region's two ends.
-/
import proofs.«113576_j90099823935564_2_alg».proof.Proof.KI.Reg2BodyA
import proofs.«113576_j90099823935564_2_alg».proof.Proof.KI.Reg2BodyB
import proofs.«113576_j90099823935564_2_alg».proof.Proof.KI.Reg2BodyC
import proofs.«113576_j90099823935564_2_alg».proof.Proof.KI.Reg2BodyD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

theorem sound_body2 (c : Dev nD) (t : Fin cfg2.N) :
    bodyPre2 V c t ⊢ wp frame (wpE (defs₀ (F := F)) Variants.none c none) Set.univ (bodyAt2 t) (fun _ => bodyPost2 V c t) := by
  refine norm2 V c t ?_
  by_cases h1 : t.val % 32 = 0
  · exact body2_A V c t h1
  · by_cases h3 : t.val % 4 = 3
    · exact body2_D V c t h3
    · by_cases h2 : t.val % 4 = 0
      · exact body2_B V c t h1 h2
      · exact body2_C V c t h2 h3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl]
  exact Idealize.SL.BI.Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl]
  exact (PhiS_some V c _ _).trans (PhiA2_join c)

end Region

end Cert.KernelIdeal.Hand

end
-- ==== Proof.KI.Reg3.lean ====
import proofs.«113576_j90099823935564_2_alg».proof.Proof.Gen.KernelIdeal.Launch
import proofs.«113576_j90099823935564_2_alg».proof.Proof.Gen.KernelIdeal.Skeleton
import proofs.«113576_j90099823935564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3 of @main: the normalize kernel of pipeline 3, at the entry contents `V`

The body reads a 512×4096 block of window 0 and the two 1×4096 rows of windows 1 and 2 (fetched at the grid's first
point only, read at every point), and stores `(x - a) * rsqrt (b + ε)` — `x` the block, `a` window 1's row and `b`
window 2's, both broadcast down the block, `ε` a literal — over the whole output block. The output buffer is also read once before the store; the value read is unused. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): the window is uncut and
    never idle, and an unfetched point has the block index of the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 likewise: its index map is constant, so it is fetched at the first point only, and at every later
    point the buffer still holds the one block, which is that point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The two rectangles the body touches: a whole 1×4096 row and the whole 512×4096 block. -/
abbrev r3_0 : Rect S1x4096 := Rect.unit (s := S1x4096) ![0, 0] S1x4096.size inb_S1x4096_S1x4096_0_0
abbrev r3_1 : Rect S512x4096 := Rect.unit (s := S512x4096) ![0, 0] S512x4096.size inb_S512x4096_S512x4096_0_0

/-! ## What the body leaves in the output window's buffer -/

/-- Window 3's staging buffer after the body, from the input windows' blocks: its one store as a piece, the payload
    the skeleton's (its arguments in the order the body loads them: window 2's row, window 0's block, window 1's row). -/
def out3_3 (x0 : Vec F S512x4096 .f32) (x1 : Vec F S1x4096 .f32) (x2 : Vec F S1x4096 .f32) : Vec F S512x4096 .f32 :=
  View.canon [⟨r3_1, k3_pay1 (View.ld x2 r3_0) (View.ld x0 r3_1) (View.ld x1 r3_0)⟩]

/-- The one store is the whole block, so it covers the buffer. -/
theorem cover3_3 (p0 : Vec F S512x4096 .f32) (y : S512x4096.Idx) :
    ∃ pc ∈ ([⟨r3_1, p0⟩] : List (View.Piece (Elt F) S512x4096 .f32)), y ∈ pc.1.set :=
  View.cover_of_tiled [⟨r3_1, p0⟩] S512x4096.size (by rfl) y

/-! ## The body's triple -/

set_option maxHeartbeats 1000000 in
/-- The kernel body on whole staging memrefs, the inputs' at read contents `x0`, `x1`, `x2` and the output's at
    anything, runs to the continuation holding the inputs' as they were and the output's at `out3_3 x0 x1 x2`. -/
theorem sound_kernel3 (c : Dev nD) (E : Set ℕ) (i : grid3.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .f32) (harg4 : arg4.IsWhole)
    (x0 : Vec F S512x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__normalize_kernel i arg1 harg1 arg2 harg2 arg3 harg3 arg4 harg4) K := by
  simp only [cc3__normalize_kernel_eq_skeleton]; unfold cc3__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  @main's run, boundary by boundary: the TensorCore's buffers between two items of @main as a fold from the launch
  memory (a host stretch applies its operations; a region leaves its windows' arrays at what its write-backs make
  them and every other buffer as it found it), each pallas_call's proof data at its region's entry contents, and the
  run of the six items to a final memory holding every unscoped buffer at the last boundary's contents.
-/
import proofs.«113576_j90099823935564_2_alg».proof.Proof.KI.Reg0
import proofs.«113576_j90099823935564_2_alg».proof.Proof.KI.Reg1
import proofs.«113576_j90099823935564_2_alg».proof.Proof.KI.Reg2Body
import proofs.«113576_j90099823935564_2_alg».proof.Proof.KI.Reg3
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (an input as entered, an output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (an input as entered, an output's write-backs
    folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the reshape of the bias (region 2's entry). -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b

/-- At region 2's exit: its arrays at what the pipeline leaves (an input as entered, an output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the eight host operations that make the mean and the variance rows (region 3's entry). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b

/-- At region 3's exit: its arrays at what the pipeline leaves (an input as entered, an output's write-backs
    folded), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state "every unscoped buffer at the boundary's contents, the generator register at some
    state, nothing owed": entered at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": entered at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": entered at `W3`, left at `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 : (Pipeline.ΦA spec2 c : sProp 𝕄)
        ⊢ iprop((∃ r, prngReg c r) ∗ emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (V3 m ρ) c).trans h2
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state "every unscoped buffer at the boundary's contents, the generator register at some
    state, nothing owed": entered at `W5`, left at `W6`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ) ]
theorem main_run (c : Dev nD) : main (F := F) c = Pipeline.Seg.run (segs m ρ) := (main_chain c).trans (by chain_rfl)

set_option backward.isDefEq.respectTransparency.types false in
/-- Every weakly fair execution of @main terminates, nothing faulting, in a memory that holds every unscoped buffer of
    every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KI.Chain.lean ====
/-
  The arguments at the end of @main: no host operation writes an argument and no region changes one (a region reads
  it through an input window, or never touches it), so the last boundary's contents at an argument walk back to the
  launch memory.
-/
import proofs.«113576_j90099823935564_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## What the two host stretches leave alone -/

theorem hostOps2_keeps_main_arg0 (W : Valuation τ sig (Elt F)) :
    StableHlo.after hostOps2 W (Proc.devRef .tc main_arg0) = W (Proc.devRef .tc main_arg0) :=
  StableHlo.after_of_forall_not_mem (b := Proc.devRef .tc main_arg0) _ _ (List.forall_iff_forall_mem.mp (by
    simp only [hostOps2, List.Forall, StableHlo.reshape_writes, Finset.mem_singleton]
    exact StableHlo.devRef_ne_of_ne (by decide)))
theorem hostOps2_keeps_main_arg1 (W : Valuation τ sig (Elt F)) :
    StableHlo.after hostOps2 W (Proc.devRef .tc main_arg1) = W (Proc.devRef .tc main_arg1) :=
  StableHlo.after_of_forall_not_mem (b := Proc.devRef .tc main_arg1) _ _ (List.forall_iff_forall_mem.mp (by
    simp only [hostOps2, List.Forall, StableHlo.reshape_writes, Finset.mem_singleton]
    exact StableHlo.devRef_ne_of_ne (by decide)))
theorem hostOps2_keeps_main_arg2 (W : Valuation τ sig (Elt F)) :
    StableHlo.after hostOps2 W (Proc.devRef .tc main_arg2) = W (Proc.devRef .tc main_arg2) :=
  StableHlo.after_of_forall_not_mem (b := Proc.devRef .tc main_arg2) _ _ (List.forall_iff_forall_mem.mp (by
    simp only [hostOps2, List.Forall, StableHlo.reshape_writes, Finset.mem_singleton]
    exact StableHlo.devRef_ne_of_ne (by decide)))
theorem hostOps2_keeps_main_v0 (W : Valuation τ sig (Elt F)) :
    StableHlo.after hostOps2 W (Proc.devRef .tc main_v0) = W (Proc.devRef .tc main_v0) :=
  StableHlo.after_of_forall_not_mem (b := Proc.devRef .tc main_v0) _ _ (List.forall_iff_forall_mem.mp (by
    simp only [hostOps2, List.Forall, StableHlo.reshape_writes, Finset.mem_singleton]
    exact StableHlo.devRef_ne_of_ne (by decide)))
theorem hostOps2_keeps_main_v1 (W : Valuation τ sig (Elt F)) :
    StableHlo.after hostOps2 W (Proc.devRef .tc main_v1) = W (Proc.devRef .tc main_v1) :=
  StableHlo.after_of_forall_not_mem (b := Proc.devRef .tc main_v1) _ _ (List.forall_iff_forall_mem.mp (by
    simp only [hostOps2, List.Forall, StableHlo.reshape_writes, Finset.mem_singleton]
    exact StableHlo.devRef_ne_of_ne (by decide)))
theorem hostOps3_keeps_main_arg0 (W : Valuation τ sig (Elt F)) :
    StableHlo.after hostOps3 W (Proc.devRef .tc main_arg0) = W (Proc.devRef .tc main_arg0) :=
  StableHlo.after_of_forall_not_mem (b := Proc.devRef .tc main_arg0) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))
theorem hostOps3_keeps_main_arg1 (W : Valuation τ sig (Elt F)) :
    StableHlo.after hostOps3 W (Proc.devRef .tc main_arg1) = W (Proc.devRef .tc main_arg1) :=
  StableHlo.after_of_forall_not_mem (b := Proc.devRef .tc main_arg1) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))
theorem hostOps3_keeps_main_arg2 (W : Valuation τ sig (Elt F)) :
    StableHlo.after hostOps3 W (Proc.devRef .tc main_arg2) = W (Proc.devRef .tc main_arg2) :=
  StableHlo.after_of_forall_not_mem (b := Proc.devRef .tc main_arg2) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))
theorem hostOps3_keeps_main_v3_0 (W : Valuation τ sig (Elt F)) :
    StableHlo.after hostOps3 W (Proc.devRef .tc main_v3_0) = W (Proc.devRef .tc main_v3_0) :=
  StableHlo.after_of_forall_not_mem (b := Proc.devRef .tc main_v3_0) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))
theorem hostOps3_keeps_main_v3_1 (W : Valuation τ sig (Elt F)) :
    StableHlo.after hostOps3 W (Proc.devRef .tc main_v3_1) = W (Proc.devRef .tc main_v3_1) :=
  StableHlo.after_of_forall_not_mem (b := Proc.devRef .tc main_v3_1) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))
theorem hostOps3_keeps_main_v3_2 (W : Valuation τ sig (Elt F)) :
    StableHlo.after hostOps3 W (Proc.devRef .tc main_v3_2) = W (Proc.devRef .tc main_v3_2) :=
  StableHlo.after_of_forall_not_mem (b := Proc.devRef .tc main_v3_2) _ _ (List.forall_iff_forall_mem.mp (by
    simp only [hostOps3, List.Forall, StableHlo.nullary_writes, StableHlo.unary_writes, StableHlo.binary_writes, Finset.mem_singleton]
    repeat' apply And.intro
    all_goals exact StableHlo.devRef_ne_of_ne (by decide)))

/-! ## The three arguments -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := hostOps3_keeps_main_arg0 _
    _ = W3 m ρ c (Proc.devRef .tc main_arg0) := W4_of_ne m ρ c main_arg0 (by decide)
    _ = W2 m ρ c (Proc.devRef .tc main_arg0) := hostOps2_keeps_main_arg0 _
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := hostOps3_keeps_main_arg1 _
    _ = W3 m ρ c (Proc.devRef .tc main_arg1) := W4_of_ne m ρ c main_arg1 (by decide)
    _ = W2 m ρ c (Proc.devRef .tc main_arg1) := hostOps2_keeps_main_arg1 _
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := hostOps3_keeps_main_arg2 _
    _ = W3 m ρ c (Proc.devRef .tc main_arg2) := W4_of_ne m ρ c main_arg2 (by decide)
    _ = W2 m ρ c (Proc.devRef .tc main_arg2) := hostOps2_keeps_main_arg2 _
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The frame: every weakly fair execution terminates, nothing faulting, with the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.KernelIdeal.Hand

end
-- ==== Proof.KI.Val0.lean ====
import proofs.«113576_j90099823935564_2_alg».proof.Proof.KI.Reg0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

/-! # Region 0 at the extended reals: the output array is the sign of the input array, entry by entry

The body's stored value is `1` carrying the input's sign where the input is not zero, the input itself (a zero)
elsewhere, and the narrowing to bf16 is the identity on extended reals: at one entry this is `Ideal.sign`. Point `t`
writes rows `512 t … 512 t + 511`, and the 16 points cover the 8192 rows. -/

/-- The body's payload at an entry: the sign of the loaded entry. -/
theorem pay0_apply (v0 : Vec Ideal S512x4096 .f32) (j : S512x4096.Idx) : k0_pay1 (F := Ideal) v0 j = Ideal.sign (v0 j) :=
  Ideal.jnp_sign_eq_sign_f32 (v0 j)

/-- The payload as one function of the loaded block. -/
theorem pay0_eq (v0 : Vec Ideal S512x4096 .f32) : k0_pay1 (F := Ideal) v0 = fun j => Ideal.sign (v0 j) :=
  funext (pay0_apply v0)

/-- What the output array ends holding: the sign of the input array, entry by entry. -/
abbrev sgn0 (a : S8192x4096.Idx → EReal) : S8192x4096.Idx → EReal := fun i => Ideal.sign (a i)

theorem hz0 : (![0, 0] : Fin 2 → Nat) = fun _ => 0 := funext fun a => by fin_cases a <;> rfl

/-- The printed index maps over the grid: the input block moves with the output block, which is block `t` of the
    rows and the one block of the columns. -/
theorem idx_facts0 : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- What point `t` writes back is block `t` of the sign of the input array as the region finds it. -/
theorem flushed0_eq (c : Dev nD) (t : Fin cfg0.N) :
    (dat0 V c).flushed 1 t = ((cfg0.win 1).blk t).view.read (Elt Ideal) (sgn0 (V c main_arg0)) := by
  show (cfg0.win 1).cut (grid0.coords t) ((dat0 V c).after 1 t) = _
  rw [after0_1]
  unfold out0_1
  rw [View.canon_unit_zero hz0]
  simp only [View.ld_unit_zero (S := S512x4096) hz0]
  rw [pay0_eq]
  obtain ⟨e0, e1, e2, e3⟩ := idx_facts0 t
  funext j
  show Ideal.sign (V c main_arg0 (((cfg0.win 0).blk t).view.emb j)) = Ideal.sign (V c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the array is in point `t`'s block iff each coordinate is in the block's range on its axis. -/
theorem mem_blk0 (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Every entry of the output array lies in the block of the point its row falls in. -/
theorem cover0 (i : S8192x4096.Idx) : ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 16 := N_0
  let t : Fin cfg0.N := ⟨(i 0).val / 512, by rw [hN]; omega⟩
  obtain ⟨-, -, e2, e3⟩ := idx_facts0 t
  have e2' : win0_1.index t (0 : Fin 2) = (i 0).val / 512 := e2
  refine ⟨t, flush0_1 t, ?_⟩
  rw [mem_blk0]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- The output array after the region: the sign of the input array as the region finds it, entry by entry. -/
theorem final0 (c : Dev nD) : (dat0 V c).arrAt 1 cfg0.N = sgn0 (V c main_arg0) :=
  (dat0 V c).arrAt_eq_of_cover 1 (sgn0 (V c main_arg0)) (fun t _ => flushed0_eq V c t) cover0

end Cert.KernelIdeal.Hand

end
-- ==== Proof.KI.Val1.lean ====
import proofs.«113576_j90099823935564_2_alg».proof.Proof.KI.Reg1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

/-! # Region 1 at the extended reals: the output array is the sign of the input array, entry by entry

The body's stored value is `1` carrying the input's sign where the input is not zero, the input itself (a zero)
elsewhere, and the narrowing to bf16 is the identity on extended reals: at one entry this is `Ideal.sign`. Point `t`
writes rows `512 t … 512 t + 511`, and the 8 points cover the 4096 rows. -/

/-- The body's payload at an entry: the sign of the loaded entry. -/
theorem pay1_apply (v0 : Vec Ideal S512x4096 .f32) (j : S512x4096.Idx) : k1_pay1 (F := Ideal) v0 j = Ideal.sign (v0 j) :=
  Ideal.jnp_sign_eq_sign_f32 (v0 j)

/-- The payload as one function of the loaded block. -/
theorem pay1_eq (v0 : Vec Ideal S512x4096 .f32) : k1_pay1 (F := Ideal) v0 = fun j => Ideal.sign (v0 j) :=
  funext (pay1_apply v0)

/-- What the output array ends holding: the sign of the input array, entry by entry. -/
abbrev sgn1 (a : S4096x4096.Idx → EReal) : S4096x4096.Idx → EReal := fun i => Ideal.sign (a i)

theorem hz1 : (![0, 0] : Fin 2 → Nat) = fun _ => 0 := funext fun a => by fin_cases a <;> rfl

/-- The printed index maps over the grid: the input block moves with the output block, which is block `t` of the
    rows and the one block of the columns. -/
theorem idx_facts1 : ∀ t : Fin cfg1.N, win1_0.index t (0 : Fin 2) = win1_1.index t (0 : Fin 2)
    ∧ win1_0.index t (1 : Fin 2) = win1_1.index t (1 : Fin 2)
    ∧ win1_1.index t (0 : Fin 2) = t.val ∧ win1_1.index t (1 : Fin 2) = 0 :=
  (by decide +kernel : ∀ t : Fin grid1.N, _)

/-- What point `t` writes back is block `t` of the sign of the input array as the region finds it. -/
theorem flushed1_eq (c : Dev nD) (t : Fin cfg1.N) :
    (dat1 V c).flushed 1 t = ((cfg1.win 1).blk t).view.read (Elt Ideal) (sgn1 (V c main_arg1)) := by
  show (cfg1.win 1).cut (grid1.coords t) ((dat1 V c).after 1 t) = _
  rw [after1_1]
  unfold out1_1
  rw [View.canon_unit_zero hz1]
  simp only [View.ld_unit_zero (S := S512x4096) hz1]
  rw [pay1_eq]
  obtain ⟨e0, e1, e2, e3⟩ := idx_facts1 t
  funext j
  show Ideal.sign (V c main_arg1 (((cfg1.win 0).blk t).view.emb j)) = Ideal.sign (V c main_arg1 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; omega
    | ⟨1, _⟩ => show win1_0.index t (1 : Fin 2) * 4096 + 1 * (j 1).val = win1_1.index t (1 : Fin 2) * 4096 + 1 * (j 1).val; omega
  rw [h0]

/-- An index of the array is in point `t`'s block iff each coordinate is in the block's range on its axis. -/
theorem mem_blk1 (t : Fin cfg1.N) (i : S4096x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v1).slice (win1_1.rect t)).set ↔ _
  rw [View.set_slice_whole, Rect.mem_set_unit]
  exact Iff.rfl

/-- Every entry of the output array lies in the block of the point its row falls in. -/
theorem cover1 (i : S4096x4096.Idx) : ∃ t : Fin cfg1.N, (cfg1.win 1).flush t = true ∧ i ∈ ((cfg1.win 1).blk t).view.set := by
  have hi0 : (i 0).val < 4096 := (i 0).isLt
  have hi1 : (i 1).val < 4096 := (i 1).isLt
  have hN : cfg1.N = 8 := N_1
  let t : Fin cfg1.N := ⟨(i 0).val / 512, by rw [hN]; omega⟩
  obtain ⟨-, -, e2, e3⟩ := idx_facts1 t
  have e2' : win1_1.index t (0 : Fin 2) = (i 0).val / 512 := e2
  refine ⟨t, flush1_1 t, ?_⟩
  rw [mem_blk1]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 4096 ≤ (i 1).val ∧ (i 1).val < win1_1.index t (1 : Fin 2) * 4096 + 4096; omega

/-- The output array after the region: the sign of the input array as the region finds it, entry by entry. -/
theorem final1 (c : Dev nD) : (dat1 V c).arrAt 1 cfg1.N = sgn1 (V c main_arg1) :=
  (dat1 V c).arrAt_eq_of_cover 1 (sgn1 (V c main_arg1)) (fun t _ => flushed1_eq V c t) cover1

end Cert.KernelIdeal.Hand

end
-- ==== Proof.KI.Blk2.lean ====
import proofs.«113576_j90099823935564_2_alg».proof.Proof.KI.Reg2Dat
import Idealize.ShloMosaic.Lib.Pipeline.Value
import Idealize.ShloMosaic.Lib.ValueIdx

set_option maxRecDepth 16384

/-!
  The matmul region's windows read by coordinates, at the extended reals.

  The grid is (j, i, k) with bounds (2, 8, 4) and the last coordinate fastest, so point t = 32 j + 4 i + k has
  j = t / 32, i = (t / 4) % 8, k = t % 4. Window 0 is block (i, k) of the [8192,4096] left operand in 1024×1024
  blocks, window 1 block (j, k) of the [4096,4096] right operand in 2048×1024 blocks, window 2 block (0, j) of the
  [1,4096] row in 1×2048 blocks; the output windows are block (i, j) of the [8192,4096] result in 1024×2048 blocks,
  written back at k = 3, and block (0, j) of the two [1,4096] rows, written back at the last point of j. Each
  entry of an input block is the array's entry at block index × block size + the coordinate inside the block, and
  the write-backs' blocks tile their arrays: whatever whole-array function agrees with what each write-back point
  leaves is the array after the region.
-/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

/-! ## The printed index maps over the grid -/

theorem idx2_0 : ∀ t : Fin cfg2.N, win2_0.index t (0 : Fin 2) = (t.val / 4) % 8 ∧ win2_0.index t (1 : Fin 2) = t.val % 4 :=
  (by decide +kernel : ∀ t : Fin grid2.N, _)
theorem idx2_1 : ∀ t : Fin cfg2.N, win2_1.index t (0 : Fin 2) = t.val / 32 ∧ win2_1.index t (1 : Fin 2) = t.val % 4 :=
  (by decide +kernel : ∀ t : Fin grid2.N, _)
theorem idx2_2 : ∀ t : Fin cfg2.N, win2_2.index t (0 : Fin 2) = 0 ∧ win2_2.index t (1 : Fin 2) = t.val / 32 :=
  (by decide +kernel : ∀ t : Fin grid2.N, _)
theorem idx2_3 : ∀ t : Fin cfg2.N, win2_3.index t (0 : Fin 2) = (t.val / 4) % 8 ∧ win2_3.index t (1 : Fin 2) = t.val / 32 :=
  (by decide +kernel : ∀ t : Fin grid2.N, _)
theorem idx2_4 : ∀ t : Fin cfg2.N, win2_4.index t (0 : Fin 2) = 0 ∧ win2_4.index t (1 : Fin 2) = t.val / 32 :=
  (by decide +kernel : ∀ t : Fin grid2.N, _)
theorem idx2_5 : ∀ t : Fin cfg2.N, win2_5.index t (0 : Fin 2) = 0 ∧ win2_5.index t (1 : Fin 2) = t.val / 32 :=
  (by decide +kernel : ∀ t : Fin grid2.N, _)

/-! ## The input windows' blocks, entry by entry -/

/-- Entry (p, i') of window 0's block at point t is the left operand at row 1024 i + p, column 1024 k + i'. -/
theorem blk2_0 (c : Dev nD) (t : Fin cfg2.N) (p : Fin 1024) (i' : Fin 1024) (r : Fin 8192) (s : Fin 4096)
    (hr : r.val = 1024 * ((t.val / 4) % 8) + p.val) (hs : s.val = 1024 * (t.val % 4) + i'.val) :
    (iblk2 V c 0 t : S1024x1024.Idx → EReal) (ix2 p i') = (V c main_v0 : S8192x4096.Idx → EReal) (ix2 r s) := by
  obtain ⟨e0, e1⟩ := idx2_0 t
  unfold iblk2
  rw [View.read_apply]
  show V c main_v0 _ = V c main_v0 _
  refine congrArg (V c main_v0) ?_
  funext a; apply Fin.ext
  match a with
  | ⟨0, _⟩ => show win2_0.index t (0 : Fin 2) * 1024 + 1 * p.val = r.val; omega
  | ⟨1, _⟩ => show win2_0.index t (1 : Fin 2) * 1024 + 1 * i'.val = s.val; omega

/-- Entry (q, i') of window 1's block at point t is the right operand at row 2048 j + q, column 1024 k + i'. -/
theorem blk2_1 (c : Dev nD) (t : Fin cfg2.N) (q : Fin 2048) (i' : Fin 1024) (r : Fin 4096) (s : Fin 4096)
    (hr : r.val = 2048 * (t.val / 32) + q.val) (hs : s.val = 1024 * (t.val % 4) + i'.val) :
    (iblk2 V c 1 t : S2048x1024.Idx → EReal) (ix2 q i') = (V c main_v1 : S4096x4096.Idx → EReal) (ix2 r s) := by
  obtain ⟨e0, e1⟩ := idx2_1 t
  unfold iblk2
  rw [View.read_apply]
  show V c main_v1 _ = V c main_v1 _
  refine congrArg (V c main_v1) ?_
  funext a; apply Fin.ext
  match a with
  | ⟨0, _⟩ => show win2_1.index t (0 : Fin 2) * 2048 + 1 * q.val = r.val; omega
  | ⟨1, _⟩ => show win2_1.index t (1 : Fin 2) * 1024 + 1 * i'.val = s.val; omega

/-- Entry (0, q) of window 2's block at point t is the row at column 2048 j + q. -/
theorem blk2_2 (c : Dev nD) (t : Fin cfg2.N) (q : Fin 2048) (s : Fin 4096) (hs : s.val = 2048 * (t.val / 32) + q.val) :
    (iblk2 V c 2 t : S1x2048.Idx → EReal) (ix2 (0 : Fin 1) q) = (V c main_v2 : S1x4096.Idx → EReal) (ix2 (0 : Fin 1) s) := by
  obtain ⟨e0, e1⟩ := idx2_2 t
  unfold iblk2
  rw [View.read_apply]
  show V c main_v2 _ = V c main_v2 _
  refine congrArg (V c main_v2) ?_
  funext a; apply Fin.ext
  match a with
  | ⟨0, _⟩ => show win2_2.index t (0 : Fin 2) * 1 + 1 * 0 = 0; omega
  | ⟨1, _⟩ => show win2_2.index t (1 : Fin 2) * 2048 + 1 * q.val = s.val; omega

/-! ## The output windows: from what each write-back point leaves to the array -/

/-- An index of the result array is in point t's block of window 3 iff each coordinate is in the block's range. -/
theorem mem_blk2_3 (t : Fin cfg2.N) (i : S8192x4096.Idx) :
    i ∈ ((cfg2.win 3).blk t).view.set ↔ ∀ a : Fin 2, win2_3.index t a * S1024x2048.size a ≤ (i a).val ∧ (i a).val < win2_3.index t a * S1024x2048.size a + S1024x2048.size a := by
  show i ∈ ((View.whole main_v3_0).slice (win2_3.rect t)).set ↔ _
  rw [View.set_slice_whole, Rect.mem_set_unit]
  exact Iff.rfl
theorem mem_blk2_4 (t : Fin cfg2.N) (i : S1x4096.Idx) :
    i ∈ ((cfg2.win 4).blk t).view.set ↔ ∀ a : Fin 2, win2_4.index t a * S1x2048.size a ≤ (i a).val ∧ (i a).val < win2_4.index t a * S1x2048.size a + S1x2048.size a := by
  show i ∈ ((View.whole main_v3_1).slice (win2_4.rect t)).set ↔ _
  rw [View.set_slice_whole, Rect.mem_set_unit]
  exact Iff.rfl
theorem mem_blk2_5 (t : Fin cfg2.N) (i : S1x4096.Idx) :
    i ∈ ((cfg2.win 5).blk t).view.set ↔ ∀ a : Fin 2, win2_5.index t a * S1x2048.size a ≤ (i a).val ∧ (i a).val < win2_5.index t a * S1x2048.size a + S1x2048.size a := by
  show i ∈ ((View.whole main_v3_2).slice (win2_5.rect t)).set ↔ _
  rw [View.set_slice_whole, Rect.mem_set_unit]
  exact Iff.rfl

/-- Every entry of the result array lies in the block written back at k = 3 of its row block i and column block j. -/
theorem cover2_3 (i : S8192x4096.Idx) : ∃ t : Fin cfg2.N, (cfg2.win 3).flush t = true ∧ i ∈ ((cfg2.win 3).blk t).view.set := by
  have hi0 : (i 0).val < 8192 := (i 0).isLt
  have hi1 : (i 1).val < 4096 := (i 1).isLt
  have hN : cfg2.N = 64 := N_2
  let t : Fin cfg2.N := ⟨32 * ((i 1).val / 2048) + 4 * ((i 0).val / 1024) + 3, by rw [hN]; omega⟩
  have ht : t.val = 32 * ((i 1).val / 2048) + 4 * ((i 0).val / 1024) + 3 := rfl
  obtain ⟨e0, e1⟩ := idx2_3 t
  refine ⟨t, (flush2_3 t).mpr (by rw [ht]; omega), ?_⟩
  rw [mem_blk2_3]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 2048 ≤ (i 1).val ∧ (i 1).val < win2_3.index t (1 : Fin 2) * 2048 + 2048; omega

/-- Every entry of a sum row lies in the block written back at the last point of its column block j. -/
theorem cover2_4 (i : S1x4096.Idx) : ∃ t : Fin cfg2.N, (cfg2.win 4).flush t = true ∧ i ∈ ((cfg2.win 4).blk t).view.set := by
  have hi0 : (i 0).val < 1 := (i 0).isLt
  have hi1 : (i 1).val < 4096 := (i 1).isLt
  have hN : cfg2.N = 64 := N_2
  let t : Fin cfg2.N := ⟨32 * ((i 1).val / 2048) + 31, by rw [hN]; omega⟩
  have ht : t.val = 32 * ((i 1).val / 2048) + 31 := rfl
  obtain ⟨e0, e1⟩ := idx2_4 t
  refine ⟨t, (flush2_4 t).mpr (by rw [ht]; omega), ?_⟩
  rw [mem_blk2_4]
  intro a
  match a with
  | ⟨0, _⟩ => show win2_4.index t (0 : Fin 2) * 1 ≤ (i 0).val ∧ (i 0).val < win2_4.index t (0 : Fin 2) * 1 + 1; omega
  | ⟨1, _⟩ => show win2_4.index t (1 : Fin 2) * 2048 ≤ (i 1).val ∧ (i 1).val < win2_4.index t (1 : Fin 2) * 2048 + 2048; omega
theorem cover2_5 (i : S1x4096.Idx) : ∃ t : Fin cfg2.N, (cfg2.win 5).flush t = true ∧ i ∈ ((cfg2.win 5).blk t).view.set := by
  have hi0 : (i 0).val < 1 := (i 0).isLt
  have hi1 : (i 1).val < 4096 := (i 1).isLt
  have hN : cfg2.N = 64 := N_2
  let t : Fin cfg2.N := ⟨32 * ((i 1).val / 2048) + 31, by rw [hN]; omega⟩
  have ht : t.val = 32 * ((i 1).val / 2048) + 31 := rfl
  obtain ⟨e0, e1⟩ := idx2_5 t
  refine ⟨t, (flush2_5 t).mpr (by rw [ht]; omega), ?_⟩
  rw [mem_blk2_5]
  intro a
  match a with
  | ⟨0, _⟩ => show win2_5.index t (0 : Fin 2) * 1 ≤ (i 0).val ∧ (i 0).val < win2_5.index t (0 : Fin 2) * 1 + 1; omega
  | ⟨1, _⟩ => show win2_5.index t (1 : Fin 2) * 2048 ≤ (i 1).val ∧ (i 1).val < win2_5.index t (1 : Fin 2) * 2048 + 2048; omega

/-- What a k = 3 point writes back to the result array is its block of any whole-array function that agrees, entry
    by entry, with what the point leaves in the output block. -/
theorem flushed2_3_eq (c : Dev nD) (G3 : S8192x4096.Idx → EReal)
    (h : ∀ t : Fin cfg2.N, t.val % 4 = 3 → ∀ (p : Fin 1024) (q : Fin 2048) (r : Fin 8192) (s : Fin 4096),
      r.val = 1024 * ((t.val / 4) % 8) + p.val → s.val = 2048 * (t.val / 32) + q.val →
      (outsAt2 V c t.val t.isLt).1 (ix2 p q) = G3 (ix2 r s))
    (t : Fin cfg2.N) (ht : t.val % 4 = 3) :
    (dat2 V c).flushed 3 t = ((cfg2.win 3).blk t).view.read (Elt Ideal) G3 := by
  show (cfg2.win 3).cut (grid2.coords t) ((dat2 V c).after 3 t) = _
  rw [after2_3]
  obtain ⟨e0, e1⟩ := idx2_3 t
  have hN : cfg2.N = 64 := N_2
  have htl : t.val < 64 := hN ▸ t.isLt
  have key : ∀ j : S1024x2048.Idx, (outsAt2 V c t.val t.isLt).1 j = G3 (((cfg2.win 3).blk t).view.emb j) := fun j => by
    have hj0 : (j 0).val < 1024 := (j 0).isLt
    have hj1 : (j 1).val < 2048 := (j 1).isLt
    refine (congrArg (outsAt2 V c t.val t.isLt).1 (eq_ix2 j)).trans ?_
    refine (h t ht (j 0) (j 1) ⟨1024 * ((t.val / 4) % 8) + (j 0).val, by omega⟩ ⟨2048 * (t.val / 32) + (j 1).val, by omega⟩ rfl rfl).trans
      (congrArg G3 ?_)
    funext a; apply Fin.ext
    match a with
    | ⟨0, _⟩ => show 1024 * ((t.val / 4) % 8) + (j 0).val = win2_3.index t (0 : Fin 2) * 1024 + 1 * (j 0).val; omega
    | ⟨1, _⟩ => show 2048 * (t.val / 32) + (j 1).val = win2_3.index t (1 : Fin 2) * 2048 + 1 * (j 1).val; omega
  funext j
  exact key j

/-- THE RESULT ARRAY after the region is any whole-array function that agrees with what each k = 3 point leaves in
    the output block. -/
theorem final2_3 (c : Dev nD) (G3 : S8192x4096.Idx → EReal)
    (h : ∀ t : Fin cfg2.N, t.val % 4 = 3 → ∀ (p : Fin 1024) (q : Fin 2048) (r : Fin 8192) (s : Fin 4096),
      r.val = 1024 * ((t.val / 4) % 8) + p.val → s.val = 2048 * (t.val / 32) + q.val →
      (outsAt2 V c t.val t.isLt).1 (ix2 p q) = G3 (ix2 r s)) :
    (dat2 V c).arrAt 3 cfg2.N = G3 :=
  (dat2 V c).arrAt_eq_of_cover 3 G3 (fun t hf => flushed2_3_eq V c G3 h t ((flush2_3 t).mp hf)) cover2_3

/-- A 1×2048 block's index is (0, its column). -/
theorem eq_ix2_row (j : S1x2048.Idx) : j = ix2 (0 : Fin 1) (j 1) := by
  funext a
  match a with
  | ⟨0, _⟩ =>
    have h0 : (j 0).val < 1 := (j 0).isLt
    apply Fin.ext
    show (j 0).val = 0
    omega
  | ⟨1, _⟩ => rfl

theorem flushed2_4_eq (c : Dev nD) (G4 : S1x4096.Idx → EReal)
    (h : ∀ t : Fin cfg2.N, t.val % 32 = 31 → ∀ (q : Fin 2048) (s : Fin 4096), s.val = 2048 * (t.val / 32) + q.val →
      (outsAt2 V c t.val t.isLt).2.1 (ix2 (0 : Fin 1) q) = G4 (ix2 (0 : Fin 1) s))
    (t : Fin cfg2.N) (ht : t.val % 32 = 31) :
    (dat2 V c).flushed 4 t = ((cfg2.win 4).blk t).view.read (Elt Ideal) G4 := by
  show (cfg2.win 4).cut (grid2.coords t) ((dat2 V c).after 4 t) = _
  rw [after2_4]
  obtain ⟨e0, e1⟩ := idx2_4 t
  have hN : cfg2.N = 64 := N_2
  have htl : t.val < 64 := hN ▸ t.isLt
  have key : ∀ j : S1x2048.Idx, (outsAt2 V c t.val t.isLt).2.1 j = G4 (((cfg2.win 4).blk t).view.emb j) := fun j => by
    have hj1 : (j 1).val < 2048 := (j 1).isLt
    refine (congrArg (outsAt2 V c t.val t.isLt).2.1 (eq_ix2_row j)).trans ?_
    refine (h t ht (j 1) ⟨2048 * (t.val / 32) + (j 1).val, by omega⟩ rfl).trans (congrArg G4 ?_)
    funext a; apply Fin.ext
    match a with
    | ⟨0, _⟩ => show 0 = win2_4.index t (0 : Fin 2) * 1 + 1 * (j 0).val; have h0 : (j 0).val < 1 := (j 0).isLt; omega
    | ⟨1, _⟩ => show 2048 * (t.val / 32) + (j 1).val = win2_4.index t (1 : Fin 2) * 2048 + 1 * (j 1).val; omega
  funext j
  exact key j

/-- THE COLUMN-SUM ROW after the region is any row that agrees with what the last point of each j leaves in its block. -/
theorem final2_4 (c : Dev nD) (G4 : S1x4096.Idx → EReal)
    (h : ∀ t : Fin cfg2.N, t.val % 32 = 31 → ∀ (q : Fin 2048) (s : Fin 4096), s.val = 2048 * (t.val / 32) + q.val →
      (outsAt2 V c t.val t.isLt).2.1 (ix2 (0 : Fin 1) q) = G4 (ix2 (0 : Fin 1) s)) :
    (dat2 V c).arrAt 4 cfg2.N = G4 :=
  (dat2 V c).arrAt_eq_of_cover 4 G4 (fun t hf => flushed2_4_eq V c G4 h t ((flush2_4 t).mp hf)) cover2_4

theorem flushed2_5_eq (c : Dev nD) (G5 : S1x4096.Idx → EReal)
    (h : ∀ t : Fin cfg2.N, t.val % 32 = 31 → ∀ (q : Fin 2048) (s : Fin 4096), s.val = 2048 * (t.val / 32) + q.val →
      (outsAt2 V c t.val t.isLt).2.2.1 (ix2 (0 : Fin 1) q) = G5 (ix2 (0 : Fin 1) s))
    (t : Fin cfg2.N) (ht : t.val % 32 = 31) :
    (dat2 V c).flushed 5 t = ((cfg2.win 5).blk t).view.read (Elt Ideal) G5 := by
  show (cfg2.win 5).cut (grid2.coords t) ((dat2 V c).after 5 t) = _
  rw [after2_5]
  obtain ⟨e0, e1⟩ := idx2_5 t
  have hN : cfg2.N = 64 := N_2
  have htl : t.val < 64 := hN ▸ t.isLt
  have key : ∀ j : S1x2048.Idx, (outsAt2 V c t.val t.isLt).2.2.1 j = G5 (((cfg2.win 5).blk t).view.emb j) := fun j => by
    have hj1 : (j 1).val < 2048 := (j 1).isLt
    refine (congrArg (outsAt2 V c t.val t.isLt).2.2.1 (eq_ix2_row j)).trans ?_
    refine (h t ht (j 1) ⟨2048 * (t.val / 32) + (j 1).val, by omega⟩ rfl).trans (congrArg G5 ?_)
    funext a; apply Fin.ext
    match a with
    | ⟨0, _⟩ => show 0 = win2_5.index t (0 : Fin 2) * 1 + 1 * (j 0).val; have h0 : (j 0).val < 1 := (j 0).isLt; omega
    | ⟨1, _⟩ => show 2048 * (t.val / 32) + (j 1).val = win2_5.index t (1 : Fin 2) * 2048 + 1 * (j 1).val; omega
  funext j
  exact key j

/-- THE ROW OF COLUMN SUMS OF SQUARES after the region, likewise. -/
theorem final2_5 (c : Dev nD) (G5 : S1x4096.Idx → EReal)
    (h : ∀ t : Fin cfg2.N, t.val % 32 = 31 → ∀ (q : Fin 2048) (s : Fin 4096), s.val = 2048 * (t.val / 32) + q.val →
      (outsAt2 V c t.val t.isLt).2.2.1 (ix2 (0 : Fin 1) q) = G5 (ix2 (0 : Fin 1) s)) :
    (dat2 V c).arrAt 5 cfg2.N = G5 :=
  (dat2 V c).arrAt_eq_of_cover 5 G5 (fun t hf => flushed2_5_eq V c G5 h t ((flush2_5 t).mp hf)) cover2_5

end Cert.KernelIdeal.Hand

end
-- ==== Proof.KI.Reg2Pieces.lean ====
/-
  What each case of the matmul body leaves in each buffer, as the body's named payloads of what it loaded: the
  pieces a case's run found are whole-buffer stores, so a buffer ends at the payload of its last store, and a load
  of the accumulator after it was zeroed reads the zero payload.
-/
import proofs.«113576_j90099823935564_2_alg».proof.Proof.KI.Reg2Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by
  funext a; fin_cases a <;> rfl

/-- i = 0, k = 0: the sum blocks end at the zero payloads, the accumulator at zero + the first product. -/
theorem pieceA_4 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : cond2_1 i) (hc2 : cond2_2 i) (hc3 : ¬cond2_3 i) (x0 : Vec F S1024x1024 .bf16) (x1 : Vec F S2048x1024 .bf16) :
    View.canon (kernelRun2_A (F := F) c i a3 h3 a4 h4 a5 h5 a6 h6 a7 h7 a8 h8 a9 h9 hc1 hc2 hc3 x0 x1).1 = k2_pay1 := by
  unfold kernelRun2_A; dsimp only; sl_unfold_words
  rw [View.canon_unit_zero hz2]
  try simp only [View.readAt_eq_ld]
  try simp only [h3.read_unread]
  try simp only [h4.read_unread]
  try simp only [h5.read_unread]
  try simp only [h7.read_unread]
  try simp only [h8.read_unread]
  try simp only [h9.read_unread]
  try simp only [View.ld_unit_zero (S := S1024x2048) hz2]
  try simp only [View.ld_unit_zero (S := S1024x1024) hz2]
  try simp only [View.ld_unit_zero (S := S2048x1024) hz2]
  try simp only [View.ld_unit_zero (S := S1x2048) hz2]
  try rw [View.readCov_unit_zero a9.view hz2]

theorem pieceA_5 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : cond2_1 i) (hc2 : cond2_2 i) (hc3 : ¬cond2_3 i) (x0 : Vec F S1024x1024 .bf16) (x1 : Vec F S2048x1024 .bf16) :
    View.canon (kernelRun2_A (F := F) c i a3 h3 a4 h4 a5 h5 a6 h6 a7 h7 a8 h8 a9 h9 hc1 hc2 hc3 x0 x1).2.1 = k2_pay2 := by
  unfold kernelRun2_A; dsimp only; sl_unfold_words
  rw [View.canon_unit_zero hz2]
  try simp only [View.readAt_eq_ld]
  try simp only [h3.read_unread]
  try simp only [h4.read_unread]
  try simp only [h5.read_unread]
  try simp only [h7.read_unread]
  try simp only [h8.read_unread]
  try simp only [h9.read_unread]
  try simp only [View.ld_unit_zero (S := S1024x2048) hz2]
  try simp only [View.ld_unit_zero (S := S1024x1024) hz2]
  try simp only [View.ld_unit_zero (S := S2048x1024) hz2]
  try simp only [View.ld_unit_zero (S := S1x2048) hz2]
  try rw [View.readCov_unit_zero a9.view hz2]

theorem pieceA_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : cond2_1 i) (hc2 : cond2_2 i) (hc3 : ¬cond2_3 i) (x0 : Vec F S1024x1024 .bf16) (x1 : Vec F S2048x1024 .bf16) :
    View.canon (kernelRun2_A (F := F) c i a3 h3 a4 h4 a5 h5 a6 h6 a7 h7 a8 h8 a9 h9 hc1 hc2 hc3 x0 x1).2.2.1 = k2_pay4 k2_pay3 x0 x1 := by
  unfold kernelRun2_A; dsimp only; sl_unfold_words
  rw [View.canon_cons_unit_zero hz2]
  try simp only [View.readAt_eq_ld]
  try simp only [h3.read_unread]
  try simp only [h4.read_unread]
  try simp only [h5.read_unread]
  try simp only [h7.read_unread]
  try simp only [h8.read_unread]
  try simp only [h9.read_unread]
  try simp only [View.ld_unit_zero (S := S1024x2048) hz2]
  try simp only [View.ld_unit_zero (S := S1024x1024) hz2]
  try simp only [View.ld_unit_zero (S := S2048x1024) hz2]
  try simp only [View.ld_unit_zero (S := S1x2048) hz2]
  try rw [View.readCov_unit_zero a9.view hz2]

/-- k = 0, i ≠ 0: the accumulator ends at zero + the first product. -/
theorem pieceB_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : cond2_2 i) (hc3 : ¬cond2_3 i) (x0 : Vec F S1024x1024 .bf16) (x1 : Vec F S2048x1024 .bf16) :
    View.canon (kernelRun2_B (F := F) c i a3 h3 a4 h4 a5 h5 a6 h6 a7 h7 a8 h8 a9 h9 hc1 hc2 hc3 x0 x1).1 = k2_pay4 k2_pay3 x0 x1 := by
  unfold kernelRun2_B; dsimp only; sl_unfold_words
  rw [View.canon_cons_unit_zero hz2]
  try simp only [View.readAt_eq_ld]
  try simp only [h3.read_unread]
  try simp only [h4.read_unread]
  try simp only [h5.read_unread]
  try simp only [h7.read_unread]
  try simp only [h8.read_unread]
  try simp only [h9.read_unread]
  try simp only [View.ld_unit_zero (S := S1024x2048) hz2]
  try simp only [View.ld_unit_zero (S := S1024x1024) hz2]
  try simp only [View.ld_unit_zero (S := S2048x1024) hz2]
  try simp only [View.ld_unit_zero (S := S1x2048) hz2]
  try rw [View.readCov_unit_zero a9.view hz2]

/-- k = 1, 2: the accumulator ends at what it held + this product. -/
theorem pieceC_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : ¬cond2_3 i) (x0 : Vec F S1024x1024 .bf16) (x1 : Vec F S2048x1024 .bf16) (xs : Vec F S1024x2048 .f32) :
    View.canon (kernelRun2_C (F := F) c i a3 h3 a4 h4 a5 h5 a6 h6 a7 h7 a8 h8 a9 h9 hc1 hc2 hc3 x0 x1 xs).1 = k2_pay4 xs x0 x1 := by
  unfold kernelRun2_C; dsimp only; sl_unfold_words
  rw [View.canon_unit_zero hz2]
  try simp only [View.readAt_eq_ld]
  try simp only [h3.read_unread]
  try simp only [h4.read_unread]
  try simp only [h5.read_unread]
  try simp only [h7.read_unread]
  try simp only [h8.read_unread]
  try simp only [h9.read_unread]
  try simp only [View.ld_unit_zero (S := S1024x2048) hz2]
  try simp only [View.ld_unit_zero (S := S1024x1024) hz2]
  try simp only [View.ld_unit_zero (S := S2048x1024) hz2]
  try simp only [View.ld_unit_zero (S := S1x2048) hz2]
  try rw [View.readCov_unit_zero a9.view hz2]

/-- k = 3: with a := what the accumulator held + the last product, the output block ends at a + bias row, the sum blocks at what they held + the column sums of that block and of its squares. -/
theorem pieceD_S (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) :
    View.canon (kernelRun2_D (F := F) c i a3 h3 a4 h4 a5 h5 a6 h6 a7 h7 a8 h8 a9 h9 hc1 hc2 hc3 x0 x1 x2 y4 y5 xs).2.2.2.1 = k2_pay4 xs x0 x1 := by
  unfold kernelRun2_D; dsimp only; sl_unfold_words
  rw [View.canon_unit_zero hz2]
  try simp only [View.readAt_eq_ld]
  try simp only [h3.read_unread]
  try simp only [h4.read_unread]
  try simp only [h5.read_unread]
  try simp only [h7.read_unread]
  try simp only [h8.read_unread]
  try simp only [h9.read_unread]
  try simp only [View.ld_unit_zero (S := S1024x2048) hz2]
  try simp only [View.ld_unit_zero (S := S1024x1024) hz2]
  try simp only [View.ld_unit_zero (S := S2048x1024) hz2]
  try simp only [View.ld_unit_zero (S := S1x2048) hz2]
  try rw [View.readCov_unit_zero a9.view hz2]

theorem pieceD_3 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) :
    View.canon (kernelRun2_D (F := F) c i a3 h3 a4 h4 a5 h5 a6 h6 a7 h7 a8 h8 a9 h9 hc1 hc2 hc3 x0 x1 x2 y4 y5 xs).1 = k2_pay5 (k2_pay4 xs x0 x1) x2 := by
  unfold kernelRun2_D; dsimp only; sl_unfold_words
  rw [View.canon_unit_zero hz2]
  try simp only [View.readAt_eq_ld]
  try simp only [h3.read_unread]
  try simp only [h4.read_unread]
  try simp only [h5.read_unread]
  try simp only [h7.read_unread]
  try simp only [h8.read_unread]
  try simp only [h9.read_unread]
  try simp only [View.ld_unit_zero (S := S1024x2048) hz2]
  try simp only [View.ld_unit_zero (S := S1024x1024) hz2]
  try simp only [View.ld_unit_zero (S := S2048x1024) hz2]
  try simp only [View.ld_unit_zero (S := S1x2048) hz2]
  try rw [View.readCov_unit_zero a9.view hz2]

theorem pieceD_4 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) :
    View.canon (kernelRun2_D (F := F) c i a3 h3 a4 h4 a5 h5 a6 h6 a7 h7 a8 h8 a9 h9 hc1 hc2 hc3 x0 x1 x2 y4 y5 xs).2.1 = k2_pay6 (k2_pay4 xs x0 x1) x2 y4 := by
  unfold kernelRun2_D; dsimp only; sl_unfold_words
  rw [View.canon_unit_zero hz2]
  try simp only [View.readAt_eq_ld]
  try simp only [h3.read_unread]
  try simp only [h4.read_unread]
  try simp only [h5.read_unread]
  try simp only [h7.read_unread]
  try simp only [h8.read_unread]
  try simp only [h9.read_unread]
  try simp only [View.ld_unit_zero (S := S1024x2048) hz2]
  try simp only [View.ld_unit_zero (S := S1024x1024) hz2]
  try simp only [View.ld_unit_zero (S := S2048x1024) hz2]
  try simp only [View.ld_unit_zero (S := S1x2048) hz2]
  try rw [View.readCov_unit_zero a9.view hz2]

theorem pieceD_5 (c : Dev nD) (i : grid2.Coords) (a3 : Memref sig .tc .vmem S1024x1024 .bf16) (h3 : a3.IsWhole) (a4 : Memref sig .tc .vmem S2048x1024 .bf16) (h4 : a4.IsWhole) (a5 : Memref sig .tc .vmem S1x2048 .f32) (h5 : a5.IsWhole) (a6 : Memref sig .tc .vmem S1024x2048 .f32) (h6 : a6.IsWhole) (a7 : Memref sig .tc .vmem S1x2048 .f32) (h7 : a7.IsWhole) (a8 : Memref sig .tc .vmem S1x2048 .f32) (h8 : a8.IsWhole) (a9 : Memref sig .tc .vmem S1024x2048 .f32) (h9 : a9.IsWhole) (hc1 : ¬cond2_1 i) (hc2 : ¬cond2_2 i) (hc3 : cond2_3 i) (x0 : Vec F S1024x1024 .bf16) (x1 : Vec F S2048x1024 .bf16) (x2 : Vec F S1x2048 .f32) (y4 y5 : Vec F S1x2048 .f32) (xs : Vec F S1024x2048 .f32) :
    View.canon (kernelRun2_D (F := F) c i a3 h3 a4 h4 a5 h5 a6 h6 a7 h7 a8 h8 a9 h9 hc1 hc2 hc3 x0 x1 x2 y4 y5 xs).2.2.1 = k2_pay7 (k2_pay4 xs x0 x1) x2 y5 := by
  unfold kernelRun2_D; dsimp only; sl_unfold_words
  rw [View.canon_unit_zero hz2]
  try simp only [View.readAt_eq_ld]
  try simp only [h3.read_unread]
  try simp only [h4.read_unread]
  try simp only [h5.read_unread]
  try simp only [h7.read_unread]
  try simp only [h8.read_unread]
  try simp only [h9.read_unread]
  try simp only [View.ld_unit_zero (S := S1024x2048) hz2]
  try simp only [View.ld_unit_zero (S := S1024x1024) hz2]
  try simp only [View.ld_unit_zero (S := S2048x1024) hz2]
  try simp only [View.ld_unit_zero (S := S1x2048) hz2]
  try rw [View.readCov_unit_zero a9.view hz2]

end Cert.KernelIdeal.Hand

end
-- ==== Proof.KI.Pay2.lean ====
/-
  The matrix-product kernel's stored values, read at one entry.

  At the ideal values each value the kernel stores is a function of the blocks it has loaded, entry by entry:
  the zero rows and the zero tile (the word of 0.0 denotes 0); the accumulator tile plus the contraction, over the
  shared last axis, of a row of the left block against a row of the right block; the finished tile plus the bias row
  broadcast along the rows; and the running column sums — of the finished tile and of its squares — each the loaded
  row plus the sum over the tile's 1024 rows. Casts to the same shape are the identity, the cast of a vector to a
  one-row matrix reads the vector at the column, and a reduction over the row axis is the sum over that axis.
-/
import proofs.«113576_j90099823935564_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The zero stores -/

/-- The first zero row. -/
theorem pay1_at (q : Fin 2048) : k2_pay1 (F := Ideal) (ix2 (0 : Fin 1) q) = 0 := Ideal.ofBits_zero_f32
/-- The second zero row. -/
theorem pay2_at (q : Fin 2048) : k2_pay2 (F := Ideal) (ix2 (0 : Fin 1) q) = 0 := Ideal.ofBits_zero_f32
/-- The zero tile. -/
theorem pay3_at (p : Fin 1024) (q : Fin 2048) : k2_pay3 (F := Ideal) (ix2 p q) = 0 := by
  unfold k2_pay3
  rw [shapeCast_self]
  exact Ideal.ofBits_zero_f32

/-! ## The block product -/

theorem lhs_0 (i : S1024x2048.Idx) (k : dot_S1024x1024_S2048x1024_S1024x2048_1_1_0_0_n_n.contr.Idx) :
    (dot_S1024x1024_S2048x1024_S1024x2048_1_1_0_0_n_n.lhsIdx i k 0).val = (i 0).val := by
  unfold DotDims.lhsIdx
  rw [dif_neg (show ¬(0 : Fin S1024x1024.rank) ∈ dot_S1024x1024_S2048x1024_S1024x2048_1_1_0_0_n_n.lhsBatch by decide),
    dif_pos (show (0 : Fin S1024x1024.rank) ∈ dot_S1024x1024_S2048x1024_S1024x2048_1_1_0_0_n_n.lhsNonContracting by decide)]
  rfl
theorem lhs_1 (i : S1024x2048.Idx) (k : dot_S1024x1024_S2048x1024_S1024x2048_1_1_0_0_n_n.contr.Idx) :
    (dot_S1024x1024_S2048x1024_S1024x2048_1_1_0_0_n_n.lhsIdx i k 1).val = (k ⟨0, by decide⟩).val :=
  dot_S1024x1024_S2048x1024_S1024x2048_1_1_0_0_n_n.lhsIdx_val_of_single rfl i k
theorem rhs_0 (i : S1024x2048.Idx) (k : dot_S1024x1024_S2048x1024_S1024x2048_1_1_0_0_n_n.contr.Idx) :
    (dot_S1024x1024_S2048x1024_S1024x2048_1_1_0_0_n_n.rhsIdx i k 0).val = (i 1).val := by
  unfold DotDims.rhsIdx
  rw [dif_neg (show ¬(0 : Fin S2048x1024.rank) ∈ dot_S1024x1024_S2048x1024_S1024x2048_1_1_0_0_n_n.rhsBatch by decide),
    dif_pos (show (0 : Fin S2048x1024.rank) ∈ dot_S1024x1024_S2048x1024_S1024x2048_1_1_0_0_n_n.rhsNonContracting by decide)]
  rfl
theorem rhs_1 (i : S1024x2048.Idx) (k : dot_S1024x1024_S2048x1024_S1024x2048_1_1_0_0_n_n.contr.Idx) :
    (dot_S1024x1024_S2048x1024_S1024x2048_1_1_0_0_n_n.rhsIdx i k 1).val = (k ⟨0, by decide⟩).val :=
  dot_S1024x1024_S2048x1024_S1024x2048_1_1_0_0_n_n.rhsIdx_val_of_single rfl i k

/-- The block product into the zero tile, at an entry: row `p` of the left block against row `q` of the right. -/
theorem matmul_at (l : FVec Ideal S1024x1024 .bf16) (r : FVec Ideal S2048x1024 .bf16) (p : Fin 1024) (q : Fin 2048) :
    matmul dot_S1024x1024_S2048x1024_S1024x2048_1_1_0_0_n_n none l r (constant S1024x2048 .f32 0x00000000#32) (ix2 p q)
      = ∑ i : Fin 1024, l (ix2 p i) * r (ix2 q i) := by
  simp only [matmul]
  rw [Ideal.matmul_constant_zero_apply,
    ← Equiv.sum_comp (contrEquiv1 dot_S1024x1024_S2048x1024_S1024x2048_1_1_0_0_n_n 1024 rfl rfl).symm]
  refine Finset.sum_congr rfl fun k _ => ?_
  have hk := contrEquiv1_symm_val dot_S1024x1024_S2048x1024_S1024x2048_1_1_0_0_n_n 1024 rfl rfl k
  have el : dot_S1024x1024_S2048x1024_S1024x2048_1_1_0_0_n_n.lhsIdx (ix2 p q)
      ((contrEquiv1 dot_S1024x1024_S2048x1024_S1024x2048_1_1_0_0_n_n 1024 rfl rfl).symm k) = ix2 p k :=
    funext fun a => Fin.ext (by
      match a with
      | ⟨0, _⟩ => exact lhs_0 _ _
      | ⟨1, _⟩ => exact (lhs_1 _ _).trans hk)
  have er : dot_S1024x1024_S2048x1024_S1024x2048_1_1_0_0_n_n.rhsIdx (ix2 p q)
      ((contrEquiv1 dot_S1024x1024_S2048x1024_S1024x2048_1_1_0_0_n_n 1024 rfl rfl).symm k) = ix2 q k :=
    funext fun a => Fin.ext (by
      match a with
      | ⟨0, _⟩ => exact rhs_0 _ _
      | ⟨1, _⟩ => exact (rhs_1 _ _).trans hk)
  rw [el, er]

/-- The accumulator tile plus the block product. -/
theorem pay4_at (v8 : Vec Ideal S1024x2048 .f32) (v9 : Vec Ideal S1024x1024 .bf16) (v11 : Vec Ideal S2048x1024 .bf16)
    (p : Fin 1024) (q : Fin 2048) :
    k2_pay4 v8 v9 v11 (ix2 p q) = v8 (ix2 p q) + ∑ i : Fin 1024, v9 (ix2 p i) * v11 (ix2 q i) := by
  unfold k2_pay4
  simp only [shapeCast_self]
  exact congrArg (v8 (ix2 p q) + ·) (matmul_at v9 v11 p q)

/-! ## The finished tile and its column sums -/

/-- The finished tile: the accumulator plus the bias row, along the rows. -/
theorem pay5_at (v21 : Vec Ideal S1024x2048 .f32) (v22 : Vec Ideal S1x2048 .f32) (p : Fin 1024) (q : Fin 2048) :
    k2_pay5 v21 v22 (ix2 p q) = v21 (ix2 p q) + v22 (ix2 (0 : Fin 1) q) := by
  unfold k2_pay5
  simp only [shapeCast_self]
  exact congrArg (v21 (ix2 p q) + ·) (broadcastTo_1b_ab_apply v22 _ p q)

/-- A reduction of a tile over its row axis, from the word of 0.0, read at a column: the sum over the rows. -/
theorem colsum_at (src : FVec Ideal S1024x2048 .f32) (hφ : FKind.Formats .f32)
    (hacc : (0x00000000#32 : BitVec 32) = FKind.add.neutral .f32 hφ) (q : Fin 2048) :
    multiReduction .add [0] S2048 src 0x00000000#32 reduces_S1024x2048_S2048 hφ hacc (ix1 q) = ∑ p : Fin 1024, src (ix2 p q) :=
  (Ideal.multiReduction_add_single src 0x00000000#32 reduces_S1024x2048_S2048 hφ hacc (ix1 q)).trans
    (Finset.sum_congr rfl fun p _ => congrArg src (funext fun a => Fin.ext (by
      match a with
      | ⟨0, _⟩ => rfl
      | ⟨1, _⟩ => rfl)))

/-- The running column sum of the finished tile. -/
theorem pay6_at (v21 : Vec Ideal S1024x2048 .f32) (v22 : Vec Ideal S1x2048 .f32) (v27 : Vec Ideal S1x2048 .f32) (q : Fin 2048) :
    k2_pay6 v21 v22 v27 (ix2 (0 : Fin 1) q) = v27 (ix2 (0 : Fin 1) q) + ∑ p : Fin 1024, k2_pay5 v21 v22 (ix2 p q) := by
  unfold k2_pay6
  simp only [shapeCast_self]
  refine congrArg (v27 (ix2 (0 : Fin 1) q) + ·) ?_
  exact (shapeCast_a_1a_apply _ _ (0 : Fin 1) q).trans (colsum_at (k2_pay5 v21 v22) _ _ q)

/-- The running column sum of the finished tile's squares. -/
theorem pay7_at (v21 : Vec Ideal S1024x2048 .f32) (v22 : Vec Ideal S1x2048 .f32) (v33 : Vec Ideal S1x2048 .f32) (q : Fin 2048) :
    k2_pay7 v21 v22 v33 (ix2 (0 : Fin 1) q)
      = v33 (ix2 (0 : Fin 1) q) + ∑ p : Fin 1024, k2_pay5 v21 v22 (ix2 p q) * k2_pay5 v21 v22 (ix2 p q) := by
  unfold k2_pay7
  simp only [shapeCast_self]
  refine congrArg (v33 (ix2 (0 : Fin 1) q) + ·) ?_
  exact (shapeCast_a_1a_apply _ _ (0 : Fin 1) q).trans (colsum_at (mulf (k2_pay5 v21 v22) (k2_pay5 v21 v22)) _ _ q)

end Cert.KernelIdeal.PayValue

end
-- ==== Proof.LibSums.lean ====
/-
  Finite sums over index sets, re-indexed: general lemmas over any additive commutative monoid, with no program in them.

    sum_idx1, sum_idx3   a sum over the indices of a rank-1 / rank-3 shape is the (iterated) sum over the coordinates
                         (the rank-2 case is the library's `ValueIdx.sum_idx2`);
    sum_fin_mul          a sum over `a * b` consecutive naturals is the double sum over quotient i < a and remainder
                         j < b, at position i * b + j — the step that splits a flat index into (row, column), applied
                         repeatedly for a tiling of any depth;
    sum_fin_cast         the same sum under another spelling of its length (so a literal extent can be written as the
                         product it is, by `norm_num`, without evaluating anything of that size);
    sum_reorder          four nested sums a, b, c, d taken in the order d, c, a, b.

  None of them needs the summands finite: only commutativity and associativity of addition are used.
-/
import Idealize.ShloMosaic.PureOps.Ideal
import Idealize.ShloMosaic.Lib.ValueIdx

noncomputable section

open scoped BigOperators

namespace Idealize.ShloMosaic.ValueSums

open Idealize.ShloMosaic Idealize.ShloMosaic.ValueIdx

/-! ## Sums over index sets of rank 1 and 3 as sums over coordinates -/

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Regrouping a sum over a range that is a product -/

/-- A sum over `a * b` consecutive naturals is the double sum over quotient and remainder. -/
theorem sum_fin_mul {M : Type*} [AddCommMonoid M] (a b : ℕ) (f : ℕ → M) :
    ∑ k : Fin (a * b), f k.val = ∑ i : Fin a, ∑ j : Fin b, f (i.val * b + j.val) := by
  rw [← (finProdFinEquiv (m := a) (n := b)).sum_comp, Fintype.sum_prod_type]
  refine Finset.sum_congr rfl fun i _ => Finset.sum_congr rfl fun j _ => ?_
  refine congrArg f ?_
  rw [finProdFinEquiv_apply_val]
  ring

/-- The same range under another spelling of its length. -/
theorem sum_fin_cast {M : Type*} [AddCommMonoid M] {n n' : ℕ} (h : n = n') (f : ℕ → M) :
    ∑ k : Fin n, f k.val = ∑ k : Fin n', f k.val := by
  subst h; rfl

/-- Four nested sums in another order. -/
theorem sum_reorder {M : Type*} [AddCommMonoid M] {A B C D : Type*} [Fintype A] [Fintype B] [Fintype C] [Fintype D]
    (F : A → B → C → D → M) :
    ∑ a, ∑ b, ∑ c, ∑ d, F a b c d = ∑ d, ∑ c, ∑ a, ∑ b, F a b c d := by
  calc ∑ a, ∑ b, ∑ c, ∑ d, F a b c d
      = ∑ a, ∑ c, ∑ b, ∑ d, F a b c d := Finset.sum_congr rfl fun a _ => Finset.sum_comm
    _ = ∑ c, ∑ a, ∑ b, ∑ d, F a b c d := Finset.sum_comm
    _ = ∑ c, ∑ a, ∑ d, ∑ b, F a b c d :=
        Finset.sum_congr rfl fun c _ => Finset.sum_congr rfl fun a _ => Finset.sum_comm
    _ = ∑ c, ∑ d, ∑ a, ∑ b, F a b c d := Finset.sum_congr rfl fun c _ => Finset.sum_comm
    _ = ∑ d, ∑ c, ∑ a, ∑ b, F a b c d := Finset.sum_comm

end Idealize.ShloMosaic.ValueSums

end
-- ==== Proof.KI.Tile.lean ====
/-
  Sums over a tiled range, and a running sum as a finite sum: general facts over any additive commutative monoid
  (only commutativity and associativity of addition are used, so they hold on the extended reals with no finiteness).

  A range of a·b consecutive positions is a tiles of b positions: the sum over the range is the sum over the tiles of
  the sums inside each tile, position k·b + j for tile k and offset j. An accumulator that starts at 0 + a 0 and adds
  a (k+1) at step k+1 holds after step n the sum of a 0 … a n.
-/
import proofs.«113576_j90099823935564_2_alg».proof.Proof.LibSums

noncomputable section

open scoped BigOperators

namespace Cert.Tile

open Idealize.ShloMosaic.ValueSums

variable {M : Type*} [AddCommMonoid M]

/-! ## A tiled range -/

/-- The sum over `a * b` positions is the sum over `a` tiles of the sums over the `b` positions of a tile. -/
theorem sum_tiles (a b : ℕ) (g : Fin (a * b) → M) :
    ∑ i, g i = ∑ k : Fin a, ∑ j : Fin b, g ⟨k.val * b + j.val, by
      have hk := k.isLt; have hj := j.isLt
      calc k.val * b + j.val < k.val * b + b := by omega
        _ = (k.val + 1) * b := by ring
        _ ≤ a * b := Nat.mul_le_mul_right b hk⟩ := by
  let f : ℕ → M := fun n => if h : n < a * b then g ⟨n, h⟩ else 0
  have h1 : ∑ i, g i = ∑ i : Fin (a * b), f i.val :=
    Finset.sum_congr rfl fun i _ => by simp only [f, dif_pos i.isLt]
  refine h1.trans ((sum_fin_mul a b f).trans ?_)
  refine Finset.sum_congr rfl fun k _ => Finset.sum_congr rfl fun j _ => ?_
  have hk := k.isLt; have hj := j.isLt
  have hlt : k.val * b + j.val < a * b :=
    calc k.val * b + j.val < k.val * b + b := by omega
      _ = (k.val + 1) * b := by ring
      _ ≤ a * b := Nat.mul_le_mul_right b hk
  simp only [f, dif_pos hlt]

/-- 4096 positions are 4 tiles of 1024. -/
theorem sum_4096_4x1024 (g : Fin 4096 → M) :
    ∑ i, g i = ∑ k : Fin 4, ∑ j : Fin 1024, g ⟨k.val * 1024 + j.val, by have := k.isLt; have := j.isLt; omega⟩ :=
  sum_tiles 4 1024 g

/-- 8192 positions are 8 tiles of 1024. -/
theorem sum_8192_8x1024 (g : Fin 8192 → M) :
    ∑ r, g r = ∑ b : Fin 8, ∑ p : Fin 1024, g ⟨b.val * 1024 + p.val, by have := b.isLt; have := p.isLt; omega⟩ :=
  sum_tiles 8 1024 g

/-! ## A running sum -/

/-- An accumulator that starts at `0 + a 0` and adds `a (k + 1)` at step `k + 1` holds the sum of the first `n + 1` terms
    after step `n` (for the steps below a bound `N`). -/
theorem acc_eq_sum (N : ℕ) (acc a : ℕ → M) (h0 : acc 0 = 0 + a 0) (hs : ∀ k, k + 1 < N → acc (k + 1) = acc k + a (k + 1)) :
    ∀ n, n < N → acc n = ∑ k ∈ Finset.range (n + 1), a k := by
  intro n
  induction n with
  | zero => intro _; rw [h0, zero_add, Finset.sum_range_one]
  | succ n ih => intro hn; rw [hs n hn, ih (by omega), Finset.sum_range_succ _ (n + 1)]

/-- The same with the sum over `Fin (n + 1)`. -/
theorem acc_eq_sum_fin (N : ℕ) (acc a : ℕ → M) (h0 : acc 0 = 0 + a 0) (hs : ∀ k, k + 1 < N → acc (k + 1) = acc k + a (k + 1))
    (n : ℕ) (hn : n < N) : acc n = ∑ k : Fin (n + 1), a k.val := by
  rw [acc_eq_sum N acc a h0 hs n hn, Finset.sum_range]

/-- Four steps, spelt out. -/
theorem acc4 (a : Fin 4 → M) : (((0 + a 0) + a 1) + a 2) + a 3 = ∑ k, a k := by
  rw [Fin.sum_univ_four, zero_add]

/-- Eight steps, spelt out. -/
theorem acc8 (s : Fin 8 → M) : (((((((0 + s 0) + s 1) + s 2) + s 3) + s 4) + s 5) + s 6) + s 7 = ∑ b, s b := by
  rw [Fin.sum_univ_eight, zero_add]

/-- A partial sum over the first `n + 1` of `N` terms as a sum over a range, for a summand given on `Fin N`. -/
theorem sum_fin_succ_eq_range (n : ℕ) (a : ℕ → M) : ∑ k : Fin (n + 1), a k.val = ∑ k ∈ Finset.range (n + 1), a k :=
  (Finset.sum_range a).symm

end Cert.Tile

end
-- ==== Proof.KI.Accum.lean ====
/-
  The closed forms of the matrix-product region's running values, over the position t = 32 j + 4 i + k of a grid point
  (j the column tile, i < 8 the row tile, k < 4 the contraction tile).

  The accumulator tile restarts at the first contraction tile of every (j, i) and adds one block product per point:
  at the last contraction tile it holds the sum of the four. The row of column sums restarts at the first point of
  every j, is carried unchanged through the first three contraction tiles of each row tile and gains one term at the
  fourth: at the last point of a j it holds the sum of the eight. Only commutativity and associativity of addition
  are used. Each closed form is stated twice: with the recursion known below a bound N (the number of points), and
  with it known everywhere.
-/
import proofs.«113576_j90099823935564_2_alg».proof.Proof.KI.Tile

noncomputable section

open scoped BigOperators

namespace Cert.Tile

variable {M : Type*} [AddCommMonoid M]

/-- A value that restarts at `P t` where `t % 4 = 0` and adds `P t` elsewhere holds, where `t % 4 = 3`, the sum of the
    four terms of its group (the recursion known below `N`). -/
theorem acc_closed_lt (N : ℕ) (P acc : ℕ → M) (h0 : ∀ t, t < N → t % 4 = 0 → acc t = P t)
    (hs : ∀ t, t < N → t % 4 ≠ 0 → acc t = acc (t - 1) + P t) :
    ∀ t, t < N → t % 4 = 3 → acc t = ∑ k : Fin 4, P (t - 3 + k.val) := by
  intro t hN ht
  obtain ⟨u, rfl⟩ : ∃ u, t = u + 3 := ⟨t - 3, by omega⟩
  have hs' : ∀ x, x + 1 < N → (x + 1) % 4 ≠ 0 → acc (x + 1) = acc x + P (x + 1) := fun x hx h => by
    have := hs (x + 1) hx h; rwa [Nat.add_sub_cancel] at this
  have e3 : acc (u + 3) = acc (u + 2) + P (u + 3) := hs' (u + 2) hN (by omega)
  have e2 : acc (u + 2) = acc (u + 1) + P (u + 2) := hs' (u + 1) (by omega) (by omega)
  have e1 : acc (u + 1) = acc u + P (u + 1) := hs' u (by omega) (by omega)
  have e0 : acc u = P u := h0 u (by omega) (by omega)
  rw [e3, e2, e1, e0, Fin.sum_univ_four, Nat.add_sub_cancel]
  rfl

/-- The same with the recursion known everywhere. -/
theorem acc_closed (P acc : ℕ → M) (h0 : ∀ t, t % 4 = 0 → acc t = P t) (hs : ∀ t, t % 4 ≠ 0 → acc t = acc (t - 1) + P t) :
    ∀ t, t % 4 = 3 → acc t = ∑ k : Fin 4, P (t - 3 + k.val) :=
  fun t ht => acc_closed_lt (t + 1) P acc (fun t _ => h0 t) (fun t _ => hs t) t (Nat.lt_succ_self t) ht

/-- A value that restarts at 0 where `t % 32 = 0`, gains `o t` where `t % 4 = 3` and is carried unchanged elsewhere
    holds, at the last position of each group of 32, the sum of the group's eight gains (the recursion known below `N`). -/
theorem sum_closed_lt (N : ℕ) (s o : ℕ → M) (h0 : ∀ t, t < N → t % 32 = 0 → s t = 0)
    (hD : ∀ t, t < N → t % 4 = 3 → s t = s (t - 1) + o t)
    (hI : ∀ t, t < N → t % 32 ≠ 0 → t % 4 ≠ 3 → s t = s (t - 1)) :
    ∀ j, 32 * j + 31 < N → s (32 * j + 31) = ∑ i : Fin 8, o (32 * j + 4 * i.val + 3) := by
  intro j hj
  have hI' : ∀ x, x + 1 < N → (x + 1) % 32 ≠ 0 → (x + 1) % 4 ≠ 3 → s (x + 1) = s x := fun x hx h1 h2 => by
    have := hI (x + 1) hx h1 h2; rwa [Nat.add_sub_cancel] at this
  have hD' : ∀ x, x + 1 < N → (x + 1) % 4 = 3 → s (x + 1) = s x + o (x + 1) := fun x hx h => by
    have := hD (x + 1) hx h; rwa [Nat.add_sub_cancel] at this
  have key : ∀ i, i < 8 → s (32 * j + 4 * i + 3) = ∑ i' ∈ Finset.range (i + 1), o (32 * j + 4 * i' + 3) := by
    intro i
    induction i with
    | zero =>
      intro _
      have e3 : s (32 * j + 3) = s (32 * j + 2) + o (32 * j + 3) := hD' (32 * j + 2) (by omega) (by omega)
      have e2 : s (32 * j + 2) = s (32 * j + 1) := hI' (32 * j + 1) (by omega) (by omega) (by omega)
      have e1 : s (32 * j + 1) = s (32 * j) := hI' (32 * j) (by omega) (by omega) (by omega)
      have e0 : s (32 * j) = 0 := h0 (32 * j) (by omega) (by omega)
      rw [Finset.sum_range_one]
      show s (32 * j + 3) = o (32 * j + 3)
      rw [e3, e2, e1, e0, zero_add]
    | succ i ih =>
      intro hi
      have e7 : s (32 * j + 4 * i + 7) = s (32 * j + 4 * i + 6) + o (32 * j + 4 * i + 7) :=
        hD' (32 * j + 4 * i + 6) (by omega) (by omega)
      have e6 : s (32 * j + 4 * i + 6) = s (32 * j + 4 * i + 5) := hI' (32 * j + 4 * i + 5) (by omega) (by omega) (by omega)
      have e5 : s (32 * j + 4 * i + 5) = s (32 * j + 4 * i + 4) := hI' (32 * j + 4 * i + 4) (by omega) (by omega) (by omega)
      have e4 : s (32 * j + 4 * i + 4) = s (32 * j + 4 * i + 3) := hI' (32 * j + 4 * i + 3) (by omega) (by omega) (by omega)
      have hpos : 32 * j + 4 * (i + 1) + 3 = 32 * j + 4 * i + 7 := by omega
      rw [Finset.sum_range_succ, ← ih (by omega), hpos, e7, e6, e5, e4]
  have h7 := key 7 (by norm_num)
  have hpos : 32 * j + 4 * 7 + 3 = 32 * j + 31 := by omega
  rw [hpos] at h7
  exact h7.trans (Finset.sum_range fun i => o (32 * j + 4 * i + 3))

/-- The same with the recursion known everywhere. -/
theorem sum_closed (s o : ℕ → M) (h0 : ∀ t, t % 32 = 0 → s t = 0) (hD : ∀ t, t % 4 = 3 → s t = s (t - 1) + o t)
    (hI : ∀ t, t % 32 ≠ 0 → t % 4 ≠ 3 → s t = s (t - 1)) :
    ∀ j, s (32 * j + 31) = ∑ i : Fin 8, o (32 * j + 4 * i.val + 3) :=
  fun j => sum_closed_lt (32 * j + 32) s o (fun t _ => h0 t) (fun t _ => hD t) (fun t _ => hI t) j (by omega)

end Cert.Tile

end
-- ==== Proof.Spec.lean ====
/-
  The mathematics of the certificate, with no program in it.

  A sign-binarized linear layer followed by a batch normalisation over the rows. With s the sign of an entry,
      out r o  = (∑ i, s (x r i) * s (w o i)) + b o                      (`lin`)
      mean o   = (∑ r, out r o) / 8192
  and the normalised result  (out r o - mean o) * rsqrt (var o + ε)  for one of two spellings of the variance of a
  column:
      varK o = (∑ r, out r o * out r o) / 8192 - mean o * mean o          (mean of the squares minus the squared mean)
      varR o = (∑ r, (out r o - mean o) * (out r o - mean o)) / 8192      (mean of the squared deviations).
  All of it is on the extended reals, with the division, the reciprocal square root and the two float words (8192.0 and
  ε, kept as the words they are) those of the ideal instance. This file holds the definitions only. The two variances
  are the same number whenever every `out r o` is a real, and at an infinite entry they are not (∞ - ∞): that law, and
  that `lin` of real-valued arguments is real-valued, are proved in SpecLaw.lean.
-/
import Idealize.ShloMosaic.PureOps.Ideal
import Idealize.ShloMosaic.Lib.ValueIdx

noncomputable section

open scoped BigOperators

namespace Cert.Spec

open Idealize.ShloMosaic

/-- The number of rows as the float word the programs divide by (the word of 8192.0). -/
abbrev nRows : EReal := Ideal.ofBits .f32 0x46000000#32
/-- The stabilising constant under the square root, as the float word the programs add. -/
abbrev eps : EReal := Ideal.ofBits .f32 0x3727C5AC#32

/-- The linear layer on already binarized entries: row `r` of `sx` against row `o` of `sw`, plus the bias. -/
def lin (sx : Fin 8192 → Fin 4096 → EReal) (sw : Fin 4096 → Fin 4096 → EReal) (b : Fin 4096 → EReal) :
    Fin 8192 → Fin 4096 → EReal :=
  fun r o => (∑ i, sx r i * sw o i) + b o

/-- The sum of a column. -/
def colSum (f : Fin 8192 → Fin 4096 → EReal) (o : Fin 4096) : EReal := ∑ r, f r o

/-- The mean of a column. -/
def mean (out : Fin 8192 → Fin 4096 → EReal) (o : Fin 4096) : EReal := Ideal.div (colSum out o) nRows

/-- The variance of a column as the mean of the squares minus the squared mean. -/
def varK (out : Fin 8192 → Fin 4096 → EReal) (o : Fin 4096) : EReal :=
  Ideal.div (colSum (fun r o => out r o * out r o) o) nRows - mean out o * mean out o

/-- The variance of a column as the mean of the squared deviations from the mean. -/
def varR (out : Fin 8192 → Fin 4096 → EReal) (o : Fin 4096) : EReal :=
  Ideal.div (colSum (fun r o => (out r o - mean out o) * (out r o - mean out o)) o) nRows

/-- The normalised entry, with the first variance. -/
def normK (out : Fin 8192 → Fin 4096 → EReal) (r : Fin 8192) (o : Fin 4096) : EReal :=
  (out r o - mean out o) * Ideal.rsqrt (varK out o + eps)

/-- The normalised entry, with the second variance. -/
def normR (out : Fin 8192 → Fin 4096 → EReal) (r : Fin 8192) (o : Fin 4096) : EReal :=
  (out r o - mean out o) * Ideal.rsqrt (varR out o + eps)

end Cert.Spec

end
-- ==== Proof.KI.Val2.lean ====
/-
  The matrix-product region's three output arrays in closed form, at the extended reals.

  Point t = 32 j + 4 i + k works on row tile i, column tile j and contraction tile k. The accumulator tile restarts at
  the block product of k = 0 and adds the block product of each later k, so at k = 3 it holds the contraction over
  all 4096 positions of the shared axis, four tiles of 1024; the output block written back there is that plus the
  bias row. The row of column sums restarts at the first point of each j, is carried through k = 0, 1, 2 and gains
  at each k = 3 the sums over the 1024 rows of the finished tile (of its entries; of their squares), so at the last
  point of j it holds the sums over all 8192 rows, eight tiles of 1024. The blocks of the input windows are the
  arrays' entries at tile index × tile size + the coordinate inside the tile, and the write-backs tile the arrays.
-/
import proofs.«113576_j90099823935564_2_alg».proof.Proof.KI.Blk2
import proofs.«113576_j90099823935564_2_alg».proof.Proof.KI.Reg2Pieces
import proofs.«113576_j90099823935564_2_alg».proof.Proof.KI.Pay2
import proofs.«113576_j90099823935564_2_alg».proof.Proof.KI.Accum
import proofs.«113576_j90099823935564_2_alg».proof.Proof.Spec

set_option maxRecDepth 16384

noncomputable section

open scoped BigOperators

namespace Cert.KernelIdeal.Hand

open Cert.KernelIdeal Cert.KernelIdeal.Gen Cert.KernelIdeal.PayValue Cert.Tile
open Idealize.ShloMosaic Idealize.ShloMosaic.TcCoe Idealize.SL.Sem Idealize.ShloMosaic.ValueIdx
open Idealize.ShloMosaic.Pipeline (Dat)

/-! ## What each case's run leaves, at the point's own buffers -/

section Pieces
variable (c : Dev nD) (t : Fin cfg2.N)

theorem RA_4 (h1 : t.val % 32 = 0) (x0 : Vec Ideal S1024x1024 .bf16) (x1 : Vec Ideal S2048x1024 .bf16) :
    View.canon (RA (F := Ideal) c t h1 x0 x1).1 = k2_pay1 (F := Ideal) :=
  pieceA_4 c (grid2.coords t) (ms2_0 t) (hs2_0 t) (ms2_1 t) (hs2_1 t) (ms2_2 t) (hs2_2 t) (ms2_3 t) (hs2_3 t) (ms2_4 t) (hs2_4 t)
    (ms2_5 t) (hs2_5 t) accM (Memref.isWhole_whole _) _ _ _ x0 x1
theorem RA_5 (h1 : t.val % 32 = 0) (x0 : Vec Ideal S1024x1024 .bf16) (x1 : Vec Ideal S2048x1024 .bf16) :
    View.canon (RA (F := Ideal) c t h1 x0 x1).2.1 = k2_pay2 (F := Ideal) :=
  pieceA_5 c (grid2.coords t) (ms2_0 t) (hs2_0 t) (ms2_1 t) (hs2_1 t) (ms2_2 t) (hs2_2 t) (ms2_3 t) (hs2_3 t) (ms2_4 t) (hs2_4 t)
    (ms2_5 t) (hs2_5 t) accM (Memref.isWhole_whole _) _ _ _ x0 x1
theorem RA_S (h1 : t.val % 32 = 0) (x0 : Vec Ideal S1024x1024 .bf16) (x1 : Vec Ideal S2048x1024 .bf16) :
    View.canon (RA (F := Ideal) c t h1 x0 x1).2.2.1 = k2_pay4 (k2_pay3 (F := Ideal)) x0 x1 :=
  pieceA_S c (grid2.coords t) (ms2_0 t) (hs2_0 t) (ms2_1 t) (hs2_1 t) (ms2_2 t) (hs2_2 t) (ms2_3 t) (hs2_3 t) (ms2_4 t) (hs2_4 t)
    (ms2_5 t) (hs2_5 t) accM (Memref.isWhole_whole _) _ _ _ x0 x1
theorem RB_S (h1 : ¬ t.val % 32 = 0) (h2 : t.val % 4 = 0) (x0 : Vec Ideal S1024x1024 .bf16) (x1 : Vec Ideal S2048x1024 .bf16) :
    View.canon (RB (F := Ideal) c t h1 h2 x0 x1).1 = k2_pay4 (k2_pay3 (F := Ideal)) x0 x1 :=
  pieceB_S c (grid2.coords t) (ms2_0 t) (hs2_0 t) (ms2_1 t) (hs2_1 t) (ms2_2 t) (hs2_2 t) (ms2_3 t) (hs2_3 t) (ms2_4 t) (hs2_4 t)
    (ms2_5 t) (hs2_5 t) accM (Memref.isWhole_whole _) _ _ _ x0 x1
theorem RC_S (h2 : ¬ t.val % 4 = 0) (h3 : ¬ t.val % 4 = 3) (x0 : Vec Ideal S1024x1024 .bf16) (x1 : Vec Ideal S2048x1024 .bf16)
    (xs : Vec Ideal S1024x2048 .f32) :
    View.canon (RC (F := Ideal) c t h2 h3 x0 x1 xs).1 = k2_pay4 xs x0 x1 :=
  pieceC_S c (grid2.coords t) (ms2_0 t) (hs2_0 t) (ms2_1 t) (hs2_1 t) (ms2_2 t) (hs2_2 t) (ms2_3 t) (hs2_3 t) (ms2_4 t) (hs2_4 t)
    (ms2_5 t) (hs2_5 t) accM (Memref.isWhole_whole _) _ _ _ x0 x1 xs
theorem RD_3 (h3 : t.val % 4 = 3) (x0 : Vec Ideal S1024x1024 .bf16) (x1 : Vec Ideal S2048x1024 .bf16) (x2 y4 y5 : Vec Ideal S1x2048 .f32)
    (xs : Vec Ideal S1024x2048 .f32) :
    View.canon (RD (F := Ideal) c t h3 x0 x1 x2 y4 y5 xs).1 = k2_pay5 (k2_pay4 xs x0 x1) x2 :=
  pieceD_3 c (grid2.coords t) (ms2_0 t) (hs2_0 t) (ms2_1 t) (hs2_1 t) (ms2_2 t) (hs2_2 t) (ms2_3 t) (hs2_3 t) (ms2_4 t) (hs2_4 t)
    (ms2_5 t) (hs2_5 t) accM (Memref.isWhole_whole _) _ _ _ x0 x1 x2 y4 y5 xs
theorem RD_4 (h3 : t.val % 4 = 3) (x0 : Vec Ideal S1024x1024 .bf16) (x1 : Vec Ideal S2048x1024 .bf16) (x2 y4 y5 : Vec Ideal S1x2048 .f32)
    (xs : Vec Ideal S1024x2048 .f32) :
    View.canon (RD (F := Ideal) c t h3 x0 x1 x2 y4 y5 xs).2.1 = k2_pay6 (k2_pay4 xs x0 x1) x2 y4 :=
  pieceD_4 c (grid2.coords t) (ms2_0 t) (hs2_0 t) (ms2_1 t) (hs2_1 t) (ms2_2 t) (hs2_2 t) (ms2_3 t) (hs2_3 t) (ms2_4 t) (hs2_4 t)
    (ms2_5 t) (hs2_5 t) accM (Memref.isWhole_whole _) _ _ _ x0 x1 x2 y4 y5 xs
theorem RD_5 (h3 : t.val % 4 = 3) (x0 : Vec Ideal S1024x1024 .bf16) (x1 : Vec Ideal S2048x1024 .bf16) (x2 y4 y5 : Vec Ideal S1x2048 .f32)
    (xs : Vec Ideal S1024x2048 .f32) :
    View.canon (RD (F := Ideal) c t h3 x0 x1 x2 y4 y5 xs).2.2.1 = k2_pay7 (k2_pay4 xs x0 x1) x2 y5 :=
  pieceD_5 c (grid2.coords t) (ms2_0 t) (hs2_0 t) (ms2_1 t) (hs2_1 t) (ms2_2 t) (hs2_2 t) (ms2_3 t) (hs2_3 t) (ms2_4 t) (hs2_4 t)
    (ms2_5 t) (hs2_5 t) accM (Memref.isWhole_whole _) _ _ _ x0 x1 x2 y4 y5 xs
theorem RD_S (h3 : t.val % 4 = 3) (x0 : Vec Ideal S1024x1024 .bf16) (x1 : Vec Ideal S2048x1024 .bf16) (x2 y4 y5 : Vec Ideal S1x2048 .f32)
    (xs : Vec Ideal S1024x2048 .f32) :
    View.canon (RD (F := Ideal) c t h3 x0 x1 x2 y4 y5 xs).2.2.2.1 = k2_pay4 xs x0 x1 :=
  pieceD_S c (grid2.coords t) (ms2_0 t) (hs2_0 t) (ms2_1 t) (hs2_1 t) (ms2_2 t) (hs2_2 t) (ms2_3 t) (hs2_3 t) (ms2_4 t) (hs2_4 t)
    (ms2_5 t) (hs2_5 t) accM (Memref.isWhole_whole _) _ _ _ x0 x1 x2 y4 y5 xs

/-- At k = 3 the output block is the new accumulator plus the bias row. -/
theorem RD_out_at (h3 : t.val % 4 = 3) (x0 : Vec Ideal S1024x1024 .bf16) (x1 : Vec Ideal S2048x1024 .bf16) (x2 y4 y5 : Vec Ideal S1x2048 .f32)
    (xs : Vec Ideal S1024x2048 .f32) (p : Fin 1024) (q : Fin 2048) :
    View.canon (RD (F := Ideal) c t h3 x0 x1 x2 y4 y5 xs).1 (ix2 p q)
      = View.canon (RD (F := Ideal) c t h3 x0 x1 x2 y4 y5 xs).2.2.2.1 (ix2 p q) + x2 (ix2 (0 : Fin 1) q) := by
  rw [RD_3 c t h3 x0 x1 x2 y4 y5 xs, RD_S c t h3 x0 x1 x2 y4 y5 xs]
  exact pay5_at (k2_pay4 xs x0 x1) x2 p q
/-- At k = 3 the row of column sums gains the sums over the output block's rows. -/
theorem RD_sum_at (h3 : t.val % 4 = 3) (x0 : Vec Ideal S1024x1024 .bf16) (x1 : Vec Ideal S2048x1024 .bf16) (x2 y4 y5 : Vec Ideal S1x2048 .f32)
    (xs : Vec Ideal S1024x2048 .f32) (q : Fin 2048) :
    View.canon (RD (F := Ideal) c t h3 x0 x1 x2 y4 y5 xs).2.1 (ix2 (0 : Fin 1) q)
      = y4 (ix2 (0 : Fin 1) q) + ∑ p : Fin 1024, (fun x : EReal => x) (View.canon (RD (F := Ideal) c t h3 x0 x1 x2 y4 y5 xs).1 (ix2 p q)) := by
  rw [RD_4 c t h3 x0 x1 x2 y4 y5 xs, RD_3 c t h3 x0 x1 x2 y4 y5 xs]
  exact pay6_at (k2_pay4 xs x0 x1) x2 y4 q
/-- At k = 3 the row of column sums of squares gains the sums over the output block's rows of the squares. -/
theorem RD_sumsq_at (h3 : t.val % 4 = 3) (x0 : Vec Ideal S1024x1024 .bf16) (x1 : Vec Ideal S2048x1024 .bf16) (x2 y4 y5 : Vec Ideal S1x2048 .f32)
    (xs : Vec Ideal S1024x2048 .f32) (q : Fin 2048) :
    View.canon (RD (F := Ideal) c t h3 x0 x1 x2 y4 y5 xs).2.2.1 (ix2 (0 : Fin 1) q)
      = y5 (ix2 (0 : Fin 1) q) + ∑ p : Fin 1024, (fun x : EReal => x * x) (View.canon (RD (F := Ideal) c t h3 x0 x1 x2 y4 y5 xs).1 (ix2 p q)) := by
  rw [RD_5 c t h3 x0 x1 x2 y4 y5 xs, RD_3 c t h3 x0 x1 x2 y4 y5 xs]
  exact pay7_at (k2_pay4 xs x0 x1) x2 y5 q

end Pieces

-- the TensorCore's buffer contents when the region is entered, at the extended reals
variable (V : (c : Dev nD) → (b : Ref sig .tc) → Buf (Elt Ideal) ((c : Thread nD τ).loc b))

/-- The region's three input arrays as it finds them: the left operand, the right operand, the bias row. -/
abbrev arrL (c : Dev nD) : S8192x4096.Idx → EReal := V c main_v0
abbrev arrR (c : Dev nD) : S4096x4096.Idx → EReal := V c main_v1
abbrev arrB (c : Dev nD) : S1x4096.Idx → EReal := V c main_v2
/-- The blocks of the three input windows at a point. -/
abbrev blkL (c : Dev nD) (t : Fin cfg2.N) : S1024x1024.Idx → EReal := iblk2 V c 0 t
abbrev blkR (c : Dev nD) (t : Fin cfg2.N) : S2048x1024.Idx → EReal := iblk2 V c 1 t
abbrev blkB (c : Dev nD) (t : Fin cfg2.N) : S1x2048.Idx → EReal := iblk2 V c 2 t

/-- The linear layer of the region's three input arrays: left rows against right rows, plus the bias row. -/
abbrev outL (c : Dev nD) : Fin 8192 → Fin 4096 → EReal :=
  Cert.Spec.lin (fun r i => arrL V c (ix2 r i)) (fun o i => arrR V c (ix2 o i)) (fun o => arrB V c (ix2 (0 : Fin 1) o))

/-! ## The accumulator, point by point -/

/-- The product of point t's left and right blocks at an entry. -/
def prodAt (c : Dev nD) (t : Fin cfg2.N) (p : Fin 1024) (q : Fin 2048) : EReal :=
  ∑ i' : Fin 1024, blkL V c t (ix2 p i') * blkR V c t (ix2 q i')

/-- At the first contraction tile the accumulator holds the block product. -/
theorem acc_first (c : Dev nD) (t : Fin cfg2.N) (h : t.val % 4 = 0) (p : Fin 1024) (q : Fin 2048) :
    (outsAt2 V c t.val t.isLt).2.2.2 (ix2 p q) = prodAt V c t p q := by
  have hpay : k2_pay4 (F := Ideal) (k2_pay3 (F := Ideal)) (iblk2 V c 0 t) (iblk2 V c 1 t) (ix2 p q) = prodAt V c t p q := by
    refine (pay4_at (k2_pay3 (F := Ideal)) (iblk2 V c 0 t) (iblk2 V c 1 t) p q).trans ?_
    rw [pay3_at p q, zero_add]
    rfl
  by_cases h1 : t.val % 32 = 0
  · rw [outsAt2_A V c t h1]
    dsimp only
    refine (congrFun (RA_S c t h1 (iblk2 V c 0 t) (iblk2 V c 1 t)) (ix2 p q)).trans ?_
    exact hpay
  · rw [outsAt2_B V c t h1 h]
    dsimp only
    refine (congrFun (RB_S c t h1 h (iblk2 V c 0 t) (iblk2 V c 1 t)) (ix2 p q)).trans ?_
    exact hpay

/-- At a later contraction tile the accumulator gains the block product. -/
theorem acc_next (c : Dev nD) (t : Fin cfg2.N) (h : ¬ t.val % 4 = 0) (p : Fin 1024) (q : Fin 2048) :
    (outsAt2 V c t.val t.isLt).2.2.2 (ix2 p q) = (prev2 V c t).2.2.2 (ix2 p q) + prodAt V c t p q := by
  by_cases h3 : t.val % 4 = 3
  · rw [outsAt2_D V c t h3]
    dsimp only
    refine (congrFun (RD_S c t h3 (iblk2 V c 0 t) (iblk2 V c 1 t) (iblk2 V c 2 t) (prev2 V c t).2.1 (prev2 V c t).2.2.1
      (prev2 V c t).2.2.2) (ix2 p q)).trans ?_
    exact pay4_at (prev2 V c t).2.2.2 (iblk2 V c 0 t) (iblk2 V c 1 t) p q
  · rw [outsAt2_C V c t h h3]
    dsimp only
    refine (congrFun (RC_S c t h h3 (iblk2 V c 0 t) (iblk2 V c 1 t) (prev2 V c t).2.2.2) (ix2 p q)).trans ?_
    exact pay4_at (prev2 V c t).2.2.2 (iblk2 V c 0 t) (iblk2 V c 1 t) p q

/-- At the last contraction tile the accumulator holds the four block products of its (row tile, column tile). -/
theorem acc_last (c : Dev nD) (t : Fin cfg2.N) (h3 : t.val % 4 = 3) (p : Fin 1024) (q : Fin 2048) :
    (outsAt2 V c t.val t.isLt).2.2.2 (ix2 p q)
      = ∑ k : Fin 4, (fun n : ℕ => if h : n < cfg2.N then prodAt V c ⟨n, h⟩ p q else 0) (t.val - 3 + k.val) := by
  have key := acc_closed_lt cfg2.N (fun n : ℕ => if h : n < cfg2.N then prodAt V c ⟨n, h⟩ p q else 0)
    (fun n : ℕ => if h : n < cfg2.N then (outsAt2 V c n h).2.2.2 (ix2 p q) else 0)
    (fun n hn h => by
      simp only [dif_pos hn]
      exact acc_first V c ⟨n, hn⟩ h p q)
    (fun n hn h => by
      have hn' : n - 1 < cfg2.N := by omega
      simp only [dif_pos hn, dif_pos hn']
      exact acc_next V c ⟨n, hn⟩ h p q)
    t.val t.isLt h3
  simp only [dif_pos t.isLt] at key
  exact key

/-- … which is the contraction over all 4096 positions of the array rows the tiles come from. -/
theorem acc_last_rows (c : Dev nD) (t : Fin cfg2.N) (h3 : t.val % 4 = 3) (p : Fin 1024) (q : Fin 2048) (r : Fin 8192) (s : Fin 4096)
    (hr : r.val = 1024 * ((t.val / 4) % 8) + p.val) (hs : s.val = 2048 * (t.val / 32) + q.val) :
    (outsAt2 V c t.val t.isLt).2.2.2 (ix2 p q)
      = ∑ i : Fin 4096, arrL V c (ix2 r i) * arrR V c (ix2 s i) := by
  have hN : cfg2.N = 64 := N_2
  have htl : t.val < 64 := hN ▸ t.isLt
  rw [acc_last V c t h3 p q,
    sum_4096_4x1024 (fun i => arrL V c (ix2 r i) * arrR V c (ix2 s i))]
  refine Finset.sum_congr rfl fun k _ => ?_
  have hk := k.isLt
  have hn : t.val - 3 + k.val < cfg2.N := by omega
  simp only [dif_pos hn]
  unfold prodAt
  refine Finset.sum_congr rfl fun i' _ => ?_
  have hi' := i'.isLt
  have eL : blkL V c ⟨t.val - 3 + k.val, hn⟩ (ix2 p i') = arrL V c (ix2 r ⟨k.val * 1024 + i'.val, by omega⟩) :=
    blk2_0 V c ⟨t.val - 3 + k.val, hn⟩ p i' r ⟨k.val * 1024 + i'.val, by omega⟩
      (by show r.val = 1024 * (((t.val - 3 + k.val) / 4) % 8) + p.val; omega)
      (by show k.val * 1024 + i'.val = 1024 * ((t.val - 3 + k.val) % 4) + i'.val; omega)
  have eR : blkR V c ⟨t.val - 3 + k.val, hn⟩ (ix2 q i') = arrR V c (ix2 s ⟨k.val * 1024 + i'.val, by omega⟩) :=
    blk2_1 V c ⟨t.val - 3 + k.val, hn⟩ q i' s ⟨k.val * 1024 + i'.val, by omega⟩
      (by show s.val = 2048 * ((t.val - 3 + k.val) / 32) + q.val; omega)
      (by show k.val * 1024 + i'.val = 1024 * ((t.val - 3 + k.val) % 4) + i'.val; omega)
  rw [eL, eR]

/-! ## The output block -/

/-- At the last contraction tile the output block is the accumulator plus the bias row. -/
theorem out_eq_acc (c : Dev nD) (t : Fin cfg2.N) (h3 : t.val % 4 = 3) (p : Fin 1024) (q : Fin 2048) :
    (outsAt2 V c t.val t.isLt).1 (ix2 p q)
      = (outsAt2 V c t.val t.isLt).2.2.2 (ix2 p q) + blkB V c t (ix2 (0 : Fin 1) q) := by
  rw [outsAt2_D V c t h3]
  dsimp only
  exact RD_out_at c t h3 (iblk2 V c 0 t) (iblk2 V c 1 t) (iblk2 V c 2 t) (prev2 V c t).2.1 (prev2 V c t).2.2.1 (prev2 V c t).2.2.2 p q

/-- The output block a k = 3 point leaves is the linear layer at the block's rows and columns. -/
theorem out_at (c : Dev nD) (t : Fin cfg2.N) (h3 : t.val % 4 = 3) (p : Fin 1024) (q : Fin 2048) (r : Fin 8192) (s : Fin 4096)
    (hr : r.val = 1024 * ((t.val / 4) % 8) + p.val) (hs : s.val = 2048 * (t.val / 32) + q.val) :
    (outsAt2 V c t.val t.isLt).1 (ix2 p q) = outL V c r s := by
  have eB : blkB V c t (ix2 (0 : Fin 1) q) = arrB V c (ix2 (0 : Fin 1) s) := blk2_2 V c t q s hs
  rw [out_eq_acc V c t h3 p q, acc_last_rows V c t h3 p q r s hr hs, eB]
  rfl

/-- THE RESULT ARRAY after the region: the linear layer, entry by entry. -/
theorem final2_out (c : Dev nD) : (dat2 V c).arrAt 3 cfg2.N = fun idx : S8192x4096.Idx => outL V c (idx 0) (idx 1) :=
  final2_3 V c _ fun t h3 p q r s hr hs => out_at V c t h3 p q r s hr hs

/-! ## The two rows of column sums -/

/-- A row that restarts at zero at the first point of each column tile, is carried through k = 0, 1, 2 and gains at
    each k = 3 the sum over the finished tile's rows of `f` of its entries, holds at the last point of the column tile
    the sum over all 8192 rows of `f` of the linear layer. -/
theorem rowsum_closed (c : Dev nD) (f : EReal → EReal) (S : (n : ℕ) → n < cfg2.N → S1x2048.Idx → EReal)
    (hz : ∀ t : Fin cfg2.N, t.val % 32 = 0 → ∀ q : Fin 2048, S t.val t.isLt (ix2 (0 : Fin 1) q) = 0)
    (hg : ∀ t : Fin cfg2.N, t.val % 4 = 3 → ∀ q : Fin 2048, S t.val t.isLt (ix2 (0 : Fin 1) q)
      = S (t.val - 1) (Nat.lt_of_le_of_lt (Nat.sub_le _ _) t.isLt) (ix2 (0 : Fin 1) q)
        + ∑ p : Fin 1024, f ((outsAt2 V c t.val t.isLt).1 (ix2 p q)))
    (hc : ∀ t : Fin cfg2.N, ¬ t.val % 32 = 0 → ¬ t.val % 4 = 3 →
      S t.val t.isLt = S (t.val - 1) (Nat.lt_of_le_of_lt (Nat.sub_le _ _) t.isLt))
    (t : Fin cfg2.N) (ht : t.val % 32 = 31) (q : Fin 2048) (s : Fin 4096) (hs : s.val = 2048 * (t.val / 32) + q.val) :
    S t.val t.isLt (ix2 (0 : Fin 1) q) = Cert.Spec.colSum (fun r o => f (outL V c r o)) s := by
  have hN : cfg2.N = 64 := N_2
  have htl : t.val < 64 := hN ▸ t.isLt
  have key := sum_closed_lt cfg2.N (fun n : ℕ => if h : n < cfg2.N then S n h (ix2 (0 : Fin 1) q) else 0)
    (fun n : ℕ => if h : n < cfg2.N then ∑ p : Fin 1024, f ((outsAt2 V c n h).1 (ix2 p q)) else 0)
    (fun n hn h => by
      simp only [dif_pos hn]
      exact hz ⟨n, hn⟩ h q)
    (fun n hn h => by
      have hn' : n - 1 < cfg2.N := by omega
      simp only [dif_pos hn, dif_pos hn']
      exact hg ⟨n, hn⟩ h q)
    (fun n hn h1 h3 => by
      have hn' : n - 1 < cfg2.N := by omega
      simp only [dif_pos hn, dif_pos hn']
      exact congrFun (hc ⟨n, hn⟩ h1 h3) (ix2 (0 : Fin 1) q))
    (t.val / 32) (by omega)
  have hpos : 32 * (t.val / 32) + 31 = t.val := by omega
  rw [hpos] at key
  simp only [dif_pos t.isLt] at key
  rw [key]
  show _ = ∑ r : Fin 8192, f (outL V c r s)
  rw [sum_8192_8x1024 (fun r => f (outL V c r s))]
  refine Finset.sum_congr rfl fun i _ => ?_
  have hi := i.isLt
  have hn : 32 * (t.val / 32) + 4 * i.val + 3 < cfg2.N := by omega
  simp only [dif_pos hn]
  refine Finset.sum_congr rfl fun p _ => ?_
  have hp := p.isLt
  exact congrArg f (out_at V c ⟨32 * (t.val / 32) + 4 * i.val + 3, hn⟩ (by show (32 * (t.val / 32) + 4 * i.val + 3) % 4 = 3; omega) p q
    ⟨i.val * 1024 + p.val, by omega⟩ s
    (by show i.val * 1024 + p.val = 1024 * (((32 * (t.val / 32) + 4 * i.val + 3) / 4) % 8) + p.val; omega)
    (by show s.val = 2048 * ((32 * (t.val / 32) + 4 * i.val + 3) / 32) + q.val; omega))

/-- THE ROW OF COLUMN SUMS after the region. -/
theorem final2_sum (c : Dev nD) :
    (dat2 V c).arrAt 4 cfg2.N = fun idx : S1x4096.Idx => Cert.Spec.colSum (outL V c) (idx 1) := by
  refine final2_4 V c _ fun t ht q s hs => ?_
  refine rowsum_closed V c (fun x => x) (fun n hn => (outsAt2 V c n hn).2.1) ?_ ?_ ?_ t ht q s hs
  · intro t h1 q
    rw [outsAt2_A V c t h1]
    dsimp only
    refine (congrFun (RA_4 c t h1 (iblk2 V c 0 t) (iblk2 V c 1 t)) (ix2 (0 : Fin 1) q)).trans ?_
    exact pay1_at q
  · intro t h3 q
    rw [outsAt2_D V c t h3]
    dsimp only
    exact RD_sum_at c t h3 (iblk2 V c 0 t) (iblk2 V c 1 t) (iblk2 V c 2 t) (prev2 V c t).2.1 (prev2 V c t).2.2.1 (prev2 V c t).2.2.2 q
  · intro t h1 h3
    exact (carry2 V c t h1 h3).1

/-- THE ROW OF COLUMN SUMS OF SQUARES after the region. -/
theorem final2_sumsq (c : Dev nD) :
    (dat2 V c).arrAt 5 cfg2.N = fun idx : S1x4096.Idx => Cert.Spec.colSum (fun r o => outL V c r o * outL V c r o) (idx 1) := by
  refine final2_5 V c _ fun t ht q s hs => ?_
  refine rowsum_closed V c (fun x => x * x) (fun n hn => (outsAt2 V c n hn).2.2.1) ?_ ?_ ?_ t ht q s hs
  · intro t h1 q
    rw [outsAt2_A V c t h1]
    dsimp only
    refine (congrFun (RA_5 c t h1 (iblk2 V c 0 t) (iblk2 V c 1 t)) (ix2 (0 : Fin 1) q)).trans ?_
    exact pay2_at q
  · intro t h3 q
    rw [outsAt2_D V c t h3]
    dsimp only
    exact RD_sumsq_at c t h3 (iblk2 V c 0 t) (iblk2 V c 1 t) (iblk2 V c 2 t) (prev2 V c t).2.1 (prev2 V c t).2.2.1 (prev2 V c t).2.2.2 q
  · intro t h1 h3
    exact (carry2 V c t h1 h3).2

/-! ## The three arrays, entry by entry -/

theorem final2_out_at (c : Dev nD) (r : Fin 8192) (o : Fin 4096) : (dat2 V c).arrAt 3 cfg2.N (ix2 r o) = outL V c r o :=
  congrFun (final2_out V c) (ix2 r o)
theorem final2_sum_at (c : Dev nD) (o : Fin 4096) :
    (dat2 V c).arrAt 4 cfg2.N (ix2 (0 : Fin 1) o) = Cert.Spec.colSum (outL V c) o :=
  congrFun (final2_sum V c) (ix2 (0 : Fin 1) o)
theorem final2_sumsq_at (c : Dev nD) (o : Fin 4096) :
    (dat2 V c).arrAt 5 cfg2.N (ix2 (0 : Fin 1) o) = Cert.Spec.colSum (fun r o => outL V c r o * outL V c r o) o :=
  congrFun (final2_sumsq V c) (ix2 (0 : Fin 1) o)

end Cert.KernelIdeal.Hand

end
-- ==== Proof.KI.Val3.lean ====
import proofs.«113576_j90099823935564_2_alg».proof.Proof.KI.Reg3
import Idealize.ShloMosaic.Lib.Pipeline.Value
import Idealize.ShloMosaic.Lib.ValueIdx
import Idealize.ShloMosaic.PureOps.Ideal.Laws
import Idealize.ShloMosaic.Lib.ValueLayout
set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

/-! # Region 3 at the extended reals: the output array entry by entry

The body stores `(x - a) * rsqrt (b + ε)`: `x` the 512×4096 block of window 0, `a` and `b` the one rows of windows 1
and 2 broadcast down the block, `ε` the literal word `0x3727C5AC` read as an f32 (kept as the word, never
evaluated). Point `t` writes rows `512 t … 512 t + 511`, and the 16 points cover the 8192 rows; the rows `a` and `b`
are the same at every point. -/

/-- The body's payload at entry `(p, q)` of the block. -/
theorem pay3_apply (v0 : Vec Ideal S1x4096 .f32) (v5 : Vec Ideal S512x4096 .f32) (v7 : Vec Ideal S1x4096 .f32) (p : Fin 512) (q : Fin 4096) :
    k3_pay1 (F := Ideal) v0 v5 v7 (ix2 p q)
      = (v5 (ix2 p q) - v7 (ix2 (0 : Fin 1) q)) * Ideal.rsqrt (v0 (ix2 (0 : Fin 1) q) + Ideal.ofBits .f32 0x3727C5AC#32) := by
  unfold k3_pay1
  simp only [shapeCast_self]
  show (v5 (ix2 p q) - broadcastTo S512x4096 v7 _ (ix2 p q))
      * broadcastTo S512x4096 (rsqrt (addf v0 (broadcast S1x4096 (Scalar.ofBits (F := Ideal) .f32 0x3727C5AC#32)))) _ (ix2 p q) = _
  rw [broadcastTo_1b_ab_apply, broadcastTo_1b_ab_apply]
  rfl

/-- The same at any index of the block: the row operands are read at the index's column. -/
theorem pay3_at (x0 : Vec Ideal S512x4096 .f32) (x1 x2 : Vec Ideal S1x4096 .f32) (j : S512x4096.Idx) :
    k3_pay1 (F := Ideal) x2 x0 x1 j
      = (x0 j - x1 (ix2 (0 : Fin 1) (j 1))) * Ideal.rsqrt (x2 (ix2 (0 : Fin 1) (j 1)) + Ideal.ofBits .f32 0x3727C5AC#32) := by
  obtain ⟨p, q, rfl⟩ : ∃ (p : Fin 512) (q : Fin 4096), j = ix2 p q := ⟨j 0, j 1, eq_ix2 j⟩
  exact pay3_apply x2 x0 x1 p q

/-- What the output array ends holding, entry by entry, from the three input arrays. -/
abbrev nrm3 (a0 : S8192x4096.Idx → EReal) (a1 a2 : S1x4096.Idx → EReal) : S8192x4096.Idx → EReal :=
  fun i => (a0 i - a1 (ix2 (0 : Fin 1) (i 1))) * Ideal.rsqrt (a2 (ix2 (0 : Fin 1) (i 1)) + Ideal.ofBits .f32 0x3727C5AC#32)

theorem hz3 : (![0, 0] : Fin 2 → Nat) = fun _ => 0 := funext fun a => by fin_cases a <;> rfl

/-- The printed index maps over the grid: window 0's block moves with the output block, which is block `t` of the
    rows and the one block of the columns; windows 1 and 2 stay at their one block. -/
theorem idx_facts3 : ∀ t : Fin cfg3.N, win3_0.index t (0 : Fin 2) = win3_3.index t (0 : Fin 2)
    ∧ win3_0.index t (1 : Fin 2) = win3_3.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The input blocks read where the output block's entry sits: for any three arrays, the block entries the body
    combines at entry `j` of point `t`'s blocks are the arrays' entries at the output block's array index — window
    0's block is the output's, and the rows of windows 1 and 2 are their arrays' one row. -/
theorem blk3_read (A0 : S8192x4096.Idx → EReal) (A1 A2 : S1x4096.Idx → EReal) (t : Fin cfg3.N) (j : S512x4096.Idx) :
    (A0 (((cfg3.win 0).blk t).view.emb j) - A1 (((cfg3.win 1).blk t).view.emb (ix2 (0 : Fin 1) (j 1))))
        * Ideal.rsqrt (A2 (((cfg3.win 2).blk t).view.emb (ix2 (0 : Fin 1) (j 1))) + Ideal.ofBits .f32 0x3727C5AC#32)
      = nrm3 A0 A1 A2 (((cfg3.win 3).blk t).view.emb j) := by
  obtain ⟨e0, e1, e2, e3, e4, e5, e6, e7⟩ := idx_facts3 t
  have h0 : ((cfg3.win 0).blk t).view.emb j = ((cfg3.win 3).blk t).view.emb j := by
    funext a; apply Fin.ext
    match a with
    | ⟨0, _⟩ => show win3_0.index t (0 : Fin 2) * 512 + 1 * (j 0).val = win3_3.index t (0 : Fin 2) * 512 + 1 * (j 0).val; omega
    | ⟨1, _⟩ => show win3_0.index t (1 : Fin 2) * 4096 + 1 * (j 1).val = win3_3.index t (1 : Fin 2) * 4096 + 1 * (j 1).val; omega
  have h1 : ((cfg3.win 1).blk t).view.emb (ix2 (0 : Fin 1) (j 1)) = ix2 (0 : Fin 1) ((((cfg3.win 3).blk t).view.emb j) 1) := by
    funext a; apply Fin.ext
    match a with
    | ⟨0, _⟩ => show win3_1.index t (0 : Fin 2) * 1 + 1 * 0 = 0; omega
    | ⟨1, _⟩ => show win3_1.index t (1 : Fin 2) * 4096 + 1 * (j 1).val = win3_3.index t (1 : Fin 2) * 4096 + 1 * (j 1).val; omega
  have h2 : ((cfg3.win 2).blk t).view.emb (ix2 (0 : Fin 1) (j 1)) = ix2 (0 : Fin 1) ((((cfg3.win 3).blk t).view.emb j) 1) := by
    funext a; apply Fin.ext
    match a with
    | ⟨0, _⟩ => show win3_2.index t (0 : Fin 2) * 1 + 1 * 0 = 0; omega
    | ⟨1, _⟩ => show win3_2.index t (1 : Fin 2) * 4096 + 1 * (j 1).val = win3_3.index t (1 : Fin 2) * 4096 + 1 * (j 1).val; omega
  rw [h0, h1, h2]
  rfl

/-- What point `t` writes back is block `t` of `nrm3` of the three input arrays as the region finds them. -/
theorem flushed3_eq (c : Dev nD) (t : Fin cfg3.N) :
    (dat3 V c).flushed 3 t = ((cfg3.win 3).blk t).view.read (Elt Ideal) (nrm3 (V c main_v3_0) (V c main_v5) (V c main_v9)) := by
  show (cfg3.win 3).cut (grid3.coords t) ((dat3 V c).after 3 t) = _
  rw [after3_3]
  unfold out3_3
  rw [View.canon_unit_zero hz3]
  simp only [View.ld_unit_zero (S := S512x4096) hz3, View.ld_unit_zero (S := S1x4096) hz3]
  funext j
  refine (pay3_at (iblk3 V c 0 t) (iblk3 V c 1 t) (iblk3 V c 2 t) j).trans ?_
  exact blk3_read (V c main_v3_0) (V c main_v5) (V c main_v9) t j

/-- An index of the array is in point `t`'s block iff each coordinate is in the block's range on its axis. -/
theorem mem_blk3 (t : Fin cfg3.N) (i : S8192x4096.Idx) :
    i ∈ ((cfg3.win 3).blk t).view.set ↔ ∀ a : Fin 2, win3_3.index t a * S512x4096.size a ≤ (i a).val ∧ (i a).val < win3_3.index t a * S512x4096.size a + S512x4096.size a := by
  show i ∈ ((View.whole main_v10).slice (win3_3.rect t)).set ↔ _
  rw [View.set_slice_whole, Rect.mem_set_unit]
  exact Iff.rfl

/-- Every entry of the output array lies in the block of the point its row falls in. -/
theorem cover3 (i : S8192x4096.Idx) : ∃ t : Fin cfg3.N, (cfg3.win 3).flush t = true ∧ i ∈ ((cfg3.win 3).blk t).view.set := by
  have hi0 : (i 0).val < 8192 := (i 0).isLt
  have hi1 : (i 1).val < 4096 := (i 1).isLt
  have hN : cfg3.N = 16 := N_3
  let t : Fin cfg3.N := ⟨(i 0).val / 512, by rw [hN]; omega⟩
  obtain ⟨-, -, -, -, -, -, e6, e7⟩ := idx_facts3 t
  have e6' : win3_3.index t (0 : Fin 2) = (i 0).val / 512 := e6
  refine ⟨t, flush3_3 t, ?_⟩
  rw [mem_blk3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 4096 ≤ (i 1).val ∧ (i 1).val < win3_3.index t (1 : Fin 2) * 4096 + 4096; omega

/-- The output array after the region: `nrm3` of the three input arrays as the region finds them. -/
theorem final3 (c : Dev nD) : (dat3 V c).arrAt 3 cfg3.N = nrm3 (V c main_v3_0) (V c main_v5) (V c main_v9) :=
  (dat3 V c).arrAt_eq_of_cover 3 (nrm3 (V c main_v3_0) (V c main_v5) (V c main_v9)) (fun t _ => flushed3_eq V c t) cover3

end Cert.KernelIdeal.Hand

end
-- ==== Proof.KI.Glue.lean ====
/-
  The host arithmetic between the matrix-product call and the normalising call, read at a column.

  From the row of column sums and the row of column sums of squares the host computes, entry by entry, the mean
  (the sum divided by the word of 8192.0, broadcast to the row) and the variance as the mean of the squares minus the
  squared mean. At the ideal values the quotient is the ideal instance's division, the product and difference the
  extended reals'; the broadcast constant reads the same word at every column.
-/
import proofs.«113576_j90099823935564_2_alg».proof.Proof.Gen.KernelIdeal
import proofs.«113576_j90099823935564_2_alg».proof.Proof.Spec
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx

/-- The row of column means: the row of column sums over the row count, entry by entry. -/
def meanRow (S1 : (⟨S1x4096, .f32⟩ : BufTy).Contents (Elt Ideal)) : (⟨S1x4096, .f32⟩ : BufTy).Contents (Elt Ideal) :=
  Host.divf (F := Ideal) S1 (broadcastInDim S1x4096 ![] bcast_S_S1x4096 (constant (F := Ideal) S_ .f32 0x46000000#32))

/-- The row of column variances: the row of sums of squares over the row count, minus the squared mean. -/
def varRow (S1 S2 : (⟨S1x4096, .f32⟩ : BufTy).Contents (Elt Ideal)) : (⟨S1x4096, .f32⟩ : BufTy).Contents (Elt Ideal) :=
  subf (Host.divf (F := Ideal) S2 (broadcastInDim S1x4096 ![] bcast_S_S1x4096 (constant (F := Ideal) S_ .f32 0x46000000#32)))
    (mulf (meanRow S1) (meanRow S1))

/-- The mean at a column. -/
theorem meanRow_at (S1 : (⟨S1x4096, .f32⟩ : BufTy).Contents (Elt Ideal)) (o : Fin 4096) :
    meanRow S1 (ix2 (0 : Fin 1) o) = Ideal.div (S1 (ix2 (0 : Fin 1) o)) Cert.Spec.nRows := rfl

/-- The variance at a column. -/
theorem varRow_at (S1 S2 : (⟨S1x4096, .f32⟩ : BufTy).Contents (Elt Ideal)) (o : Fin 4096) :
    varRow S1 S2 (ix2 (0 : Fin 1) o)
      = Ideal.div (S2 (ix2 (0 : Fin 1) o)) Cert.Spec.nRows - meanRow S1 (ix2 (0 : Fin 1) o) * meanRow S1 (ix2 (0 : Fin 1) o) := rfl

end Cert.KernelIdeal.PayValue

end
-- ==== Proof.KI.Compose.lean ====
/-
  The normalising region's result, fed by the host's mean and variance rows, is the first normalised form.

  The last region leaves, at entry (r, o), the entry of its first input minus the mean row at column o, times the
  reciprocal square root of the variance row at column o plus ε. When the first input holds `out`, and the two rows
  the host computed them from hold the column sums of `out` and of its squares, the mean row is the column mean and
  the variance row the mean of the squares minus the squared mean: entry by entry this is Spec.lean's `normK out`.
-/
import proofs.«113576_j90099823935564_2_alg».proof.Proof.KI.Val3
import proofs.«113576_j90099823935564_2_alg».proof.Proof.KI.Glue
import proofs.«113576_j90099823935564_2_alg».proof.Proof.Spec

noncomputable section

namespace Cert.KernelIdeal.PayValue

open Cert.KernelIdeal Cert.KernelIdeal.Gen Idealize.ShloMosaic Idealize.ShloMosaic.ValueIdx

/-- The normalising region's result over the host's mean and variance rows, at an entry. -/
theorem nrm3_at (out : Fin 8192 → Fin 4096 → EReal) (A0 : S8192x4096.Idx → EReal)
    (S1 S2 : (⟨S1x4096, .f32⟩ : BufTy).Contents (Elt Ideal))
    (h0 : ∀ (r : Fin 8192) (o : Fin 4096), A0 (ix2 r o) = out r o)
    (h1 : ∀ o : Fin 4096, S1 (ix2 (0 : Fin 1) o) = Cert.Spec.colSum out o)
    (h2 : ∀ o : Fin 4096, S2 (ix2 (0 : Fin 1) o) = Cert.Spec.colSum (fun r o => out r o * out r o) o)
    (r : Fin 8192) (o : Fin 4096) :
    Cert.KernelIdeal.Hand.nrm3 A0 (meanRow S1) (varRow S1 S2) (ix2 r o) = Cert.Spec.normK out r o := by
  show (A0 (ix2 r o) - meanRow S1 (ix2 (0 : Fin 1) o))
      * Ideal.rsqrt (varRow S1 S2 (ix2 (0 : Fin 1) o) + Ideal.ofBits .f32 0x3727C5AC#32) = Cert.Spec.normK out r o
  rw [varRow_at, meanRow_at, h0, h1, h2]
  rfl

/-- The normalising region's result over the host's mean and variance rows, as one function. -/
theorem nrm3_is_normK (out : Fin 8192 → Fin 4096 → EReal) (A0 : S8192x4096.Idx → EReal)
    (S1 S2 : (⟨S1x4096, .f32⟩ : BufTy).Contents (Elt Ideal))
    (h0 : ∀ (r : Fin 8192) (o : Fin 4096), A0 (ix2 r o) = out r o)
    (h1 : ∀ o : Fin 4096, S1 (ix2 (0 : Fin 1) o) = Cert.Spec.colSum out o)
    (h2 : ∀ o : Fin 4096, S2 (ix2 (0 : Fin 1) o) = Cert.Spec.colSum (fun r o => out r o * out r o) o) :
    Cert.KernelIdeal.Hand.nrm3 A0 (meanRow S1) (varRow S1 S2)
      = fun idx : S8192x4096.Idx => Cert.Spec.normK out (idx 0) (idx 1) := by
  funext idx
  obtain ⟨r, o, rfl⟩ : ∃ (r : Fin 8192) (o : Fin 4096), idx = ix2 r o := ⟨idx 0, idx 1, eq_ix2 idx⟩
  exact nrm3_at out A0 S1 S2 h0 h1 h2 r o

end Cert.KernelIdeal.PayValue

end
-- ==== Proof.RefValue.lean ====
/-
  The reference program's result, read at an entry, is the specification's second normalised form.

  The reference run ends with its result array at the composition of its thirty operations. Read one operation at a
  time at an index: the sign of each entry of the two matrices, their contraction over the shared axis plus the bias
  broadcast along the rows (`lin` of the signs), the column sums of that and of the squared deviations from the column
  mean — each started from the word of 0.0, which denotes 0 — divided by the word of 8192.0, and the deviation times the
  reciprocal square root of the variance plus ε. The broadcasts only choose which coordinate a stage is read at: a
  column quantity is read at the entry's column. What is left is Spec.lean's `normR`, term for term.
-/
import proofs.«113576_j90099823935564_2_alg».proof.Proof.Gen.ReferenceIdeal.Read
import proofs.«113576_j90099823935564_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The sign of one entry: -1, 0 or 1 by the order, the infinities' ∓1. -/
def sgnR : EReal → EReal := Ideal.sign

/-- A sign is a real, whatever the entry. -/
theorem sgnR_real (e : EReal) : ∃ v : ℝ, sgnR e = (v : EReal) := by
  induction e using EReal.rec with
  | bot => exact ⟨-1, by simp [sgnR]⟩
  | coe r => exact ⟨(SignType.sign r : ℝ), rfl⟩
  | top => exact ⟨1, by simp [sgnR]⟩

/-- The linear layer of the signs of the two matrices, plus the bias: the array the reference normalises. -/
abbrev refLin (X : (⟨S8192x4096, .f32⟩ : BufTy).Contents (Elt Ideal)) (W : (⟨S4096x4096, .f32⟩ : BufTy).Contents (Elt Ideal))
    (B : (⟨S4096, .f32⟩ : BufTy).Contents (Elt Ideal)) : Fin 8192 → Fin 4096 → EReal :=
  Cert.Spec.lin (fun r i => sgnR (X (ix2 r i))) (fun o i => sgnR (W (ix2 o i))) (fun o => B (ix1 o))

/-! ## Where each stage is read -/

theorem lidx_eq (r : Fin 8192) (o k : Fin 4096) : lidx_main_v2 (ix2 r o) k = ix2 r k :=
  funext fun a => by match a with | ⟨0, _⟩ => rfl | ⟨1, _⟩ => rfl
theorem ridx_eq (r : Fin 8192) (o k : Fin 4096) : ridx_main_v2 (ix2 r o) k = ix2 o k :=
  funext fun a => by match a with | ⟨0, _⟩ => rfl | ⟨1, _⟩ => rfl
theorem bias_idx_eq (r : Fin 8192) (o : Fin 4096) : idx_main_v3 (idx_main_v4 (ix2 r o)) = ix1 o :=
  funext fun a => by match a with | ⟨0, _⟩ => rfl
theorem col_idx_eq (o : Fin 4096) (k : Fin 8192) : idx_main_v6 (ix1 o) k = ix2 k o :=
  funext fun a => by match a with | ⟨0, _⟩ => rfl | ⟨1, _⟩ => rfl
theorem col_idx_eq' (o : Fin 4096) (k : Fin 8192) : idx_main_v13 (ix1 o) k = ix2 k o :=
  funext fun a => by match a with | ⟨0, _⟩ => rfl | ⟨1, _⟩ => rfl
theorem mean_idx_eq (r : Fin 8192) (o : Fin 4096) : idx_main_v9 (idx_main_v10 (ix2 r o)) = ix1 o :=
  funext fun a => by match a with | ⟨0, _⟩ => rfl
theorem mean_idx_eq' (r : Fin 8192) (o : Fin 4096) : idx_main_v16 (idx_main_v17 (ix2 r o)) = ix1 o :=
  funext fun a => by match a with | ⟨0, _⟩ => rfl
theorem scale_idx_eq (r : Fin 8192) (o : Fin 4096) : idx_main_v22 (idx_main_v23 (ix2 r o)) = ix1 o :=
  funext fun a => by match a with | ⟨0, _⟩ => rfl

/-! ## The stages -/

variable (X : (⟨S8192x4096, .f32⟩ : BufTy).Contents (Elt Ideal)) (W : (⟨S4096x4096, .f32⟩ : BufTy).Contents (Elt Ideal))
  (B : (⟨S4096, .f32⟩ : BufTy).Contents (Elt Ideal))

/-- The array before normalisation is the linear layer of the signs plus the bias. -/
theorem out_at (r : Fin 8192) (o : Fin 4096) : val_main_v5 (F := Ideal) X W B (ix2 r o) = refLin X W B r o := by
  rw [val_main_v5_apply, val_main_v2_apply, val_main_v4_apply, val_main_v3_apply, bias_idx_eq]
  simp only [val_main_v0_apply, val_main_v1_apply, lidx_eq, ridx_eq, Ideal.addf_def, Ideal.hostUnary_sign_def]
  rfl

/-- The column mean. -/
theorem mean_at (o : Fin 4096) : val_main_v8 (F := Ideal) X W B (ix1 o) = Cert.Spec.mean (refLin X W B) o := by
  rw [val_main_v8_apply, val_main_v6_apply, val_main_v7_apply, val_main_cst_0_apply, val_main_cst_apply]
  simp only [col_idx_eq, out_at, Ideal.hostDivf_def, Ideal.ofBits_def, Ideal.ofBits_zero_f32, zero_add]
  rfl

/-- The deviation from the column mean (the stage that is squared). -/
theorem dev_at (r : Fin 8192) (o : Fin 4096) :
    val_main_v11 (F := Ideal) X W B (ix2 r o) = refLin X W B r o - Cert.Spec.mean (refLin X W B) o := by
  rw [val_main_v11_apply, val_main_v10_apply, val_main_v9_apply, mean_idx_eq, out_at, mean_at]
  rfl

/-- The deviation from the column mean (the stage that is scaled). -/
theorem dev_at' (r : Fin 8192) (o : Fin 4096) :
    val_main_v18 (F := Ideal) X W B (ix2 r o) = refLin X W B r o - Cert.Spec.mean (refLin X W B) o := by
  rw [val_main_v18_apply, val_main_v17_apply, val_main_v16_apply, mean_idx_eq', out_at, mean_at]
  rfl

/-- The column variance: the mean of the squared deviations. -/
theorem var_at (o : Fin 4096) : val_main_v15 (F := Ideal) X W B (ix1 o) = Cert.Spec.varR (refLin X W B) o := by
  rw [val_main_v15_apply, val_main_v13_apply, val_main_v14_apply, val_main_cst_2_apply, val_main_cst_1_apply]
  simp only [col_idx_eq', val_main_v12_apply, dev_at, Ideal.hostDivf_def, Ideal.mulf_def, Ideal.ofBits_def,
    Ideal.ofBits_zero_f32, zero_add]
  rfl

/-- The column scale: the reciprocal square root of the variance plus ε. -/
theorem scale_at (o : Fin 4096) :
    val_main_v21 (F := Ideal) X W B (ix1 o) = Ideal.rsqrt (Cert.Spec.varR (refLin X W B) o + Cert.Spec.eps) := by
  rw [val_main_v21_apply, val_main_v20_apply, val_main_v19_apply, val_main_cst_3_apply, var_at]
  simp only [Ideal.hostUnary_rsqrt_def, Ideal.addf_def, Ideal.ofBits_def]

/-- The reference's result at an entry is the second normalised form of the linear layer of the signs. -/
theorem ref_at (r : Fin 8192) (o : Fin 4096) :
    val_main_v24 (F := Ideal) X W B (ix2 r o) = Cert.Spec.normR (refLin X W B) r o := by
  rw [val_main_v24_apply, val_main_v23_apply, val_main_v22_apply, scale_idx_eq, dev_at', scale_at]
  rfl

/-- The reference's result array, as one function of the three argument arrays. -/
theorem ref_is_normR :
    val_main_v24 (F := Ideal) X W B = fun idx : S8192x4096.Idx =>
      Cert.Spec.normR (Cert.Spec.lin (fun r i => sgnR (X (ix2 r i))) (fun o i => sgnR (W (ix2 o i))) (fun o => B (ix1 o)))
        (idx 0) (idx 1) := by
  funext idx
  obtain ⟨r, o, rfl⟩ : ∃ (r : Fin 8192) (o : Fin 4096), idx = ix2 r o := ⟨idx 0, idx 1, eq_ix2 idx⟩
  exact ref_at X W B r o

end Cert.ReferenceIdeal.RefValue

end
-- ==== Proof.KI.ValAll.lean ====
/-
  The kernel program's value, from its pieces.

  Between the regions the host does a little arithmetic, read here off any contents of the buffers: the bias vector
  recast as a one-row matrix reads the vector at the column; the mean row is the row of column sums over the row
  count; the variance row the row of sums of squares over the row count minus the squared mean. With the two
  binarized matrices the signs of the two arguments and the bias row the bias, the matrix-product region's three
  arrays are the linear layer of the signs and its column sums (of the entries, of their squares), and the
  normalising region's result over the host's mean and variance rows is the first normalised form of that layer —
  the array the reference's result is also equal to under the precondition.
-/
import proofs.«113576_j90099823935564_2_alg».proof.Proof.KI.Val2
import proofs.«113576_j90099823935564_2_alg».proof.Proof.KI.Compose
import proofs.«113576_j90099823935564_2_alg».proof.Proof.RefValue
import proofs.«113576_j90099823935564_2_alg».proof.Proof.Gen.KernelIdeal.Launch
import Idealize.ShloMosaic.Lib.StableHlo.Run

set_option maxRecDepth 16384

noncomputable section

open scoped BigOperators

namespace Cert.KernelIdeal.Hand

open Cert.KernelIdeal Cert.KernelIdeal.Gen Cert.KernelIdeal.PayValue
open Idealize.ShloMosaic Idealize.ShloMosaic.TcCoe Idealize.SL.Sem Idealize.ShloMosaic.ValueIdx

/-! ## The host arithmetic, off any contents -/

/-- After the second host stretch the mean row is the row of column sums over the row count. -/
theorem host_mean (W : Valuation τ sig (Elt Ideal)) :
    StableHlo.after (hostOps3 (F := Ideal)) W (Proc.devRef .tc main_v5) = meanRow (W (Proc.devRef .tc main_v3_1)) := by
  after_results
  rfl

/-- After the second host stretch the variance row is the row of sums of squares over the row count, minus the
    squared mean. -/
theorem host_var (W : Valuation τ sig (Elt Ideal)) :
    StableHlo.after (hostOps3 (F := Ideal)) W (Proc.devRef .tc main_v9)
      = varRow (W (Proc.devRef .tc main_v3_1)) (W (Proc.devRef .tc main_v3_2)) := by
  after_results
  rfl

/-- After the first host stretch the bias row reads the bias vector at the column. -/
theorem host_bias (W : Valuation τ sig (Elt Ideal)) (o : Fin 4096) :
    (StableHlo.after (hostOps2 (F := Ideal)) W (Proc.devRef .tc main_v2) : S1x4096.Idx → EReal) (ix2 (0 : Fin 1) o)
      = (W (Proc.devRef .tc main_arg2) : S4096.Idx → EReal) (ix1 o) := by
  have e : (StableHlo.after (hostOps2 (F := Ideal)) W (Proc.devRef .tc main_v2) : S1x4096.Idx → EReal)
      = shapeCast S1x4096 (W (Proc.devRef .tc main_arg2) : S4096.Idx → EReal) shapeCasts_S4096_S1x4096 := by
    after_results
    rfl
  rw [e]
  exact shapeCast_a_1a_apply _ _ (0 : Fin 1) o

/-! ## The value of the last region's result -/

/-- With the binarized matrices the signs of `x` and `w` and the bias row `b`, the array the regions normalise is the
    linear layer of the signs plus the bias. -/
theorem outL_eq (V : (c : Dev nD) → (b : Ref sig .tc) → Buf (Elt Ideal) ((c : Thread nD τ).loc b)) (c : Dev nD)
    (x : S8192x4096.Idx → EReal) (w : S4096x4096.Idx → EReal) (b : S4096.Idx → EReal)
    (hL : (V c main_v0 : S8192x4096.Idx → EReal) = fun i => Ideal.sign (x i))
    (hR : (V c main_v1 : S4096x4096.Idx → EReal) = fun i => Ideal.sign (w i))
    (hB : ∀ o : Fin 4096, (V c main_v2 : S1x4096.Idx → EReal) (ix2 (0 : Fin 1) o) = b (ix1 o)) :
    outL V c = Cert.Spec.lin (fun r i => Cert.ReferenceIdeal.RefValue.sgnR (x (ix2 r i)))
      (fun o i => Cert.ReferenceIdeal.RefValue.sgnR (w (ix2 o i))) (fun o => b (ix1 o)) := by
  funext r o
  show (∑ i, arrL V c (ix2 r i) * arrR V c (ix2 o i)) + arrB V c (ix2 (0 : Fin 1) o)
    = (∑ i, Ideal.sign (x (ix2 r i)) * Ideal.sign (w (ix2 o i))) + b (ix1 o)
  have eB : arrB V c (ix2 (0 : Fin 1) o) = b (ix1 o) := hB o
  rw [eB]
  refine congrArg (· + b (ix1 o)) (Finset.sum_congr rfl fun i _ => ?_)
  have eL : arrL V c (ix2 r i) = Ideal.sign (x (ix2 r i)) := congrFun hL (ix2 r i)
  have eR : arrR V c (ix2 o i) = Ideal.sign (w (ix2 o i)) := congrFun hR (ix2 o i)
  rw [eL, eR]

/-- THE KERNEL'S RESULT: the last region's result array, over the host's mean and variance rows of the
    matrix-product region's three arrays, is the first normalised form of the linear layer of the signs. -/
theorem kernel_value (V : (c : Dev nD) → (b : Ref sig .tc) → Buf (Elt Ideal) ((c : Thread nD τ).loc b)) (c : Dev nD)
    (x : S8192x4096.Idx → EReal) (w : S4096x4096.Idx → EReal) (b : S4096.Idx → EReal)
    (hL : (V c main_v0 : S8192x4096.Idx → EReal) = fun i => Ideal.sign (x i))
    (hR : (V c main_v1 : S4096x4096.Idx → EReal) = fun i => Ideal.sign (w i))
    (hB : ∀ o : Fin 4096, (V c main_v2 : S1x4096.Idx → EReal) (ix2 (0 : Fin 1) o) = b (ix1 o)) :
    nrm3 ((dat2 V c).arrAt 3 cfg2.N) (meanRow ((dat2 V c).arrAt 4 cfg2.N))
        (varRow ((dat2 V c).arrAt 4 cfg2.N) ((dat2 V c).arrAt 5 cfg2.N))
      = fun idx : S8192x4096.Idx => Cert.Spec.normK (Cert.Spec.lin (fun r i => Cert.ReferenceIdeal.RefValue.sgnR (x (ix2 r i)))
          (fun o i => Cert.ReferenceIdeal.RefValue.sgnR (w (ix2 o i))) (fun o => b (ix1 o))) (idx 0) (idx 1) := by
  rw [← outL_eq V c x w b hL hR hB]
  exact nrm3_is_normK (outL V c) _ _ _ (final2_out_at V c) (final2_sum_at V c) (final2_sumsq_at V c)

end Cert.KernelIdeal.Hand

end
-- ==== Proof.KI.ChainV.lean ====
/-
  The result at the end of @main, at the ideal instance.  The matmul region is entered with the two binarized
  arrays — sign of x and sign of w, left by the first two regions — and the bias as a row; it leaves the linear
  layer's output and its column sums and column sums of squares; the host lines make the mean and variance rows of
  them; the last region normalizes.  So the result array is the normalized linear layer of the arguments.
-/
import proofs.«113576_j90099823935564_2_alg».proof.Proof.KI.Chain
import proofs.«113576_j90099823935564_2_alg».proof.Proof.KI.Val0
import proofs.«113576_j90099823935564_2_alg».proof.Proof.KI.Val1
import proofs.«113576_j90099823935564_2_alg».proof.Proof.KI.ValAll

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The matmul region finds sign of x in its first operand's array: written by the first region, untouched since. -/
theorem V3_lhs (c : Dev nD) :
    (V3 m ρ c main_v0 : S8192x4096.Idx → EReal) = fun i => Ideal.sign ((m ((c : Thread nD τ).loc main_arg0) : S8192x4096.Idx → EReal) i) :=
  (hostOps2_keeps_main_v0 (W2 m ρ c)).trans ((W2_of_ne m ρ c main_v0 (by decide)).trans
    ((W1_arr m ρ c 1).trans ((final0 (V0 m ρ) c).trans rfl)))

/-- … and sign of w in its second operand's: written by the second region. -/
theorem V3_rhs (c : Dev nD) :
    (V3 m ρ c main_v1 : S4096x4096.Idx → EReal) = fun i => Ideal.sign ((m ((c : Thread nD τ).loc main_arg1) : S4096x4096.Idx → EReal) i) :=
  (hostOps2_keeps_main_v1 (W2 m ρ c)).trans ((W2_arr m ρ c 1).trans ((final1 (V1 m ρ) c).trans
    (congrArg (fun a : S4096x4096.Idx → EReal => fun i => Ideal.sign (a i)) (W1_of_ne m ρ c main_arg1 (by decide)))))

/-- … and the bias, reshaped to a row, in its third. -/
theorem V3_bias (c : Dev nD) (o : Fin 4096) :
    (V3 m ρ c main_v2 : S1x4096.Idx → EReal) (ix2 (0 : Fin 1) o) = (m ((c : Thread nD τ).loc main_arg2) : S4096.Idx → EReal) (ix1 o) :=
  (host_bias (W2 m ρ c) o).trans (congrFun ((W2_of_ne m ρ c main_arg2 (by decide)).trans (W1_of_ne m ρ c main_arg2 (by decide))) (ix1 o))

/-- The result array at the end of @main: the normalized linear layer of the binarized arguments. -/
theorem result (c : Dev nD) :
    (W6 m ρ c (Proc.devRef .tc main_v10) : S8192x4096.Idx → EReal) = fun idx : S8192x4096.Idx =>
      Cert.Spec.normK (Cert.Spec.lin
        (fun r i => Cert.ReferenceIdeal.RefValue.sgnR ((m ((c : Thread nD τ).loc main_arg0) : S8192x4096.Idx → EReal) (ix2 r i)))
        (fun o i => Cert.ReferenceIdeal.RefValue.sgnR ((m ((c : Thread nD τ).loc main_arg1) : S4096x4096.Idx → EReal) (ix2 o i)))
        (fun o => (m ((c : Thread nD τ).loc main_arg2) : S4096.Idx → EReal) (ix1 o))) (idx 0) (idx 1) := by
  have e0 : (V5 m ρ c main_v3_0 : S8192x4096.Idx → EReal) = (dat2 (V3 m ρ) c).arrAt 3 cfg2.N :=
    (hostOps3_keeps_main_v3_0 (W4 m ρ c)).trans (W4_arr m ρ c 3)
  have e1 : (V5 m ρ c main_v5 : S1x4096.Idx → EReal) = meanRow ((dat2 (V3 m ρ) c).arrAt 4 cfg2.N) :=
    (host_mean (W4 m ρ c)).trans (congrArg meanRow (W4_arr m ρ c 4))
  have e2 : (V5 m ρ c main_v9 : S1x4096.Idx → EReal) = varRow ((dat2 (V3 m ρ) c).arrAt 4 cfg2.N) ((dat2 (V3 m ρ) c).arrAt 5 cfg2.N) :=
    (host_var (W4 m ρ c)).trans (congr (congrArg varRow (W4_arr m ρ c 4)) (W4_arr m ρ c 5))
  refine (W6_arr m ρ c 3).trans ((final3 (V5 m ρ) c).trans ((congr (congr (congrArg nrm3 e0) e1) e2).trans ?_))
  exact kernel_value (V3 m ρ) c _ _ _ (V3_lhs m ρ c) (V3_rhs m ρ c) (V3_bias m ρ c)

/-- The kernel's run with its result named: every weakly fair execution terminates, nothing faulting, with the result
    array at the normalized linear layer of the arguments and the arguments as launched. -/
theorem value_run : θ_run defs (onTc (τ := τ) (main (F := Ideal))) ⟨m, fun _ => 0, ρ⟩ (fun r => ∀ c : Dev nD,
      r.2.mem ((c.tc : Thread nD τ).loc main_v10) = (fun idx : S8192x4096.Idx =>
        Cert.Spec.normK (Cert.Spec.lin
          (fun r i => Cert.ReferenceIdeal.RefValue.sgnR ((m ((c : Thread nD τ).loc main_arg0) : S8192x4096.Idx → EReal) (ix2 r i)))
          (fun o i => Cert.ReferenceIdeal.RefValue.sgnR ((m ((c : Thread nD τ).loc main_arg1) : S4096x4096.Idx → EReal) (ix2 o i)))
          (fun o => (m ((c : Thread nD τ).loc main_arg2) : S4096.Idx → EReal) (ix1 o))) (idx 0) (idx 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v10 (by decide))).trans (result m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.KernelIdeal.Hand

end
-- ==== Proof.SpecLaw.lean ====
/-
  The one algebraic law of the certificate: for a real-valued array the mean of the squares minus the squared mean is
  the mean of the squared deviations from the mean, so the two normalised results of Spec.lean are one function.

  Over the reals, with S = ∑ v, c = 1/n and n the number of terms,
      ∑ (v - S c)² = ∑ v² - 2 (S c) S + n (S c)²,   and times c:   (∑ v²) c - 2 (S c)² + (S c)² = (∑ v²) c - (S c)².
  On the extended reals the same computation is not available at an infinite entry (∞ - ∞ is a convention there), so the
  array is first written as the coercion of a real one, every sum, product, difference and the division by the word of
  8192.0 (a nonzero real) is pushed inside the coercion, and the real identity finishes.
-/
import proofs.«113576_j90099823935564_2_alg».proof.Proof.Spec

noncomputable section

open scoped BigOperators

namespace Cert.Spec

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of 8192.0 denotes the real 8192. -/
theorem nRows_eq : nRows = ((8192 : ℝ) : EReal) := by
  simp [nRows, Ideal.ofBits, Ideal.ieee, -EReal.coe_mul]; norm_num

/-- Dividing by the word of 8192.0 is multiplying by the real 1/8192, on every extended real. -/
theorem div_nRows (x : EReal) : Ideal.div x nRows = x * ((1 / 8192 : ℝ) : EReal) := by
  rw [nRows_eq]; exact Ideal.div_coe (by norm_num) x

/-- The variance identity over the reals, for `n` terms and `c = 1/n` written as a factor. -/
theorem real_var_identity {ι : Type*} [Fintype ι] (v : ι → ℝ) (n : ℝ) (hn : (Fintype.card ι : ℝ) = n) (hn0 : n ≠ 0) :
    (∑ r, v r * v r) * (1 / n) - (∑ r, v r) * (1 / n) * ((∑ r, v r) * (1 / n))
      = (∑ r, (v r - (∑ r, v r) * (1 / n)) * (v r - (∑ r, v r) * (1 / n))) * (1 / n) := by
  set S : ℝ := ∑ r, v r with hS
  have h1 : ∀ r, (v r - S * (1 / n)) * (v r - S * (1 / n)) = v r * v r - 2 * (S * (1 / n)) * v r + S * (1 / n) * (S * (1 / n)) := by
    intro r; ring
  simp only [h1]
  rw [Finset.sum_add_distrib, Finset.sum_sub_distrib, ← Finset.mul_sum, Finset.sum_const, Finset.card_univ, nsmul_eq_mul,
    hn, ← hS]
  field_simp
  ring

/-- For a real-valued array the two variances of a column agree. -/
theorem varK_eq_varR (out : Fin 8192 → Fin 4096 → EReal) (hfin : ∀ r o, ∃ v : ℝ, out r o = (v : EReal)) (o : Fin 4096) :
    varK out o = varR out o := by
  choose v hv using hfin
  have hout : out = fun r o => ((v r o : ℝ) : EReal) := funext fun r => funext fun o => hv r o
  subst hout
  have hmean : ∀ o, mean (fun r o => ((v r o : ℝ) : EReal)) o = (((∑ r, v r o) * (1 / 8192) : ℝ) : EReal) := by
    intro o
    simp only [mean, colSum, div_nRows]
    rw [← coe_sum, ← EReal.coe_mul]
  simp only [varK, varR, hmean]
  simp only [colSum, div_nRows, ← EReal.coe_mul, ← EReal.coe_sub, ← coe_sum]
  refine congrArg _ ?_
  exact real_var_identity (fun r => v r o) 8192 (by simp) (by norm_num)

/-- For a real-valued array the two normalised results are one function. -/
theorem normK_eq_normR (out : Fin 8192 → Fin 4096 → EReal) (hfin : ∀ r o, ∃ v : ℝ, out r o = (v : EReal)) :
    normK out = normR out := by
  funext r o
  simp only [normK, normR, varK_eq_varR out hfin o]

/-- The linear layer of real-valued entries and a real-valued bias is real-valued. -/
theorem lin_real (sx : Fin 8192 → Fin 4096 → EReal) (sw : Fin 4096 → Fin 4096 → EReal) (b : Fin 4096 → EReal)
    (hx : ∀ r i, ∃ v : ℝ, sx r i = (v : EReal)) (hw : ∀ o i, ∃ v : ℝ, sw o i = (v : EReal))
    (hb : ∀ o, ∃ v : ℝ, b o = (v : EReal)) : ∀ r o, ∃ v : ℝ, lin sx sw b r o = (v : EReal) := by
  intro r o
  choose a ha using hx
  choose c hc using hw
  choose d hd using hb
  refine ⟨(∑ i, a r i * c o i) + d o, ?_⟩
  simp only [lin, ha, hc, hd, ← EReal.coe_mul]
  rw [← coe_sum, ← EReal.coe_add]

end Cert.Spec

end
-- ==== Proof.Finite.lean ====
/-
  From the precondition to finiteness of the bias.

  The precondition's predicate is the conjunction, over the three argument arrays, of "every entry's absolute value is
  below +∞" (each an `and`-reduction over a whole array of the comparisons against the word of +∞, started from 1).
  Its value being 1 therefore says, entry by entry, |e| < +∞ on the extended reals, and such an entry is neither +∞ nor
  -∞: it is a real. Only the third array (the bias) is needed downstream — the first two enter the result through their
  signs, which are real whatever the entry — but the same reading is stated for all three.
-/
import proofs.«113576_j90099823935564_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value compares below the word of +∞ is a real. -/
theorem real_of_abs_lt (e : EReal)
    (h : FloatOps.cmpf (F := Ideal) (φ := .f32) .olt (FloatOps.hostAbsf (F := Ideal) (φ := .f32) e)
      (FloatOps.ofBits (F := Ideal) .f32 0x7F800000#32) = 1#1) : ∃ v : ℝ, e = (v : EReal) := by
  rw [Ideal.hostAbsf_def, Ideal.absf_def, Ideal.ofBits_def, ofBits_inf, Ideal.cmpf_def] at h
  induction e using EReal.rec with
  | bot => exact absurd h (by simp [Ideal.cmp])
  | coe v => exact ⟨v, rfl⟩
  | top => exact absurd h (by simp [Ideal.cmp])

variable [Facts]

/-- Under the precondition on three arrays every entry of each is a real. -/
theorem all_real (X : FVec Ideal S8192x4096 .f32) (W : FVec Ideal S4096x4096 .f32) (B : FVec Ideal S4096 .f32)
    (h : fn (F := Ideal) X W B = fun _ => 1#1) :
    (∀ i : S8192x4096.Idx, ∃ v : ℝ, X i = (v : EReal)) ∧ (∀ i : S4096x4096.Idx, ∃ v : ℝ, W i = (v : EReal))
      ∧ (∀ i : S4096.Idx, ∃ v : ℝ, B i = (v : EReal)) := by
  have h0 := congrFun h ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

/-- Under the precondition the bias is real at every coordinate. -/
theorem bias_real (X : FVec Ideal S8192x4096 .f32) (W : FVec Ideal S4096x4096 .f32) (B : FVec Ideal S4096 .f32)
    (h : fn (F := Ideal) X W B = fun _ => 1#1) : ∀ o : Fin 4096, ∃ v : ℝ, B (ix1 o) = (v : EReal) :=
  fun o => (all_real X W B h).2.2 (ix1 o)

end Cert.Finite

end
-- ==== Proof.RefBridge.lean ====
/-
  The reference's result in the first normalised form.

  The reference computes the variance as the mean of the squared deviations; the other program as the mean of the
  squares minus the squared mean. Under the precondition the bias is real at every coordinate, a sign is always a real,
  so the array that is normalised — the contraction of the signs plus the bias — is real-valued, and there the two
  variances are one number. Hence the reference's result array is also the first normalised form of the same array.
-/
import proofs.«113576_j90099823935564_2_alg».proof.Proof.RefValue
import proofs.«113576_j90099823935564_2_alg».proof.Proof.SpecLaw
import proofs.«113576_j90099823935564_2_alg».proof.Proof.Finite

noncomputable section

namespace Cert.RefBridge

open Cert.ReferenceIdeal Cert.ReferenceIdeal.Read Cert.ReferenceIdeal.RefValue Idealize.ShloMosaic Idealize.ShloMosaic.ValueIdx

variable [Cert.Pre_finite_inputs.Facts]

/-- Under the precondition the array the reference normalises is real-valued. -/
theorem refLin_real (X : (⟨S8192x4096, .f32⟩ : BufTy).Contents (Elt Ideal)) (W : (⟨S4096x4096, .f32⟩ : BufTy).Contents (Elt Ideal))
    (B : (⟨S4096, .f32⟩ : BufTy).Contents (Elt Ideal)) (h : Cert.Pre_finite_inputs.fn (F := Ideal) X W B = fun _ => 1#1) :
    ∀ r o, ∃ v : ℝ, refLin X W B r o = (v : EReal) :=
  Cert.Spec.lin_real _ _ _ (fun _ _ => sgnR_real _) (fun _ _ => sgnR_real _) (Cert.Finite.bias_real X W B h)

/-- Under the precondition the reference's result array is the first normalised form of the linear layer of the signs. -/
theorem ref_is_normK (X : (⟨S8192x4096, .f32⟩ : BufTy).Contents (Elt Ideal)) (W : (⟨S4096x4096, .f32⟩ : BufTy).Contents (Elt Ideal))
    (B : (⟨S4096, .f32⟩ : BufTy).Contents (Elt Ideal)) (h : Cert.Pre_finite_inputs.fn (F := Ideal) X W B = fun _ => 1#1) :
    val_main_v24 (F := Ideal) X W B = fun idx : S8192x4096.Idx =>
      Cert.Spec.normK (Cert.Spec.lin (fun r i => sgnR (X (ix2 r i))) (fun o i => sgnR (W (ix2 o i))) (fun o => B (ix1 o)))
        (idx 0) (idx 1) := by
  rw [ref_is_normR, ← Cert.Spec.normK_eq_normR _ (refLin_real X W B h)]

end Cert.RefBridge

end
-- ==== Proof.lean ====
/-
  A binarized linear layer followed by batch normalization, as a pipelined kernel of four calls against its plain
  reference, at the ideal instance (floats are extended reals, every operation exact).

  Both programs compute out(r, o) = (Σ_i sign x(r, i) · sign w(o, i)) + b(o) and normalize each column o of out by
  its mean μ(o) = (Σ_r out(r, o)) / 8192 and a variance.  The kernel binarizes x and w in two elementwise calls,
  accumulates out block by block over the contraction axis in a third call — which also accumulates, over the row
  blocks, each column's sum and sum of squares — takes the variance as (Σ_r out²) / 8192 − μ², and normalizes in a
  fourth call.  The reference takes the variance as (Σ_r (out − μ)²) / 8192.  The two variances are one number
  when every out(r, o) is a real number; it is, since a sign is −1, 0 or 1 and the bias is finite by the
  precondition.  Regrouping the sums by blocks needs no finiteness: addition of extended reals is associative and
  commutative.

  The frames (each program runs to the end, faults nowhere, and leaves its arguments unchanged): for the two kernel
  programs from the run of @main over its four regions, each region's body obligation proved per grid point; for
  the reference from its run.  The kernel's sign is computed through the sign bit at the word level and as a
  comparison at the ideal instance: the two entries of the idealization's ledger.
-/
import proofs.«113576_j90099823935564_2_alg».proof.Defs
import proofs.«113576_j90099823935564_2_alg».proof.Proof.Gen.Kernel
import proofs.«113576_j90099823935564_2_alg».proof.Proof.Gen.KernelIdeal
import proofs.«113576_j90099823935564_2_alg».proof.Proof.Gen.ReferenceIdeal
import proofs.«113576_j90099823935564_2_alg».proof.Proof.Gen.Pre_finite_inputs
import proofs.«113576_j90099823935564_2_alg».proof.Proof.K.Chain
import proofs.«113576_j90099823935564_2_alg».proof.Proof.KI.ChainV
import proofs.«113576_j90099823935564_2_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's two entries: 1.0 carrying an entry's sign bit is, at the ideal instance, −1 below zero and 1 otherwise. -/
theorem preserves : Cert.preserves_Kernel_KernelIdeal :=
  ⟨IdealRules.sign_bit.statement Cert.KernelIdeal.S512x4096 .f32, IdealRules.sign_bit.statement Cert.KernelIdeal.S512x4096 .f32⟩

/-- From memories agreeing on the arguments both programs end with the normalized linear layer of the arguments: the
    kernel by its run, the reference by its run read back and the equality of the two variances under the
    precondition. -/
theorem algebraic : Cert.algebraic_KernelIdeal_ReferenceIdeal := by
  intro m ρ m' ρ' hpre hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v24_eq _ _ _).trans (Cert.RefBridge.ref_is_normK _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
